-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x256 : Shape := ⟨2, ![2048, 256]⟩
abbrev S2048x2048 : Shape := ⟨2, ![2048, 2048]⟩
abbrev S256x128 : Shape := ⟨2, ![256, 128]⟩
abbrev S128 : Shape := ⟨1, ![128]⟩
abbrev S128x2048 : Shape := ⟨2, ![128, 2048]⟩
abbrev S2048 : Shape := ⟨1, ![2048]⟩
abbrev S_ : Shape := ⟨0, ![]⟩

class Facts : Prop where
  bcast_S_S2048x256 : S_.BroadcastsInDim S2048x256 (![] : Fin 0 → Fin S2048x256.rank)
  reducesTo_S2048x256_S_d0_1 : S2048x256.ReducesTo [0, 1] S_
  h_S_ : 0 < S_.numel
  bcast_S_S2048x2048 : S_.BroadcastsInDim S2048x2048 (![] : Fin 0 → Fin S2048x2048.rank)
  reducesTo_S2048x2048_S_d0_1 : S2048x2048.ReducesTo [0, 1] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x2048 : S_.BroadcastsInDim S128x2048 (![] : Fin 0 → Fin S128x2048.rank)
  reducesTo_S128x2048_S_d0_1 : S128x2048.ReducesTo [0, 1] S_
  bcast_S_S2048 : S_.BroadcastsInDim S2048 (![] : Fin 0 → Fin S2048.rank)
  reducesTo_S2048_S_d0 : S2048.ReducesTo [0] S_

variable [Facts]

def fn_part1 {F : FTy → Type} [FloatOps F] (main_arg4 : FVec F S128x2048 .f32) (main_arg5 : FVec F S2048 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x2048 .f32 := Host.absf main_arg4
  let main_cst_6 : FVec F S_ .f32 := constant S_ .f32 0x7F800000#32
  let main_v20 : FVec F S128x2048 .f32 := broadcastInDim S128x2048 ![] bcast_S_S128x2048 main_cst_6
  let main_v21 : IVec S128x2048 1 := cmpf .olt main_v19 main_v20
  let main_c_7 : IVec S_ 1 := constantI S_ 1 1#1
  let main_v22 : IVec S_ 1 := (fun x v => Host.reduce IntOp.andi x v reducesTo_S128x2048_S_d0_1 h_S_) main_v21 main_c_7
  let main_v23 : IVec S_ 1 := andi main_v18 main_v22
  let main_v24 : FVec F S2048 .f32 := Host.absf main_arg5
  let main_cst_8 : FVec F S_ .f32 := constant S_ .f32 0x7F800000#32
  let main_v25 : FVec F S2048 .f32 := broadcastInDim S2048 ![] bcast_S_S2048 main_cst_8
  let main_v26 : IVec S2048 1 := cmpf .olt main_v24 main_v25
  let main_c_9 : IVec S_ 1 := constantI S_ 1 1#1
  let main_v27 : IVec S_ 1 := (fun x v => Host.reduce IntOp.andi x v reducesTo_S2048_S_d0 h_S_) main_v26 main_c_9
  let main_v28 : IVec S_ 1 := andi main_v23 main_v27
  main_v28

def fn {F : FTy → Type} [FloatOps F] (main_arg0 : FVec F S2048x256 .f32) (main_arg1 : FVec F S2048x2048 .f32) (main_arg2 : FVec F S256x128 .f32) (main_arg3 : FVec F S128 .f32) (main_arg4 : FVec F S128x2048 .f32) (main_arg5 : FVec F S2048 .f32) : IVec S_ 1 :=
  let main_v0 : FVec F S2048x256 .f32 := Host.absf main_arg0
  let main_cst : FVec F S_ .f32 := constant S_ .f32 0x7F800000#32
  let main_v1 : FVec F S2048x256 .f32 := broadcastInDim S2048x256 ![] bcast_S_S2048x256 main_cst
  let main_v2 : IVec S2048x256 1 := cmpf .olt main_v0 main_v1
  let main_c : IVec S_ 1 := constantI S_ 1 1#1
  let main_v3 : IVec S_ 1 := (fun x v => Host.reduce IntOp.andi x v reducesTo_S2048x256_S_d0_1 h_S_) main_v2 main_c
  let main_v4 : FVec F S2048x2048 .f32 := Host.absf main_arg1
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_c_1 : IVec S_ 1 := constantI S_ 1 1#1
  let main_v7 : IVec S_ 1 := (fun x v => Host.reduce IntOp.andi x v reducesTo_S2048x2048_S_d0_1 h_S_) main_v6 main_c_1
  let main_v8 : IVec S_ 1 := andi main_v3 main_v7
  let main_v9 : FVec F S256x128 .f32 := Host.absf main_arg2
  let main_cst_2 : FVec F S_ .f32 := constant S_ .f32 0x7F800000#32
  let main_v10 : FVec F S256x128 .f32 := broadcastInDim S256x128 ![] bcast_S_S256x128 main_cst_2
  let main_v11 : IVec S256x128 1 := cmpf .olt main_v9 main_v10
  let main_c_3 : IVec S_ 1 := constantI S_ 1 1#1
  let main_v12 : IVec S_ 1 := (fun x v => Host.reduce IntOp.andi x v reducesTo_S256x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_v13 main_v16
-- ==== Kernel.lean ====
abbrev S2048x256 : Shape := ⟨2, ![2048, 256]⟩
abbrev S2048x2048 : Shape := ⟨2, ![2048, 2048]⟩
abbrev S256x128 : Shape := ⟨2, ![256, 128]⟩
abbrev S128 : Shape := ⟨1, ![128]⟩
abbrev S128x2048 : Shape := ⟨2, ![128, 2048]⟩
abbrev S2048 : Shape := ⟨1, ![2048]⟩
abbrev S1x128 : Shape := ⟨2, ![1, 128]⟩
abbrev S1x2048 : Shape := ⟨2, ![1, 2048]⟩
abbrev S512x2048 : Shape := ⟨2, ![512, 2048]⟩
abbrev S2048x128 : Shape := ⟨2, ![2048, 128]⟩
abbrev S512x128 : Shape := ⟨2, ![512, 128]⟩
abbrev S2048x512 : Shape := ⟨2, ![2048, 512]⟩
abbrev S512x512 : Shape := ⟨2, ![512, 512]⟩
abbrev S1x512 : Shape := ⟨2, ![1, 512]⟩

abbrev nBuf : Space → Nat
  | .hbm => 9
  | .vmem => 12
  | .smem => 0
  | _ => 0

abbrev bufTy : (tb : Table) → Fin (tcTables nBuf tb) → BufTy
  | .hbm, ⟨0, _⟩ => ⟨S2048x256, .f32⟩
  | .hbm, ⟨1, _⟩ => ⟨S2048x2048, .f32⟩
  | .hbm, ⟨2, _⟩ => ⟨S256x128, .f32⟩
  | .hbm, ⟨3, _⟩ => ⟨S128, .f32⟩
  | .hbm, ⟨4, _⟩ => ⟨S128x2048, .f32⟩
  | .hbm, ⟨5, _⟩ => ⟨S2048, .f32⟩
  | .hbm, ⟨6, _⟩ => ⟨S1x128, .f32⟩
  | .hbm, ⟨7, _⟩ => ⟨S1x2048, .f32⟩
  | .hbm, ⟨8, _⟩ => ⟨S2048x2048, .f32⟩
  | .local _ .vmem, ⟨0, _⟩ => ⟨S2048x256, .f32⟩
  | .local _ .vmem, ⟨1, _⟩ => ⟨S512x2048, .f32⟩
  | .local _ .vmem, ⟨2, _⟩ => ⟨S512x2048, .f32⟩
  | .local _ .vmem, ⟨3, _⟩ => ⟨S256x128, .f32⟩
  | .local _ .vmem, ⟨4, _⟩ => ⟨S1x128, .f32⟩
  | .local _ .vmem, ⟨5, _⟩ => ⟨S128x2048, .f32⟩
  | .local _ .vmem, ⟨6, _⟩ => ⟨S1x2048, .f32⟩
  | .local _ .vmem, ⟨7, _⟩ => ⟨S512x2048, .f32⟩
  | .local _ .vmem, ⟨8, _⟩ => ⟨S512x2048, .f32⟩
  | .local _ .vmem, ⟨9, _⟩ => ⟨S2048x128, .f32⟩
  | .local _ .vmem, ⟨10, _⟩ => ⟨S2048x2048, .f32⟩
  | .local _ .vmem, ⟨11, _⟩ => ⟨S2048x2048, .f32⟩
  | _, _ => ⟨S2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c4_i32 : BitVec 32 := 4#32
  let v3 : BitVec 1 := Scalar.cmpi .slt arg0 c4_i32
  let v4 : BitVec 32 := Scalar.extui v3
  let c0_i32_1 : BitVec 32 := 0#32
  let v5 : BitVec 1 := Scalar.cmpi .ne v4 c0_i32_1
  v5

def k0_mult1 (i : grid0.Coords) : BitVec 32 :=
  let arg0 : BitVec 32 := BitVec.ofNat 32 (i 0).val
  let c512_i32 : BitVec 32 := 512#32
  let v10 : BitVec 32 := Scalar.muli arg0 c512_i32
  v10
def k0_off1 (i : grid0.Coords) : Fin 2 → Nat :=
  let arg0 : BitVec 32 := BitVec.ofNat 32 (i 0).val
  let c512_i32 : BitVec 32 := 512#32
  let v10 : BitVec 32 := Scalar.muli arg0 c512_i32
  let v11 : BitVec 32 := v10
  let v12 : Index := Scalar.indexCast v11
  let c0_5 : Index := 0#32
  ![v12.toNat, 0]
def k0_cond3 (i : grid0.Coords) : BitVec 1 :=
  let arg0 : BitVec 32 := BitVec.ofNat 32 (i 0).val
  let c4_i32_2 : BitVec 32 := 4#32
  let v6 : BitVec 1 := Scalar.cmpi .sge arg0 c4_i32_2
  let v7 : BitVec 32 := Scalar.extui v6
  let c0_i32_3 : BitVec 32 := 0#32
  let v8 : BitVec 1 := Scalar.cmpi .ne v7 c0_i32_3
  v8

def k0_mult2 (i : grid0.Coords) : BitVec 32 :=
  let arg0 : BitVec 32 := BitVec.ofNat 32 (i 0).val
  let c4_i32_4 : BitVec 32 := 4#32
  let v9 : BitVec 32 := Scalar.subi arg0 c4_i32_4
  let c512_i32 : BitVec 32 := 512#32
  let v10 : BitVec 32 := Scalar.muli v9 c512_i32
  v10
def k0_off2 (i : grid0.Coords) : Fin 2 → Nat :=
  let arg0 : BitVec 32 := BitVec.ofNat 32 (i 0).val
  let c4_i32_4 : BitVec 32 := 4#32
  let v9 : BitVec 32 := Scalar.subi arg0 c4_i32_4
  let c512_i32 : BitVec 32 := 512#32
  let v10 : BitVec 32 := Scalar.muli v9 c512_i32
  let v11 : BitVec 32 := v10
  let v12 : Index := Scalar.indexCast v11
  let c0 : Index := 0#32
  ![v12.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c3_i32 : BitVec 32 := 3#32
  let v0 : BitVec 32 := Scalar.minsi arg0 c3_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c4_i32 : BitVec 32 := 4#32
  let v0 : BitVec 32 := Scalar.subi arg0 c4_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 1 → Memref sig .tc .vmem S2048x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  shapeCasts_S128_S1x128 : S128.ShapeCasts S1x128
  shapeCasts_S2048_S1x2048 : S2048.ShapeCasts S1x2048
  inb_S2048x256_S2048x256_0_0 : ∀ a, (![0, 0] : Fin 2 → Nat) a + S2048x256.size a ≤ S2048x256.size a
  h_S2048x256 : 0 < S2048x256.numel
  inb_S256x128_S256x128_0_0 : ∀ a, (![0, 0] : Fin 2 → Nat) a + S256x128.size a ≤ S256x128.size a
  h_S256x128 : 0 < S256x128.numel
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S512x128 : S1x128.Broadcasts S512x128
  inb_S128x2048_S128x2048_0_0 : ∀ a, (![0, 0] : Fin 2 → Nat) a + S128x2048.size a ≤ S128x2048.size a
  h_S128x2048 : 0 < S128x2048.numel
  inb_S2048x2048_S2048x512_0_0 : ∀ a, (![0, 0] : Fin 2 → Nat) a + S2048x512.size a ≤ S2048x2048.size a
  h_S2048x512 : 0 < S2048x512.numel
  inb_S1x2048_S1x512_0_0 : ∀ a, (![0, 0] : Fin 2 → Nat) a + S1x512.size a ≤ S1x2048.size a
  h_S1x512 : 0 < S1x512.numel
  shapeCasts_S1x512_S1x512 : S1x512.ShapeCasts S1x512
  broadcasts_S1x512_S512x512 : S1x512.Broadcasts S512x512
  inb_S512x2048_S512x512_0_0 : ∀ a, (![0, 0] : Fin 2 → Nat) a + S512x512.size a ≤ S512x2048.size a
  h_S512x512 : 0 < S512x512.numel
  inb_S2048x2048_S2048x512_0_512 : ∀ a, (![0, 512] : Fin 2 → Nat) a + S2048x512.size a ≤ S2048x2048.size a
  inb_S1x2048_S1x512_0_512 : ∀ a, (![0, 512] : Fin 2 → Nat) a + S1x512.size a ≤ S1x2048.size a
  inb_S512x2048_S512x512_0_512 : ∀ a, (![0, 512] : Fin 2 → Nat) a + S512x512.size a ≤ S512x2048.size a
  inb_S2048x2048_S2048x512_0_1024 : ∀ a, (![0, 1024] : Fin 2 → Nat) a + S2048x512.size a ≤ S2048x2048.size a
  inb_S1x2048_S1x512_0_1024 : ∀ a, (![0, 1024] : Fin 2 → Nat) a + S1x512.size a ≤ S1x2048.size a
  inb_S512x2048_S512x512_0_1024 : ∀ a, (![0, 1024] : Fin 2 → Nat) a + S512x512.size a ≤ S512x2048.size a
  inb_S2048x2048_S2048x512_0_1536 : ∀ a, (![0, 1536] : Fin 2 → Nat) a + S2048x512.size a ≤ S2048x2048.size a
  inb_S1x2048_S1x512_0_1536 : ∀ a, (![0, 1536] : Fin 2 → Nat) a + S1x512.size a ≤ S1x2048.size a
  inb_S512x2048_S512x512_0_1536 : ∀ a, (![0, 1536] : Fin 2 → Nat) a + S512x512.size a ≤ S512x2048.size a
  dot_S2048x256_S256x128_S2048x128_1_0_0_1_n_n_wf : DotDims.WF S2048x256 S256x128 S2048x128 [1] [0] [0] [1] [] []
  dot_S512x2048_S2048x128_S512x128_1_0_0_1_n_n_wf : DotDims.WF S512x2048 S2048x128 S512x128 [1] [0] [0] [1] [] []
  dot_S512x128_S128x2048_S512x2048_1_0_0_1_n_n_wf : DotDims.WF S512x128 S128x2048 S512x2048 [1] [0] [0] [1] [] []
  dot_S512x2048_S2048x512_S512x512_1_0_0_1_n_n_wf : DotDims.WF S512x2048 S2048x512 S512x512 [1] [0] [0] [1] [] []
  hrank0 : 0 < grid0.rank
  k0_mult1_dvd : ∀ i : grid0.Coords, ∀ (k0_h2 : k0_cond2 i = 1#1), 512 ∣ (k0_mult1 i).toNat
  k0_off1_inb : ∀ i : grid0.Coords, ∀ (k0_h2 : k0_cond2 i = 1#1), ∀ a, (k0_off1 i) a + S512x2048.size a ≤ S2048x2048.size a
  k0_mult2_dvd : ∀ i : grid0.Coords, ∀ (k0_h3 : k0_cond3 i = 1#1), 512 ∣ (k0_mult2 i).toNat
  k0_off2_inb : ∀ i : grid0.Coords, ∀ (k0_h3 : k0_cond3 i = 1#1), ∀ a, (k0_off2 i) a + S512x2048.size a ≤ S2048x2048.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S2048x256.size a ≤ S2048x256.size a
  hwx0_0 : ∀ i : grid0.Coords, EltTy.bits .f32 = 32 ∨ (Rect.block (s := S2048x256) S2048x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x2048.size a ≤ S2048x2048.size a
  hwx0_1 : ∀ i : grid0.Coords, EltTy.bits .f32 = 32 ∨ (Rect.block (s := S2048x2048) S512x2048.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x128.size a ≤ S256x128.size a
  hwx0_2 : ∀ i : grid0.Coords, EltTy.bits .f32 = 32 ∨ (Rect.block (s := S256x128) S256x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x2048.size a ≤ S128x2048.size a
  hwx0_4 : ∀ i : grid0.Coords, EltTy.bits .f32 = 32 ∨ (Rect.block (s := S128x2048) S128x2048.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x2048.size a ≤ S1x2048.size a
  hwx0_5 : ∀ i : grid0.Coords, EltTy.bits .f32 = 32 ∨ (Rect.block (s := S1x2048) S1x2048.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x2048.size a ≤ S2048x2048.size a
  hwx0_6 : ∀ i : grid0.Coords, EltTy.bits .f32 = 32 ∨ (Rect.block (s := S2048x2048) S512x2048.size (cc0_transform_6 i) (hinb0_6 i)).WholeWords (EltTy.packing .f32)

variable [Facts₀]

def dot_S2048x256_S256x128_S2048x128_1_0_0_1_n_n : DotDims S2048x256 S256x128 S2048x128 where
  lhsContracting := [1]
  rhsContracting := [0]
  lhsNonContracting := [0]
  rhsNonContracting := [1]
  lhsBatch := []
  rhsBatch := []
  wf := dot_S2048x256_S256x128_S2048x128_1_0_0_1_n_n_wf
def dot_S512x2048_S2048x128_S512x128_1_0_0_1_n_n : DotDims S512x2048 S2048x128 S512x128 where
  lhsContracting := [1]
  rhsContracting := [0]
  lhsNonContracting := [0]
  rhsNonContracting := [1]
  lhsBatch := []
  rhsBatch := []
  wf := dot_S512x2048_S2048x128_S512x128_1_0_0_1_n_n_wf
def dot_S512x128_S128x2048_S512x2048_1_0_0_1_n_n : DotDims S512x128 S128x2048 S512x2048 where
  lhsContracting := [1]
  rhsContracting := [0]
  lhsNonContracting := [0]
  rhsNonContracting := [1]
  lhsBatch := []
  rhsBatch := []
  wf := dot_S512x128_S128x2048_S512x2048_1_0_0_1_n_n_wf
def dot_S512x2048_S2048x512_S512x512_1_0_0_1_n_n : DotDims S512x2048 S2048x512 S512x512 where
  lhsContracting := [1]
  rhsContracting := [0]
  lhsNonContracting := [0]
  rhsNonContracting := [1]
  lhsBatch := []
  rhsBatch := []
  wf := dot_S512x2048_S2048x512_S512x512_1_0_0_1_n_n_wf

abbrev win0_0 : Pipeline.Window sig grid0 :=
  Pipeline.Window.ofSpec (Memref.whole main_arg0) S2048x256.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x2048.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S1x2048.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2) S512x2048.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun _ => false | 6 => fun i => !(k0_cond3 i == 1#1) | ⟨_ + 7, h⟩ => absurd h (Nat.not_lt.2 (Nat.le_add_left _ _))

class Facts : Prop extends Facts₀ where

variable [Facts]
-- ==== ReferenceIdeal.lean ====
abbrev S2048x256 : Shape := ⟨2, ![2048, 256]⟩
abbrev S2048x2048 : Shape := ⟨2, ![2048, 2048]⟩
abbrev S256x128 : Shape := ⟨2, ![256, 128]⟩
abbrev S128 : Shape := ⟨1, ![128]⟩
abbrev S128x2048 : Shape := ⟨2, ![128, 2048]⟩
abbrev S2048 : Shape := ⟨1, ![2048]⟩
abbrev S2048x128 : Shape := ⟨2, ![2048, 128]⟩
abbrev S1x128 : Shape := ⟨2, ![1, 128]⟩
abbrev S_ : Shape := ⟨0, ![]⟩
abbrev S1x2048 : Shape := ⟨2, ![1, 2048]⟩

abbrev nBuf : Space → Nat
  | .hbm => 27
  | .vmem => 0
  | .smem => 0
  | _ => 0

abbrev bufTy : (tb : Table) → Fin (tcTables nBuf tb) → BufTy
  | .hbm, ⟨0, _⟩ => ⟨S2048x256, .f32⟩
  | .hbm, ⟨1, _⟩ => ⟨S2048x2048, .f32⟩
  | .hbm, ⟨2, _⟩ => ⟨S256x128, .f32⟩
  | .hbm, ⟨3, _⟩ => ⟨S128, .f32⟩
  | .hbm, ⟨4, _⟩ => ⟨S128x2048, .f32⟩
  | .hbm, ⟨5, _⟩ => ⟨S2048, .f32⟩
  | .hbm, ⟨6, _⟩ => ⟨S2048x128, .f32⟩
  | .hbm, ⟨7, _⟩ => ⟨S2048x128, .f32⟩
  | .hbm, ⟨8, _⟩ => ⟨S1x128, .f32⟩
  | .hbm, ⟨9, _⟩ => ⟨S2048x128, .f32⟩
  | .hbm, ⟨10, _⟩ => ⟨S2048x128, .f32⟩
  | .hbm, ⟨11, _⟩ => ⟨S_, .f32⟩
  | .hbm, ⟨12, _⟩ => ⟨S2048x128, .f32⟩
  | .hbm, ⟨13, _⟩ => ⟨S2048x128, .f32⟩
  | .hbm, ⟨14, _⟩ => ⟨S2048x2048, .f32⟩
  | .hbm, ⟨15, _⟩ => ⟨S2048x2048, .f32⟩
  | .hbm, ⟨16, _⟩ => ⟨S1x2048, .f32⟩
  | .hbm, ⟨17, _⟩ => ⟨S2048x2048, .f32⟩
  | .hbm, ⟨18, _⟩ => ⟨S2048x2048, .f32⟩
  | .hbm, ⟨19, _⟩ => ⟨S2048x2048, .f32⟩
  | .hbm, ⟨20, _⟩ => ⟨S2048x2048, .f32⟩
  | .hbm, ⟨21, _⟩ => ⟨S_, .f32⟩
  | .hbm, ⟨22, _⟩ => ⟨S2048x2048, .f32⟩
  | .hbm, ⟨23, _⟩ => ⟨S2048x2048, .f32⟩
  | .hbm, ⟨24, _⟩ => ⟨S_, .f32⟩
  | .hbm, ⟨25, _⟩ => ⟨S2048x2048, .f32⟩
  | .hbm, ⟨26, _⟩ => ⟨S2048x2048, .f32⟩
  | _, _ => ⟨S2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_0 : Ref sig .tc := ⟨.hbm, 21, rfl⟩
abbrev main_v14 : Ref sig .tc := ⟨.hbm, 22, rfl⟩
abbrev main_v15 : Ref sig .tc := ⟨.hbm, 23, rfl⟩
abbrev main_cst_1 : Ref sig .tc := ⟨.hbm, 24, rfl⟩
abbrev main_v16 : Ref sig .tc := ⟨.hbm, 25, rfl⟩
abbrev main_v17 : Ref sig .tc := ⟨.hbm, 26, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S2048x128_0_1 : S1x128.BroadcastsInDim S2048x128 (![0, 1] : Fin 2 → Fin S2048x128.rank)
  bcast_S_S2048x128 : S_.BroadcastsInDim S2048x128 (![] : Fin 0 → Fin S2048x128.rank)
  bcast_S2048_S1x2048_1 : S2048.BroadcastsInDim S1x2048 (![1] : Fin 1 → Fin S1x2048.rank)
  bcast_S1x2048_S2048x2048_0_1 : S1x2048.BroadcastsInDim S2048x2048 (![0, 1] : Fin 2 → Fin S2048x2048.rank)
  bcast_S_S2048x2048 : S_.BroadcastsInDim S2048x2048 (![] : Fin 0 → Fin S2048x2048.rank)
  dot_S2048x256_S256x128_S2048x128_1_0_0_1_n_n_wf : DotDims.WF S2048x256 S256x128 S2048x128 [1] [0] [0] [1] [] []
  dot_S2048x2048_S2048x128_S2048x128_1_0_0_1_n_n_wf : DotDims.WF S2048x2048 S2048x128 S2048x128 [1] [0] [0] [1] [] []
  dot_S2048x128_S128x2048_S2048x2048_1_0_0_1_n_n_wf : DotDims.WF S2048x128 S128x2048 S2048x2048 [1] [0] [0] [1] [] []
  dot_S2048x2048_S2048x2048_S2048x2048_1_0_0_1_n_n_wf : DotDims.WF S2048x2048 S2048x2048 S2048x2048 [1] [0] [0] [1] [] []

variable [Facts₀]

def dot_S2048x256_S256x128_S2048x128_1_0_0_1_n_n : DotDims S2048x256 S256x128 S2048x128 where
  lhsContracting := [1]
  rhsContracting := [0]
  lhsNonContracting := [0]
  rhsNonContracting := [1]
  lhsBatch := []
  rhsBatch := []
  wf := dot_S2048x256_S256x128_S2048x128_1_0_0_1_n_n_wf
def dot_S2048x2048_S2048x128_S2048x128_1_0_0_1_n_n : DotDims S2048x2048 S2048x128 S2048x128 where
  lhsContracting := [1]
  rhsContracting := [0]
  lhsNonContracting := [0]
  rhsNonContracting := [1]
  lhsBatch := []
  rhsBatch := []
  wf := dot_S2048x2048_S2048x128_S2048x128_1_0_0_1_n_n_wf
def dot_S2048x128_S128x2048_S2048x2048_1_0_0_1_n_n : DotDims S2048x128 S128x2048 S2048x2048 where
  lhsContracting := [1]
  rhsContracting := [0]
  lhsNonContracting := [0]
  rhsNonContracting := [1]
  lhsBatch := []
  rhsBatch := []
  wf := dot_S2048x128_S128x2048_S2048x2048_1_0_0_1_n_n_wf
def dot_S2048x2048_S2048x2048_S2048x2048_1_0_0_1_n_n : DotDims S2048x2048 S2048x2048 S2048x2048 where
  lhsContracting := [1]
  rhsContracting := [0]
  lhsNonContracting := [0]
  rhsNonContracting := [1]
  lhsBatch := []
  rhsBatch := []
  wf := dot_S2048x2048_S2048x2048_S2048x2048_1_0_0_1_n_n_wf

class Facts : Prop extends Facts₀ where

variable [Facts]
-- ==== Proof.KBShared.lean ====
import proofs.«102864_g35416300322820_cont_8to1_b_1386_18_alg».proof.Proof.Gen.Kernel.Frame
import proofs.«102864_g35416300322820_cont_8to1_b_1386_18_alg».proof.Proof.Gen.Kernel.Skeleton
import Idealize.ShloMosaic.Lib.Pipeline.FrameBody
import Idealize.ShloMosaic.Lib.Ring
import Idealize.ShloMosaic.Lib.Tactic

/-!
# The grid's three kinds of point, and what the body is called with

The body branches three times on the grid coordinate `t` alone: `t = 0` (form the first product), `t < 4` (bank a row
block of `adj` and form a row block of the intermediate), `4 ≤ t` (form a row block of the result). Over the eight
points that leaves three combinations: point 0 takes the first two branches, points 1–3 the second only, points 4–7 the
third only. Here the three conditions are decided over the grid once, in closed form; the result's window is shown to be
idle exactly at the points before 4 and written back exactly from point 4 on; and the staging memrefs and the three
scratch buffers the body is called with get names.
-/

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

local notation "𝕄" => MT nD τ sig Unit (Elt F) ℕ (UR sig nD τ) ℕ

/-- The first branch's condition: the coordinate is zero. -/
abbrev isFirst (i : grid0.Coords) : Prop :=
  (Scalar.cmpi .ne (Scalar.extui (Scalar.cmpi .eq (BitVec.ofNat 32 (i 0).val) 0#32)) 0#32) = 1#1
theorem isFirst_iff : ∀ t : Fin cfg0.N, isFirst (grid0.coords t) ↔ t.val = 0 :=
  (by decide +kernel : ∀ t : Fin grid0.N, isFirst (grid0.coords t) ↔ t.val = 0)

/-- The second branch's condition: the coordinate is below four. -/
abbrev isBuild (i : grid0.Coords) : Prop := k0_cond2 i = 1#1
theorem isBuild_iff : ∀ t : Fin cfg0.N, isBuild (grid0.coords t) ↔ t.val < 4 :=
  (by decide +kernel : ∀ t : Fin grid0.N, isBuild (grid0.coords t) ↔ t.val < 4)

/-- The third branch's condition: the coordinate is at least four. -/
abbrev isEmit (i : grid0.Coords) : Prop := k0_cond3 i = 1#1
theorem isEmit_iff : ∀ t : Fin cfg0.N, isEmit (grid0.coords t) ↔ 4 ≤ t.val :=
  (by decide +kernel : ∀ t : Fin grid0.N, isEmit (grid0.coords t) ↔ 4 ≤ t.val)

/-- The row offset the second branch stores at: `512 t`. -/
theorem buildOff_eq : ∀ t : Fin cfg0.N, t.val < 4 → k0_off1 (grid0.coords t) = ![512 * t.val, 0] :=
  (by decide +kernel : ∀ t : Fin grid0.N, t.val < 4 → k0_off1 (grid0.coords t) = ![512 * t.val, 0])

/-- The row offset the third branch loads from: `512 (t - 4)`. -/
theorem emitOff_eq : ∀ t : Fin cfg0.N, 4 ≤ t.val → k0_off2 (grid0.coords t) = ![512 * (t.val - 4), 0] :=
  (by decide +kernel : ∀ t : Fin grid0.N, 4 ≤ t.val → k0_off2 (grid0.coords t) = ![512 * (t.val - 4), 0])

/-- The six input windows are never idle; -/
theorem live_0 : ∀ t : Fin cfg0.N, cfg0.idle 0 (grid0.coords t) = false := by decide +kernel
theorem live_1 : ∀ t : Fin cfg0.N, cfg0.idle 1 (grid0.coords t) = false := by decide +kernel
theorem live_2 : ∀ t : Fin cfg0.N, cfg0.idle 2 (grid0.coords t) = false := by decide +kernel
theorem live_3 : ∀ t : Fin cfg0.N, cfg0.idle 3 (grid0.coords t) = false := by decide +kernel
theorem live_4 : ∀ t : Fin cfg0.N, cfg0.idle 4 (grid0.coords t) = false := by decide +kernel
theorem live_5 : ∀ t : Fin cfg0.N, cfg0.idle 5 (grid0.coords t) = false := by decide +kernel
/-- the result's window is idle at the points before 4 and live from 4 on, -/
theorem idle_6 : ∀ t : Fin cfg0.N, t.val < 4 → cfg0.idle 6 (grid0.coords t) = true := by decide +kernel
theorem live_6 : ∀ t : Fin cfg0.N, 4 ≤ t.val → cfg0.idle 6 (grid0.coords t) = false := by decide +kernel
/-- and is written back exactly from point 4 on (its block index moves after each of those points, or the grid ends). -/
theorem flush_6 : ∀ t : Fin cfg0.N, (cfg0.win 6).flush t = true ↔ 4 ≤ t.val :=
  (by decide +kernel : ∀ t : Fin grid0.N, win0_6.flush t = true ↔ 4 ≤ t.val)
theorem noflush_6 : ∀ t : Fin cfg0.N, t.val < 4 → (cfg0.win 6).flush t = false := by decide +kernel
/-- The result's window is not one whose blocks overhang the array. -/
theorem tight_6 : cfg0.loose 6 = false := by decide

/-- Each window's current staging memref at point `t`, as the pipeline passes it, and that it is a whole buffer. -/
abbrev stg0 (t : Fin cfg0.N) : Memref sig .tc .vmem S2048x256 .f32 := win0_0.stage (cfg0.slots t 0)
abbrev stg0_whole (t : Fin cfg0.N) : (stg0 t).IsWhole := hstage0_0 ((cfg0.slots t 0).cast nbuf0_0)
abbrev stg1 (t : Fin cfg0.N) : Memref sig .tc .vmem S512x2048 .f32 := win0_1.stage (cfg0.slots t 1)
abbrev stg1_whole (t : Fin cfg0.N) : (stg1 t).IsWhole := hstage0_1 ((cfg0.slots t 1).cast nbuf0_1)
abbrev stg2 (t : Fin cfg0.N) : Memref sig .tc .vmem S256x128 .f32 := win0_2.stage (cfg0.slots t 2)
abbrev stg2_whole (t : Fin cfg0.N) : (stg2 t).IsWhole := hstage0_2 ((cfg0.slots t 2).cast nbuf0_2)
abbrev stg3 (t : Fin cfg0.N) : Memref sig .tc .vmem S1x128 .f32 := win0_3.stage (cfg0.slots t 3)
abbrev stg3_whole (t : Fin cfg0.N) : (stg3 t).IsWhole := hstage0_3 ((cfg0.slots t 3).cast nbuf0_3)
abbrev stg4 (t : Fin cfg0.N) : Memref sig .tc .vmem S128x2048 .f32 := win0_4.stage (cfg0.slots t 4)
abbrev stg4_whole (t : Fin cfg0.N) : (stg4 t).IsWhole := hstage0_4 ((cfg0.slots t 4).cast nbuf0_4)
abbrev stg5 (t : Fin cfg0.N) : Memref sig .tc .vmem S1x2048 .f32 := win0_5.stage (cfg0.slots t 5)
abbrev stg5_whole (t : Fin cfg0.N) : (stg5 t).IsWhole := hstage0_5 ((cfg0.slots t 5).cast nbuf0_5)
abbrev stg6 (t : Fin cfg0.N) : Memref sig .tc .vmem S512x2048 .f32 := win0_6.stage (cfg0.slots t 6)
abbrev stg6_whole (t : Fin cfg0.N) : (stg6 t).IsWhole := hstage0_6 ((cfg0.slots t 6).cast nbuf0_6)

/-- The three scratch buffers: the first product, the intermediate, the banked copy of `adj`. -/
abbrev scrS1 : Memref sig .tc .vmem S2048x128 .f32 := Memref.whole cc0_scratch0
abbrev scrS2 : Memref sig .tc .vmem S2048x2048 .f32 := Memref.whole cc0_scratch1
abbrev scrAdj : Memref sig .tc .vmem S2048x2048 .f32 := Memref.whole cc0_scratch2

/-- What the launch hands the region beside the windows: the three scratch buffers at some contents and the generator's
    register at some state. -/
theorem classInv_eq (c : Dev nD) :
    (Pipeline.ΦA spec0 c : sProp 𝕄)
      = iprop(iprop((∃ d, owns (c : Thread nD τ) scrS1 fullShare d) ∗ (∃ d, owns (c : Thread nD τ) scrS2 fullShare d) ∗ (∃ d, owns (c : Thread nD τ) scrAdj fullShare d)) ∗ (∃ r, prngReg c r)) := by
  unfold Pipeline.ΦA; rw [scopedRest0_eq]; simp only [scrS1, scrS2, scrAdj, owns_whole]; try rfl

end Cert.Kernel.Body

end
-- ==== Proof.KBRunA.lean ====
import proofs.«102864_g35416300322820_cont_8to1_b_1386_18_alg».proof.Proof.KBShared

/-!
# Point 0: the first product, then the first row block

At the first point the body takes the first two branches. It loads `x` and `W1` whole and stores their product over the
whole of the first scratch buffer; then it loads its 512-row block of `adj`, stores a copy of it over rows `0 … 511` of
the bank, loads the product back, and stores `max (block · product + b1, 0) · W2` over rows `0 … 511` of the
intermediate. The result's staging buffer is not touched. The statement below says exactly that, with the three lists
of stores the symbolic run finds as its data.
-/

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

local notation "𝕄" => MT nD τ sig Unit (Elt F) ℕ (UR sig nD τ) ℕ

set_option maxHeartbeats 1000000 in
/-- The body at a point of the first kind, on whole memrefs: the six inputs at `x0 … x5`, the result's buffer at `x7`,
    the first scratch at anything, the other two at `x9`, `x10`. It hands back the inputs and the result's buffer as
    they were, and each scratch with the listed stores written over what it held. -/
noncomputable def runFirst (c : Dev nD) (i : grid0.Coords) (arg1 : Memref sig .tc .vmem S2048x256 .f32) (harg1 : arg1.IsWhole) (arg2 : Memref sig .tc .vmem S512x2048 .f32) (harg2 : arg2.IsWhole) (arg3 : Memref sig .tc .vmem S256x128 .f32) (harg3 : arg3.IsWhole) (arg4 : Memref sig .tc .vmem S1x128 .f32) (harg4 : arg4.IsWhole) (arg5 : Memref sig .tc .vmem S128x2048 .f32) (harg5 : arg5.IsWhole) (arg6 : Memref sig .tc .vmem S1x2048 .f32) (harg6 : arg6.IsWhole) (arg7 : Memref sig .tc .vmem S512x2048 .f32) (harg7 : arg7.IsWhole) (arg8 : Memref sig .tc .vmem S2048x128 .f32) (harg8 : arg8.IsWhole) (arg9 : Memref sig .tc .vmem S2048x2048 .f32) (harg9 : arg9.IsWhole) (arg10 : Memref sig .tc .vmem S2048x2048 .f32) (harg10 : arg10.IsWhole) (hc0 : isFirst i) (hc1 : isBuild i) (hc2 : ¬isEmit i)
    (x0 : Vec F S2048x256 .f32) (x1 : Vec F S512x2048 .f32) (x2 : Vec F S256x128 .f32) (x3 : Vec F S1x128 .f32) (x4 : Vec F S128x2048 .f32) (x5 : Vec F S1x2048 .f32) (x7 : Vec F S512x2048 .f32) (x9 x10 : Vec F S2048x2048 .f32) :
    (L8 : List (View.Piece (Elt F) S2048x128 .f32)) ×' (L9 : List (View.Piece (Elt F) S2048x2048 .f32)) ×'
    { L10 : List (View.Piece (Elt F) S2048x2048 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x7 ∗ (∃ d, owns (c : Thread nD τ) arg8 fullShare d) ∗ owns (c : Thread nD τ) arg9 fullShare x9 ∗ owns (c : Thread nD τ) arg10 fullShare x10
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x7 ∗ (∃ f, arg8.view.loc (c : Thread nD τ) ↦[arg8.view.set]{fullShare} arg8.view.writes (Elt F) f L8) ∗ (arg9.view.loc (c : Thread nD τ) ↦[arg9.view.set]{fullShare} arg9.view.writes (Elt F) (harg9.unread x9) L9) ∗ (arg10.view.loc (c : Thread nD τ) ↦[arg10.view.set]{fullShare} arg10.view.writes (Elt F) (harg10.unread x10) L10)) -∗ K ⟨⟩))
          ⊢ wp frame (wpE (defs₀ (F := F)) Variants.none c none) E (cc0__gcn_body i arg1 harg1 arg2 harg2 arg3 harg3 arg4 harg4 arg5 harg5 arg6 harg6 arg7 harg7 arg8 harg8 arg9 harg9 arg10 harg10) K } := by
  refine ⟨?_, ?_, ?_, fun E K => ?run⟩
  case run =>
    simp only [cc0__gcn_body_eq_skeleton]; unfold cc0__gcn_body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, ⟨%fs1, %hfs1, HS1⟩, ⟨%fs2, %hfs2, HS2⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg9.eq_unread hfs1; obtain rfl := harg10.eq_unread hfs2
    sl_exec (disch := first | exact hc0 | exact hc1 | exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [HS0]; · iexists _; iexact HS0
    isplitl [HS1]; · iexact HS1
    iexact HS2

end Cert.Kernel.Body

end
-- ==== Proof.KBRunB.lean ====
import proofs.«102864_g35416300322820_cont_8to1_b_1386_18_alg».proof.Proof.KBRunA

/-!
# Points 1–3: one more row block

At these points the body takes the second branch only: it loads its 512-row block of `adj`, stores a copy of it over
rows `512 t … 512 t + 511` of the bank, loads the first product from its scratch buffer, and stores
`max (block · product + b1, 0) · W2` over the same rows of the intermediate. The first scratch and the result's staging
buffer are not written.
-/

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

local notation "𝕄" => MT nD τ sig Unit (Elt F) ℕ (UR sig nD τ) ℕ

set_option maxHeartbeats 1000000 in
/-- The body at a point of the second kind, on whole memrefs: inputs at `x0 … x5`, the result's buffer at `x7`, the
    three scratch buffers at `x8`, `x9`, `x10`. It hands back everything as it was except the last two, which carry
    the listed stores over what they held. -/
noncomputable def runBuild (c : Dev nD) (i : grid0.Coords) (arg1 : Memref sig .tc .vmem S2048x256 .f32) (harg1 : arg1.IsWhole) (arg2 : Memref sig .tc .vmem S512x2048 .f32) (harg2 : arg2.IsWhole) (arg3 : Memref sig .tc .vmem S256x128 .f32) (harg3 : arg3.IsWhole) (arg4 : Memref sig .tc .vmem S1x128 .f32) (harg4 : arg4.IsWhole) (arg5 : Memref sig .tc .vmem S128x2048 .f32) (harg5 : arg5.IsWhole) (arg6 : Memref sig .tc .vmem S1x2048 .f32) (harg6 : arg6.IsWhole) (arg7 : Memref sig .tc .vmem S512x2048 .f32) (harg7 : arg7.IsWhole) (arg8 : Memref sig .tc .vmem S2048x128 .f32) (harg8 : arg8.IsWhole) (arg9 : Memref sig .tc .vmem S2048x2048 .f32) (harg9 : arg9.IsWhole) (arg10 : Memref sig .tc .vmem S2048x2048 .f32) (harg10 : arg10.IsWhole) (hc0 : ¬isFirst i) (hc1 : isBuild i) (hc2 : ¬isEmit i)
    (x0 : Vec F S2048x256 .f32) (x1 : Vec F S512x2048 .f32) (x2 : Vec F S256x128 .f32) (x3 : Vec F S1x128 .f32) (x4 : Vec F S128x2048 .f32) (x5 : Vec F S1x2048 .f32) (x7 : Vec F S512x2048 .f32) (x8 : Vec F S2048x128 .f32) (x9 x10 : Vec F S2048x2048 .f32) :
    (L9 : List (View.Piece (Elt F) S2048x2048 .f32)) ×'
    { L10 : List (View.Piece (Elt F) S2048x2048 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x7 ∗ owns (c : Thread nD τ) arg8 fullShare x8 ∗ owns (c : Thread nD τ) arg9 fullShare x9 ∗ owns (c : Thread nD τ) arg10 fullShare x10
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x7 ∗ owns (c : Thread nD τ) arg8 fullShare x8 ∗ (arg9.view.loc (c : Thread nD τ) ↦[arg9.view.set]{fullShare} arg9.view.writes (Elt F) (harg9.unread x9) L9) ∗ (arg10.view.loc (c : Thread nD τ) ↦[arg10.view.set]{fullShare} arg10.view.writes (Elt F) (harg10.unread x10) L10)) -∗ K ⟨⟩))
          ⊢ wp frame (wpE (defs₀ (F := F)) Variants.none c none) E (cc0__gcn_body i arg1 harg1 arg2 harg2 arg3 harg3 arg4 harg4 arg5 harg5 arg6 harg6 arg7 harg7 arg8 harg8 arg9 harg9 arg10 harg10) K } := by
  refine ⟨?_, ?_, fun E K => ?run⟩
  case run =>
    simp only [cc0__gcn_body_eq_skeleton]; unfold cc0__gcn_body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, ⟨%fs1, %hfs1, HS1⟩, ⟨%fs2, %hfs2, HS2⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hfs0; obtain rfl := harg9.eq_unread hfs1; obtain rfl := harg10.eq_unread hfs2
    sl_exec (disch := first | exact hc0 | exact hc1 | exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [HS0]
    · iexists _; isplitr; · ipureintro; exact harg8.read_unread _
      iexact HS0
    isplitl [HS1]; · iexact HS1
    iexact HS2

end Cert.Kernel.Body

end
-- ==== Proof.KBRunC.lean ====
import proofs.«102864_g35416300322820_cont_8to1_b_1386_18_alg».proof.Proof.KBRunB

/-!
# Points 4–7: one row block of the result

At these points the body takes the third branch only: it loads rows `512 (t - 4) … 512 (t - 4) + 511` of the banked
`adj`, and for each of the four slabs of 512 columns loads that slab of the intermediate and the matching 512 lanes of
the second bias row, and stores `logistic (rows · slab + lanes)` over the matching 512 × 512 tile of the result's
staging buffer. The four tiles cover the buffer; the three scratch buffers are only read.
-/

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

local notation "𝕄" => MT nD τ sig Unit (Elt F) ℕ (UR sig nD τ) ℕ

set_option maxHeartbeats 1000000 in
/-- The body at a point of the third kind, on whole memrefs: inputs at `x0 … x5`, the result's buffer at anything, the
    three scratch buffers at `x8`, `x9`, `x10`. It hands back everything as it was except the result's buffer, which
    carries the listed stores. -/
noncomputable def runEmit (c : Dev nD) (i : grid0.Coords) (arg1 : Memref sig .tc .vmem S2048x256 .f32) (harg1 : arg1.IsWhole) (arg2 : Memref sig .tc .vmem S512x2048 .f32) (harg2 : arg2.IsWhole) (arg3 : Memref sig .tc .vmem S256x128 .f32) (harg3 : arg3.IsWhole) (arg4 : Memref sig .tc .vmem S1x128 .f32) (harg4 : arg4.IsWhole) (arg5 : Memref sig .tc .vmem S128x2048 .f32) (harg5 : arg5.IsWhole) (arg6 : Memref sig .tc .vmem S1x2048 .f32) (harg6 : arg6.IsWhole) (arg7 : Memref sig .tc .vmem S512x2048 .f32) (harg7 : arg7.IsWhole) (arg8 : Memref sig .tc .vmem S2048x128 .f32) (harg8 : arg8.IsWhole) (arg9 : Memref sig .tc .vmem S2048x2048 .f32) (harg9 : arg9.IsWhole) (arg10 : Memref sig .tc .vmem S2048x2048 .f32) (harg10 : arg10.IsWhole) (hc0 : ¬isFirst i) (hc1 : ¬isBuild i) (hc2 : isEmit i)
    (x0 : Vec F S2048x256 .f32) (x1 : Vec F S512x2048 .f32) (x2 : Vec F S256x128 .f32) (x3 : Vec F S1x128 .f32) (x4 : Vec F S128x2048 .f32) (x5 : Vec F S1x2048 .f32) (x8 : Vec F S2048x128 .f32) (x9 x10 : Vec F S2048x2048 .f32) :
    { L7 : List (View.Piece (Elt F) S512x2048 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare x8 ∗ owns (c : Thread nD τ) arg9 fullShare x9 ∗ owns (c : Thread nD τ) arg10 fullShare x10
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L7) ∗ owns (c : Thread nD τ) arg8 fullShare x8 ∗ owns (c : Thread nD τ) arg9 fullShare x9 ∗ owns (c : Thread nD τ) arg10 fullShare x10) -∗ K ⟨⟩))
          ⊢ wp frame (wpE (defs₀ (F := F)) Variants.none c none) E (cc0__gcn_body i arg1 harg1 arg2 harg2 arg3 harg3 arg4 harg4 arg5 harg5 arg6 harg6 arg7 harg7 arg8 harg8 arg9 harg9 arg10 harg10) K } := by
  refine ⟨?_, fun E K => ?run⟩
  case run =>
    simp only [cc0__gcn_body_eq_skeleton]; unfold cc0__gcn_body_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, ⟨%fs1, %hfs1, HS1⟩, ⟨%fs2, %hfs2, HS2⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg8.eq_unread hfs0; obtain rfl := harg9.eq_unread hfs1; obtain rfl := harg10.eq_unread hfs2
    sl_exec (disch := first | exact hc0 | exact hc1 | exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [HS0]
    · iexists _; isplitr; · ipureintro; exact harg8.read_unread _
      iexact HS0
    isplitl [HS1]
    · iexists _; isplitr; · ipureintro; exact harg9.read_unread _
      iexact HS1
    iexists _; isplitr; · ipureintro; exact harg10.read_unread _
    iexact HS2

end Cert.Kernel.Body

end
-- ==== Proof.KBSpec.lean ====
import proofs.«102864_g35416300322820_cont_8to1_b_1386_18_alg».proof.Proof.Gen.Kernel.Skeleton
import Idealize.ShloMosaic.Lib.ValueIdx

/-!
# The kernel's result as one function of its six operands

The kernel walks eight grid points. At the first it forms the product `x · W1` (2048 × 128) once. At each of the
first four it takes one block of 512 rows of `adj`, multiplies it by that product, adds the bias row, clamps at
zero and multiplies by `W2`: 512 rows of a 2048 × 2048 intermediate. At each of the last four it multiplies one
block of 512 rows of `adj` by each of the four slabs of 512 columns of the finished intermediate, adds the matching
512 lanes of the second bias row and applies the logistic function: four 512 × 512 tiles of the result.

Here that is written down as a function of whole arrays, over the body's own arithmetic (the generated payloads
`k0_pay1`, `k0_pay3`, `k0_pay5`), at any float instance: row `r` of the intermediate comes from the block
`r / 512` at row `r % 512`; entry `(r, j)` of the result from the tile `(r / 512, j / 512)` at `(r % 512, j % 512)`.
-/

noncomputable section

namespace Cert.Kernel.KSpec

open Idealize.ShloMosaic Cert.Kernel Cert.Kernel.Gen
open Idealize.ShloMosaic.ValueIdx

variable {F : FTy → Type} [FloatOps F]

/-- Rows `512 b … 512 b + 511` of a 2048 × 2048 matrix. -/
def rowBlock (A : Vec F S2048x2048 .f32) (b : Fin 4) : Vec F S512x2048 .f32 :=
  fun y => A (ix2 (n0 := 2048) (n1 := 2048)
    ⟨512 * b.val + (y 0).val, by have h : (y 0).val < 512 := (y 0).isLt; have := b.isLt; omega⟩
    ⟨(y 1).val, (y 1).isLt⟩)

/-- Columns `512 j … 512 j + 511` of a 2048 × 2048 matrix. -/
def colSlab (S : Vec F S2048x2048 .f32) (j : Fin 4) : Vec F S2048x512 .f32 :=
  fun y => S (ix2 (n0 := 2048) (n1 := 2048)
    ⟨(y 0).val, (y 0).isLt⟩
    ⟨512 * j.val + (y 1).val, by have h : (y 1).val < 512 := (y 1).isLt; have := j.isLt; omega⟩)

/-- Lanes `512 j … 512 j + 511` of a row of 2048. -/
def laneSlab (v : Vec F S1x2048 .f32) (j : Fin 4) : Vec F S1x512 .f32 :=
  fun y => v (ix2 (n0 := 1) (n1 := 2048)
    ⟨(y 0).val, (y 0).isLt⟩
    ⟨512 * j.val + (y 1).val, by have h : (y 1).val < 512 := (y 1).isLt; have := j.isLt; omega⟩)

/-- The first product, `x · W1`. -/
def support1 (x : Vec F S2048x256 .f32) (w1 : Vec F S256x128 .f32) : Vec F S2048x128 .f32 := k0_pay1 x w1

/-- Block `b` of 512 rows of the intermediate: `max (adj_b · (x · W1) + b1, 0) · W2`. -/
def support2Block (x : Vec F S2048x256 .f32) (A : Vec F S2048x2048 .f32) (w1 : Vec F S256x128 .f32)
    (b1r : Vec F S1x128 .f32) (w2 : Vec F S128x2048 .f32) (b : Fin 4) : Vec F S512x2048 .f32 :=
  k0_pay3 (rowBlock A b) (support1 x w1) b1r w2

/-- The whole intermediate, row `r` read from block `r / 512` at row `r % 512`. -/
def support2 (x : Vec F S2048x256 .f32) (A : Vec F S2048x2048 .f32) (w1 : Vec F S256x128 .f32)
    (b1r : Vec F S1x128 .f32) (w2 : Vec F S128x2048 .f32) : Vec F S2048x2048 .f32 :=
  fun y => support2Block x A w1 b1r w2
    ⟨(y 0).val / 512, by have h : (y 0).val < 2048 := (y 0).isLt; omega⟩
    (ix2 (n0 := 512) (n1 := 2048) ⟨(y 0).val % 512, Nat.mod_lt _ (by decide)⟩ ⟨(y 1).val, (y 1).isLt⟩)

/-- Tile `(b, j)` of the result: `logistic (adj_b · S2[:, slab j] + b2[slab j])`. -/
def outTile (x : Vec F S2048x256 .f32) (A : Vec F S2048x2048 .f32) (w1 : Vec F S256x128 .f32)
    (b1r : Vec F S1x128 .f32) (w2 : Vec F S128x2048 .f32) (b2r : Vec F S1x2048 .f32) (b j : Fin 4) :
    Vec F S512x512 .f32 :=
  k0_pay5 (rowBlock A b) (colSlab (support2 x A w1 b1r w2) j) (laneSlab b2r j)

/-- The whole result, entry `(r, j)` read from tile `(r / 512, j / 512)` at `(r % 512, j % 512)`. -/
def out (x : Vec F S2048x256 .f32) (A : Vec F S2048x2048 .f32) (w1 : Vec F S256x128 .f32)
    (b1r : Vec F S1x128 .f32) (w2 : Vec F S128x2048 .f32) (b2r : Vec F S1x2048 .f32) : Vec F S2048x2048 .f32 :=
  fun y => outTile x A w1 b1r w2 b2r
    ⟨(y 0).val / 512, by have h : (y 0).val < 2048 := (y 0).isLt; omega⟩
    ⟨(y 1).val / 512, by have h : (y 1).val < 2048 := (y 1).isLt; omega⟩
    (ix2 (n0 := 512) (n1 := 512) ⟨(y 0).val % 512, Nat.mod_lt _ (by decide)⟩ ⟨(y 1).val % 512, Nat.mod_lt _ (by decide)⟩)

/-- The last tile's store passes its zero accumulator in from outside; it is the same arithmetic. -/
theorem pay4_eq (v13 : Vec F S512x2048 .f32) (v38 : Vec F S2048x512 .f32) (v40 : Vec F S1x512 .f32) :
    k0_pay4 v13 v38 (constant S512x512 .f32 0x00000000#32) v40 = k0_pay5 v13 v38 v40 := rfl

theorem pay6_eq (v13 : Vec F S512x2048 .f32) (v38 : Vec F S2048x512 .f32) (v40 : Vec F S1x512 .f32) :
    k0_pay6 v13 v38 v40 = k0_pay5 v13 v38 v40 := rfl

theorem pay7_eq (v13 : Vec F S512x2048 .f32) (v38 : Vec F S2048x512 .f32) (v40 : Vec F S1x512 .f32) :
    k0_pay7 v13 v38 v40 = k0_pay5 v13 v38 v40 := rfl

end Cert.Kernel.KSpec

end
-- ==== Proof.KBPieces.lean ====
import proofs.«102864_g35416300322820_cont_8to1_b_1386_18_alg».proof.Proof.KBRunC
import proofs.«102864_g35416300322820_cont_8to1_b_1386_18_alg».proof.Proof.KBSpec
import Idealize.ShloMosaic.Lib.Pipeline.Value
import Idealize.ShloMosaic.Lib.WritesUnit

/-!
# What the stores leave, read back as values

Each run hands back a scratch buffer (or the result's staging buffer) with a short list of stores written over what it
held. Here each list is read at an index. A store of 512 whole rows at row offset `o` gives, at a row inside
`o … o + 511`, the stored value at the row's position in the block, and at any other row what the buffer held before.
The one store over the whole first scratch gives the stored product everywhere. The four 512 × 512 tiles of the result's
buffer are kept apart by their column ranges, so an index in columns `512 j … 512 j + 511` reads tile `j`.
The loads the stored values are computed from read whole buffers, a block of rows, a slab of columns or a run of lanes.
-/

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen Cert.Kernel.KSpec
open Idealize.ShloMosaic.ValueIdx

variable {F : FTy → Type} [FloatOps F]

theorem hz2 : (![0, 0] : Fin 2 → Nat) = fun _ => 0 := funext fun a => by fin_cases a <;> rfl

/-! ## Loads of parts of a buffer -/

/-- Rows `o … o + 511` of a 2048 × 2048 buffer. -/
def rowsAt (X : Vec F S2048x2048 .f32) (o : ℕ) (ho : o + 512 ≤ 2048) : Vec F S512x2048 .f32 :=
  fun p => X (ix2 (n0 := 2048) (n1 := 2048) ⟨o + (p 0).val, by have h : (p 0).val < 512 := (p 0).isLt; omega⟩ ⟨(p 1).val, (p 1).isLt⟩)

theorem rowsAt_block (X : Vec F S2048x2048 .f32) (b : Fin 4) (ho : 512 * b.val + 512 ≤ 2048) :
    rowsAt X (512 * b.val) ho = rowBlock X b := rfl

/-- A load of 512 whole rows at row offset `o` reads those rows. -/
theorem ld_rows (X : Vec F S2048x2048 .f32) (off : Fin 2 → ℕ) (inb : ∀ a, off a + S512x2048.size a ≤ S2048x2048.size a)
    (o : ℕ) (hoff : off = ![o, 0]) (ho : o + 512 ≤ 2048) :
    View.ld X (Rect.unit (s := S2048x2048) off S512x2048.size inb) = rowsAt X o ho := by
  subst hoff
  funext p
  show X _ = X _
  congr 1
  funext a
  apply Fin.ext
  match a with
  | ⟨0, _⟩ => show o + 1 * (p 0).val = o + (p 0).val; omega
  | ⟨1, _⟩ => show 0 + 1 * (p 1).val = (p 1).val; omega

/-- A load of 512 whole columns at column offset `512 j` reads that slab. -/
theorem ld_cols (X : Vec F S2048x2048 .f32) (j : Fin 4) (off : Fin 2 → ℕ)
    (inb : ∀ a, off a + S2048x512.size a ≤ S2048x2048.size a) (hoff : off = ![0, 512 * j.val]) :
    View.ld X (Rect.unit (s := S2048x2048) off S2048x512.size inb) = colSlab X j := by
  subst hoff
  funext p
  show X _ = X _
  congr 1
  funext a
  apply Fin.ext
  match a with
  | ⟨0, _⟩ => show 0 + 1 * (p 0).val = (p 0).val; omega
  | ⟨1, _⟩ => show 512 * j.val + 1 * (p 1).val = 512 * j.val + (p 1).val; omega

/-- A load of 512 lanes at lane offset `512 j` of a row of 2048 reads those lanes. -/
theorem ld_lanes (X : Vec F S1x2048 .f32) (j : Fin 4) (off : Fin 2 → ℕ)
    (inb : ∀ a, off a + S1x512.size a ≤ S1x2048.size a) (hoff : off = ![0, 512 * j.val]) :
    View.ld X (Rect.unit (s := S1x2048) off S1x512.size inb) = laneSlab X j := by
  subst hoff
  funext p
  show X _ = X _
  congr 1
  funext a
  apply Fin.ext
  match a with
  | ⟨0, _⟩ => show 0 + 1 * (p 0).val = (p 0).val; omega
  | ⟨1, _⟩ => show 512 * j.val + 1 * (p 1).val = 512 * j.val + (p 1).val; omega

/-! ## Point 0 -/

/-- After point 0 the first scratch holds the product `x · W1`, whatever it held. -/
theorem first_S1 (c : Dev nD) (i : grid0.Coords) (arg1 : Memref sig .tc .vmem S2048x256 .f32) (harg1 : arg1.IsWhole) (arg2 : Memref sig .tc .vmem S512x2048 .f32) (harg2 : arg2.IsWhole) (arg3 : Memref sig .tc .vmem S256x128 .f32) (harg3 : arg3.IsWhole) (arg4 : Memref sig .tc .vmem S1x128 .f32) (harg4 : arg4.IsWhole) (arg5 : Memref sig .tc .vmem S128x2048 .f32) (harg5 : arg5.IsWhole) (arg6 : Memref sig .tc .vmem S1x2048 .f32) (harg6 : arg6.IsWhole) (arg7 : Memref sig .tc .vmem S512x2048 .f32) (harg7 : arg7.IsWhole) (arg8 : Memref sig .tc .vmem S2048x128 .f32) (harg8 : arg8.IsWhole) (arg9 : Memref sig .tc .vmem S2048x2048 .f32) (harg9 : arg9.IsWhole) (arg10 : Memref sig .tc .vmem S2048x2048 .f32) (harg10 : arg10.IsWhole) (hc0 : isFirst i) (hc1 : isBuild i) (hc2 : ¬isEmit i)
    (x0 : Vec F S2048x256 .f32) (x1 : Vec F S512x2048 .f32) (x2 : Vec F S256x128 .f32) (x3 : Vec F S1x128 .f32) (x4 : Vec F S128x2048 .f32) (x5 : Vec F S1x2048 .f32) (x7 : Vec F S512x2048 .f32) (x9 x10 : Vec F S2048x2048 .f32) (f : arg8.view.ty.Contents (Elt F)) :
    arg8.view.read (Elt F) (arg8.view.writes (Elt F) f (runFirst c i arg1 harg1 arg2 harg2 arg3 harg3 arg4 harg4 arg5 harg5 arg6 harg6 arg7 harg7 arg8 harg8 arg9 harg9 arg10 harg10 hc0 hc1 hc2 x0 x1 x2 x3 x4 x5 x7 x9 x10).1) = k0_pay1 x0 x2 := by
  unfold runFirst; dsimp only; sl_unfold_words
  simp only [View.readAt_eq_ld, harg1.read_unread, harg2.read_unread, harg3.read_unread, harg4.read_unread, harg5.read_unread, harg6.read_unread, harg8.read_unread, harg9.read_unread, harg10.read_unread, View.ld_unit_zero (S := S2048x256) hz2, View.ld_unit_zero (S := S256x128) hz2, View.ld_unit_zero (S := S512x2048) hz2, View.ld_unit_zero (S := S1x128) hz2, View.ld_unit_zero (S := S128x2048) hz2, View.ld_unit_zero (S := S2048x128) hz2]
  funext y
  exact View.read_writes_cons_rows_of_mem _ _ _ _ _ y y rfl (Nat.zero_add _).symm rfl

/-- Inside the stored rows the intermediate holds the stored block, -/
theorem first_S2_in (c : Dev nD) (i : grid0.Coords) (arg1 : Memref sig .tc .vmem S2048x256 .f32) (harg1 : arg1.IsWhole) (arg2 : Memref sig .tc .vmem S512x2048 .f32) (harg2 : arg2.IsWhole) (arg3 : Memref sig .tc .vmem S256x128 .f32) (harg3 : arg3.IsWhole) (arg4 : Memref sig .tc .vmem S1x128 .f32) (harg4 : arg4.IsWhole) (arg5 : Memref sig .tc .vmem S128x2048 .f32) (harg5 : arg5.IsWhole) (arg6 : Memref sig .tc .vmem S1x2048 .f32) (harg6 : arg6.IsWhole) (arg7 : Memref sig .tc .vmem S512x2048 .f32) (harg7 : arg7.IsWhole) (arg8 : Memref sig .tc .vmem S2048x128 .f32) (harg8 : arg8.IsWhole) (arg9 : Memref sig .tc .vmem S2048x2048 .f32) (harg9 : arg9.IsWhole) (arg10 : Memref sig .tc .vmem S2048x2048 .f32) (harg10 : arg10.IsWhole) (hc0 : isFirst i) (hc1 : isBuild i) (hc2 : ¬isEmit i)
    (x0 : Vec F S2048x256 .f32) (x1 : Vec F S512x2048 .f32) (x2 : Vec F S256x128 .f32) (x3 : Vec F S1x128 .f32) (x4 : Vec F S128x2048 .f32) (x5 : Vec F S1x2048 .f32) (x7 : Vec F S512x2048 .f32) (x9 x10 : Vec F S2048x2048 .f32) (o : ℕ) (ho : k0_off1 i = ![o, 0]) (y : S2048x2048.Idx) (p : S512x2048.Idx)
    (h0 : (y 0).val = o + (p 0).val) (h1 : (y 1).val = (p 1).val) :
    arg9.view.read (Elt F) (arg9.view.writes (Elt F) (harg9.unread x9) (runFirst c i arg1 harg1 arg2 harg2 arg3 harg3 arg4 harg4 arg5 harg5 arg6 harg6 arg7 harg7 arg8 harg8 arg9 harg9 arg10 harg10 hc0 hc1 hc2 x0 x1 x2 x3 x4 x5 x7 x9 x10).2.1) y
      = k0_pay3 x1 (k0_pay1 x0 x2) x3 x4 p := by
  unfold runFirst; dsimp only; sl_unfold_words
  refine (View.read_writes_cons_rows_of_mem _ _ _ _ _ y p ho h0 h1).trans ?_
  simp only [View.readAt_eq_ld, harg1.read_unread, harg2.read_unread, harg3.read_unread, harg4.read_unread, harg5.read_unread, harg6.read_unread, harg8.read_unread, harg9.read_unread, harg10.read_unread, View.ld_unit_zero (S := S2048x256) hz2, View.ld_unit_zero (S := S256x128) hz2, View.ld_unit_zero (S := S512x2048) hz2, View.ld_unit_zero (S := S1x128) hz2, View.ld_unit_zero (S := S128x2048) hz2, View.ld_unit_zero (S := S2048x128) hz2]
  rw [View.readCov_unit_zero (S := S2048x128) _ hz2]

/-- and outside them what it held. -/
theorem first_S2_out (c : Dev nD) (i : grid0.Coords) (arg1 : Memref sig .tc .vmem S2048x256 .f32) (harg1 : arg1.IsWhole) (arg2 : Memref sig .tc .vmem S512x2048 .f32) (harg2 : arg2.IsWhole) (arg3 : Memref sig .tc .vmem S256x128 .f32) (harg3 : arg3.IsWhole) (arg4 : Memref sig .tc .vmem S1x128 .f32) (harg4 : arg4.IsWhole) (arg5 : Memref sig .tc .vmem S128x2048 .f32) (harg5 : arg5.IsWhole) (arg6 : Memref sig .tc .vmem S1x2048 .f32) (harg6 : arg6.IsWhole) (arg7 : Memref sig .tc .vmem S512x2048 .f32) (harg7 : arg7.IsWhole) (arg8 : Memref sig .tc .vmem S2048x128 .f32) (harg8 : arg8.IsWhole) (arg9 : Memref sig .tc .vmem S2048x2048 .f32) (harg9 : arg9.IsWhole) (arg10 : Memref sig .tc .vmem S2048x2048 .f32) (harg10 : arg10.IsWhole) (hc0 : isFirst i) (hc1 : isBuild i) (hc2 : ¬isEmit i)
    (x0 : Vec F S2048x256 .f32) (x1 : Vec F S512x2048 .f32) (x2 : Vec F S256x128 .f32) (x3 : Vec F S1x128 .f32) (x4 : Vec F S128x2048 .f32) (x5 : Vec F S1x2048 .f32) (x7 : Vec F S512x2048 .f32) (x9 x10 : Vec F S2048x2048 .f32) (o : ℕ) (ho : k0_off1 i = ![o, 0]) (y : S2048x2048.Idx)
    (h : (y 0).val < o ∨ o + 512 ≤ (y 0).val) :
    arg9.view.read (Elt F) (arg9.view.writes (Elt F) (harg9.unread x9) (runFirst c i arg1 harg1 arg2 harg2 arg3 harg3 arg4 harg4 arg5 harg5 arg6 harg6 arg7 harg7 arg8 harg8 arg9 harg9 arg10 harg10 hc0 hc1 hc2 x0 x1 x2 x3 x4 x5 x7 x9 x10).2.1) y = x9 y := by
  unfold runFirst; dsimp only; sl_unfold_words
  refine (View.read_writes_cons_rows_of_not_mem _ _ _ _ _ y ho rfl h).trans ?_
  rw [View.writes_nil, harg9.read_unread]

/-- Inside the stored rows the bank holds the block of `adj`, -/
theorem first_Adj_in (c : Dev nD) (i : grid0.Coords) (arg1 : Memref sig .tc .vmem S2048x256 .f32) (harg1 : arg1.IsWhole) (arg2 : Memref sig .tc .vmem S512x2048 .f32) (harg2 : arg2.IsWhole) (arg3 : Memref sig .tc .vmem S256x128 .f32) (harg3 : arg3.IsWhole) (arg4 : Memref sig .tc .vmem S1x128 .f32) (harg4 : arg4.IsWhole) (arg5 : Memref sig .tc .vmem S128x2048 .f32) (harg5 : arg5.IsWhole) (arg6 : Memref sig .tc .vmem S1x2048 .f32) (harg6 : arg6.IsWhole) (arg7 : Memref sig .tc .vmem S512x2048 .f32) (harg7 : arg7.IsWhole) (arg8 : Memref sig .tc .vmem S2048x128 .f32) (harg8 : arg8.IsWhole) (arg9 : Memref sig .tc .vmem S2048x2048 .f32) (harg9 : arg9.IsWhole) (arg10 : Memref sig .tc .vmem S2048x2048 .f32) (harg10 : arg10.IsWhole) (hc0 : isFirst i) (hc1 : isBuild i) (hc2 : ¬isEmit i)
    (x0 : Vec F S2048x256 .f32) (x1 : Vec F S512x2048 .f32) (x2 : Vec F S256x128 .f32) (x3 : Vec F S1x128 .f32) (x4 : Vec F S128x2048 .f32) (x5 : Vec F S1x2048 .f32) (x7 : Vec F S512x2048 .f32) (x9 x10 : Vec F S2048x2048 .f32) (o : ℕ) (ho : k0_off1 i = ![o, 0]) (y : S2048x2048.Idx) (p : S512x2048.Idx)
    (h0 : (y 0).val = o + (p 0).val) (h1 : (y 1).val = (p 1).val) :
    arg10.view.read (Elt F) (arg10.view.writes (Elt F) (harg10.unread x10) (runFirst c i arg1 harg1 arg2 harg2 arg3 harg3 arg4 harg4 arg5 harg5 arg6 harg6 arg7 harg7 arg8 harg8 arg9 harg9 arg10 harg10 hc0 hc1 hc2 x0 x1 x2 x3 x4 x5 x7 x9 x10).2.2.1) y = x1 p := by
  unfold runFirst; dsimp only; sl_unfold_words
  refine (View.read_writes_cons_rows_of_mem _ _ _ _ _ y p ho h0 h1).trans ?_
  unfold k0_pay2
  simp only [View.readAt_eq_ld, harg1.read_unread, harg2.read_unread, harg3.read_unread, harg4.read_unread, harg5.read_unread, harg6.read_unread, harg8.read_unread, harg9.read_unread, harg10.read_unread, View.ld_unit_zero (S := S2048x256) hz2, View.ld_unit_zero (S := S256x128) hz2, View.ld_unit_zero (S := S512x2048) hz2, View.ld_unit_zero (S := S1x128) hz2, View.ld_unit_zero (S := S128x2048) hz2, View.ld_unit_zero (S := S2048x128) hz2, shapeCast_self]

/-- and outside them what it held. -/
theorem first_Adj_out (c : Dev nD) (i : grid0.Coords) (arg1 : Memref sig .tc .vmem S2048x256 .f32) (harg1 : arg1.IsWhole) (arg2 : Memref sig .tc .vmem S512x2048 .f32) (harg2 : arg2.IsWhole) (arg3 : Memref sig .tc .vmem S256x128 .f32) (harg3 : arg3.IsWhole) (arg4 : Memref sig .tc .vmem S1x128 .f32) (harg4 : arg4.IsWhole) (arg5 : Memref sig .tc .vmem S128x2048 .f32) (harg5 : arg5.IsWhole) (arg6 : Memref sig .tc .vmem S1x2048 .f32) (harg6 : arg6.IsWhole) (arg7 : Memref sig .tc .vmem S512x2048 .f32) (harg7 : arg7.IsWhole) (arg8 : Memref sig .tc .vmem S2048x128 .f32) (harg8 : arg8.IsWhole) (arg9 : Memref sig .tc .vmem S2048x2048 .f32) (harg9 : arg9.IsWhole) (arg10 : Memref sig .tc .vmem S2048x2048 .f32) (harg10 : arg10.IsWhole) (hc0 : isFirst i) (hc1 : isBuild i) (hc2 : ¬isEmit i)
    (x0 : Vec F S2048x256 .f32) (x1 : Vec F S512x2048 .f32) (x2 : Vec F S256x128 .f32) (x3 : Vec F S1x128 .f32) (x4 : Vec F S128x2048 .f32) (x5 : Vec F S1x2048 .f32) (x7 : Vec F S512x2048 .f32) (x9 x10 : Vec F S2048x2048 .f32) (o : ℕ) (ho : k0_off1 i = ![o, 0]) (y : S2048x2048.Idx)
    (h : (y 0).val < o ∨ o + 512 ≤ (y 0).val) :
    arg10.view.read (Elt F) (arg10.view.writes (Elt F) (harg10.unread x10) (runFirst c i arg1 harg1 arg2 harg2 arg3 harg3 arg4 harg4 arg5 harg5 arg6 harg6 arg7 harg7 arg8 harg8 arg9 harg9 arg10 harg10 hc0 hc1 hc2 x0 x1 x2 x3 x4 x5 x7 x9 x10).2.2.1) y = x10 y := by
  unfold runFirst; dsimp only; sl_unfold_words
  refine (View.read_writes_cons_rows_of_not_mem _ _ _ _ _ y ho rfl h).trans ?_
  rw [View.writes_nil, harg10.read_unread]

/-! ## Points 1–3 -/

theorem build_S2_in (c : Dev nD) (i : grid0.Coords) (arg1 : Memref sig .tc .vmem S2048x256 .f32) (harg1 : arg1.IsWhole) (arg2 : Memref sig .tc .vmem S512x2048 .f32) (harg2 : arg2.IsWhole) (arg3 : Memref sig .tc .vmem S256x128 .f32) (harg3 : arg3.IsWhole) (arg4 : Memref sig .tc .vmem S1x128 .f32) (harg4 : arg4.IsWhole) (arg5 : Memref sig .tc .vmem S128x2048 .f32) (harg5 : arg5.IsWhole) (arg6 : Memref sig .tc .vmem S1x2048 .f32) (harg6 : arg6.IsWhole) (arg7 : Memref sig .tc .vmem S512x2048 .f32) (harg7 : arg7.IsWhole) (arg8 : Memref sig .tc .vmem S2048x128 .f32) (harg8 : arg8.IsWhole) (arg9 : Memref sig .tc .vmem S2048x2048 .f32) (harg9 : arg9.IsWhole) (arg10 : Memref sig .tc .vmem S2048x2048 .f32) (harg10 : arg10.IsWhole) (hc0 : ¬isFirst i) (hc1 : isBuild i) (hc2 : ¬isEmit i)
    (x0 : Vec F S2048x256 .f32) (x1 : Vec F S512x2048 .f32) (x2 : Vec F S256x128 .f32) (x3 : Vec F S1x128 .f32) (x4 : Vec F S128x2048 .f32) (x5 : Vec F S1x2048 .f32) (x7 : Vec F S512x2048 .f32) (x8 : Vec F S2048x128 .f32) (x9 x10 : Vec F S2048x2048 .f32) (o : ℕ) (ho : k0_off1 i = ![o, 0]) (y : S2048x2048.Idx) (p : S512x2048.Idx)
    (h0 : (y 0).val = o + (p 0).val) (h1 : (y 1).val = (p 1).val) :
    arg9.view.read (Elt F) (arg9.view.writes (Elt F) (harg9.unread x9) (runBuild c i arg1 harg1 arg2 harg2 arg3 harg3 arg4 harg4 arg5 harg5 arg6 harg6 arg7 harg7 arg8 harg8 arg9 harg9 arg10 harg10 hc0 hc1 hc2 x0 x1 x2 x3 x4 x5 x7 x8 x9 x10).1) y
      = k0_pay3 x1 x8 x3 x4 p := by
  unfold runBuild; dsimp only; sl_unfold_words
  refine (View.read_writes_cons_rows_of_mem _ _ _ _ _ y p ho h0 h1).trans ?_
  simp only [View.readAt_eq_ld, harg1.read_unread, harg2.read_unread, harg3.read_unread, harg4.read_unread, harg5.read_unread, harg6.read_unread, harg8.read_unread, harg9.read_unread, harg10.read_unread, View.ld_unit_zero (S := S2048x256) hz2, View.ld_unit_zero (S := S256x128) hz2, View.ld_unit_zero (S := S512x2048) hz2, View.ld_unit_zero (S := S1x128) hz2, View.ld_unit_zero (S := S128x2048) hz2, View.ld_unit_zero (S := S2048x128) hz2]

theorem build_S2_out (c : Dev nD) (i : grid0.Coords) (arg1 : Memref sig .tc .vmem S2048x256 .f32) (harg1 : arg1.IsWhole) (arg2 : Memref sig .tc .vmem S512x2048 .f32) (harg2 : arg2.IsWhole) (arg3 : Memref sig .tc .vmem S256x128 .f32) (harg3 : arg3.IsWhole) (arg4 : Memref sig .tc .vmem S1x128 .f32) (harg4 : arg4.IsWhole) (arg5 : Memref sig .tc .vmem S128x2048 .f32) (harg5 : arg5.IsWhole) (arg6 : Memref sig .tc .vmem S1x2048 .f32) (harg6 : arg6.IsWhole) (arg7 : Memref sig .tc .vmem S512x2048 .f32) (harg7 : arg7.IsWhole) (arg8 : Memref sig .tc .vmem S2048x128 .f32) (harg8 : arg8.IsWhole) (arg9 : Memref sig .tc .vmem S2048x2048 .f32) (harg9 : arg9.IsWhole) (arg10 : Memref sig .tc .vmem S2048x2048 .f32) (harg10 : arg10.IsWhole) (hc0 : ¬isFirst i) (hc1 : isBuild i) (hc2 : ¬isEmit i)
    (x0 : Vec F S2048x256 .f32) (x1 : Vec F S512x2048 .f32) (x2 : Vec F S256x128 .f32) (x3 : Vec F S1x128 .f32) (x4 : Vec F S128x2048 .f32) (x5 : Vec F S1x2048 .f32) (x7 : Vec F S512x2048 .f32) (x8 : Vec F S2048x128 .f32) (x9 x10 : Vec F S2048x2048 .f32) (o : ℕ) (ho : k0_off1 i = ![o, 0]) (y : S2048x2048.Idx)
    (h : (y 0).val < o ∨ o + 512 ≤ (y 0).val) :
    arg9.view.read (Elt F) (arg9.view.writes (Elt F) (harg9.unread x9) (runBuild c i arg1 harg1 arg2 harg2 arg3 harg3 arg4 harg4 arg5 harg5 arg6 harg6 arg7 harg7 arg8 harg8 arg9 harg9 arg10 harg10 hc0 hc1 hc2 x0 x1 x2 x3 x4 x5 x7 x8 x9 x10).1) y = x9 y := by
  unfold runBuild; dsimp only; sl_unfold_words
  refine (View.read_writes_cons_rows_of_not_mem _ _ _ _ _ y ho rfl h).trans ?_
  rw [View.writes_nil, harg9.read_unread]

theorem build_Adj_in (c : Dev nD) (i : grid0.Coords) (arg1 : Memref sig .tc .vmem S2048x256 .f32) (harg1 : arg1.IsWhole) (arg2 : Memref sig .tc .vmem S512x2048 .f32) (harg2 : arg2.IsWhole) (arg3 : Memref sig .tc .vmem S256x128 .f32) (harg3 : arg3.IsWhole) (arg4 : Memref sig .tc .vmem S1x128 .f32) (harg4 : arg4.IsWhole) (arg5 : Memref sig .tc .vmem S128x2048 .f32) (harg5 : arg5.IsWhole) (arg6 : Memref sig .tc .vmem S1x2048 .f32) (harg6 : arg6.IsWhole) (arg7 : Memref sig .tc .vmem S512x2048 .f32) (harg7 : arg7.IsWhole) (arg8 : Memref sig .tc .vmem S2048x128 .f32) (harg8 : arg8.IsWhole) (arg9 : Memref sig .tc .vmem S2048x2048 .f32) (harg9 : arg9.IsWhole) (arg10 : Memref sig .tc .vmem S2048x2048 .f32) (harg10 : arg10.IsWhole) (hc0 : ¬isFirst i) (hc1 : isBuild i) (hc2 : ¬isEmit i)
    (x0 : Vec F S2048x256 .f32) (x1 : Vec F S512x2048 .f32) (x2 : Vec F S256x128 .f32) (x3 : Vec F S1x128 .f32) (x4 : Vec F S128x2048 .f32) (x5 : Vec F S1x2048 .f32) (x7 : Vec F S512x2048 .f32) (x8 : Vec F S2048x128 .f32) (x9 x10 : Vec F S2048x2048 .f32) (o : ℕ) (ho : k0_off1 i = ![o, 0]) (y : S2048x2048.Idx) (p : S512x2048.Idx)
    (h0 : (y 0).val = o + (p 0).val) (h1 : (y 1).val = (p 1).val) :
    arg10.view.read (Elt F) (arg10.view.writes (Elt F) (harg10.unread x10) (runBuild c i arg1 harg1 arg2 harg2 arg3 harg3 arg4 harg4 arg5 harg5 arg6 harg6 arg7 harg7 arg8 harg8 arg9 harg9 arg10 harg10 hc0 hc1 hc2 x0 x1 x2 x3 x4 x5 x7 x8 x9 x10).2.1) y = x1 p := by
  unfold runBuild; dsimp only; sl_unfold_words
  refine (View.read_writes_cons_rows_of_mem _ _ _ _ _ y p ho h0 h1).trans ?_
  unfold k0_pay2
  simp only [View.readAt_eq_ld, harg1.read_unread, harg2.read_unread, harg3.read_unread, harg4.read_unread, harg5.read_unread, harg6.read_unread, harg8.read_unread, harg9.read_unread, harg10.read_unread, View.ld_unit_zero (S := S2048x256) hz2, View.ld_unit_zero (S := S256x128) hz2, View.ld_unit_zero (S := S512x2048) hz2, View.ld_unit_zero (S := S1x128) hz2, View.ld_unit_zero (S := S128x2048) hz2, View.ld_unit_zero (S := S2048x128) hz2, shapeCast_self]

theorem build_Adj_out (c : Dev nD) (i : grid0.Coords) (arg1 : Memref sig .tc .vmem S2048x256 .f32) (harg1 : arg1.IsWhole) (arg2 : Memref sig .tc .vmem S512x2048 .f32) (harg2 : arg2.IsWhole) (arg3 : Memref sig .tc .vmem S256x128 .f32) (harg3 : arg3.IsWhole) (arg4 : Memref sig .tc .vmem S1x128 .f32) (harg4 : arg4.IsWhole) (arg5 : Memref sig .tc .vmem S128x2048 .f32) (harg5 : arg5.IsWhole) (arg6 : Memref sig .tc .vmem S1x2048 .f32) (harg6 : arg6.IsWhole) (arg7 : Memref sig .tc .vmem S512x2048 .f32) (harg7 : arg7.IsWhole) (arg8 : Memref sig .tc .vmem S2048x128 .f32) (harg8 : arg8.IsWhole) (arg9 : Memref sig .tc .vmem S2048x2048 .f32) (harg9 : arg9.IsWhole) (arg10 : Memref sig .tc .vmem S2048x2048 .f32) (harg10 : arg10.IsWhole) (hc0 : ¬isFirst i) (hc1 : isBuild i) (hc2 : ¬isEmit i)
    (x0 : Vec F S2048x256 .f32) (x1 : Vec F S512x2048 .f32) (x2 : Vec F S256x128 .f32) (x3 : Vec F S1x128 .f32) (x4 : Vec F S128x2048 .f32) (x5 : Vec F S1x2048 .f32) (x7 : Vec F S512x2048 .f32) (x8 : Vec F S2048x128 .f32) (x9 x10 : Vec F S2048x2048 .f32) (o : ℕ) (ho : k0_off1 i = ![o, 0]) (y : S2048x2048.Idx)
    (h : (y 0).val < o ∨ o + 512 ≤ (y 0).val) :
    arg10.view.read (Elt F) (arg10.view.writes (Elt F) (harg10.unread x10) (runBuild c i arg1 harg1 arg2 harg2 arg3 harg3 arg4 harg4 arg5 harg5 arg6 harg6 arg7 harg7 arg8 harg8 arg9 harg9 arg10 harg10 hc0 hc1 hc2 x0 x1 x2 x3 x4 x5 x7 x8 x9 x10).2.1) y = x10 y := by
  unfold runBuild; dsimp only; sl_unfold_words
  refine (View.read_writes_cons_rows_of_not_mem _ _ _ _ _ y ho rfl h).trans ?_
  rw [View.writes_nil, harg10.read_unread]

/-! ## Points 4–7 -/

/-- An index of the result's buffer in columns `512 j … 512 j + 511` reads tile `j`: the logistic of the banked rows
    times slab `j` of the intermediate plus lanes `j` of the bias row. -/
theorem emit_out (c : Dev nD) (i : grid0.Coords) (arg1 : Memref sig .tc .vmem S2048x256 .f32) (harg1 : arg1.IsWhole) (arg2 : Memref sig .tc .vmem S512x2048 .f32) (harg2 : arg2.IsWhole) (arg3 : Memref sig .tc .vmem S256x128 .f32) (harg3 : arg3.IsWhole) (arg4 : Memref sig .tc .vmem S1x128 .f32) (harg4 : arg4.IsWhole) (arg5 : Memref sig .tc .vmem S128x2048 .f32) (harg5 : arg5.IsWhole) (arg6 : Memref sig .tc .vmem S1x2048 .f32) (harg6 : arg6.IsWhole) (arg7 : Memref sig .tc .vmem S512x2048 .f32) (harg7 : arg7.IsWhole) (arg8 : Memref sig .tc .vmem S2048x128 .f32) (harg8 : arg8.IsWhole) (arg9 : Memref sig .tc .vmem S2048x2048 .f32) (harg9 : arg9.IsWhole) (arg10 : Memref sig .tc .vmem S2048x2048 .f32) (harg10 : arg10.IsWhole) (hc0 : ¬isFirst i) (hc1 : ¬isBuild i) (hc2 : isEmit i)
    (x0 : Vec F S2048x256 .f32) (x1 : Vec F S512x2048 .f32) (x2 : Vec F S256x128 .f32) (x3 : Vec F S1x128 .f32) (x4 : Vec F S128x2048 .f32) (x5 : Vec F S1x2048 .f32) (x8 : Vec F S2048x128 .f32) (x9 x10 : Vec F S2048x2048 .f32) (o : ℕ) (ho : k0_off2 i = ![o, 0]) (hob : o + 512 ≤ 2048)
    (f : arg7.view.ty.Contents (Elt F)) (y : S512x2048.Idx) (j : Fin 4) (q : S512x512.Idx)
    (h0 : (y 0).val = (q 0).val) (h1 : (y 1).val = 512 * j.val + (q 1).val) :
    arg7.view.read (Elt F) (arg7.view.writes (Elt F) f (runEmit c i arg1 harg1 arg2 harg2 arg3 harg3 arg4 harg4 arg5 harg5 arg6 harg6 arg7 harg7 arg8 harg8 arg9 harg9 arg10 harg10 hc0 hc1 hc2 x0 x1 x2 x3 x4 x5 x8 x9 x10).1) y
      = k0_pay5 (rowsAt x10 o hob) (colSlab x9 j) (laneSlab x5 j) q := by
  have hq1 : (q 1).val < 512 := (q 1).isLt
  unfold runEmit; dsimp only; sl_unfold_words
  simp only [View.readAt_eq_ld, harg6.read_unread, harg9.read_unread, harg10.read_unread]
  match j, h1 with
  | ⟨0, _⟩, h1 =>
    have h1' : (y 1).val = 0 + (q 1).val := h1
    clear h1
    refine (View.read_writes_cons_unit_of_not_mem _ _ _ _ _ y rfl (1 : Fin 2) (Or.inl (by show (y 1).val < 1536; omega))).trans ?_
    refine (View.read_writes_cons_unit_of_not_mem _ _ _ _ _ y rfl (1 : Fin 2) (Or.inl (by show (y 1).val < 1024; omega))).trans ?_
    refine (View.read_writes_cons_unit_of_not_mem _ _ _ _ _ y rfl (1 : Fin 2) (Or.inl (by show (y 1).val < 512; omega))).trans ?_
    refine (View.read_writes_cons_unit_of_mem _ _ _ _ _ y q rfl
      (Fin.forall_fin_two.mpr ⟨by show (y 0).val = 0 + (q 0).val; omega, by show (y 1).val = 0 + (q 1).val; omega⟩)).trans ?_
    refine (congrArg (fun z => k0_pay5 z _ _ q) (ld_rows x10 _ _ o ho hob)).trans ?_
    refine (congrArg (fun z => k0_pay5 _ z _ q) (ld_cols x9 ⟨0, by decide⟩ _ _ rfl)).trans ?_
    exact congrArg (fun z => k0_pay5 _ _ z q) (ld_lanes x5 ⟨0, by decide⟩ _ _ rfl)
  | ⟨1, _⟩, h1 =>
    have h1' : (y 1).val = 512 + (q 1).val := h1
    clear h1
    refine (View.read_writes_cons_unit_of_not_mem _ _ _ _ _ y rfl (1 : Fin 2) (Or.inl (by show (y 1).val < 1536; omega))).trans ?_
    refine (View.read_writes_cons_unit_of_not_mem _ _ _ _ _ y rfl (1 : Fin 2) (Or.inl (by show (y 1).val < 1024; omega))).trans ?_
    refine (View.read_writes_cons_unit_of_mem _ _ _ _ _ y q rfl
      (Fin.forall_fin_two.mpr ⟨by show (y 0).val = 0 + (q 0).val; omega, by show (y 1).val = 512 + (q 1).val; omega⟩)).trans ?_
    refine (congrFun (pay6_eq _ _ _) q).trans ?_
    refine (congrArg (fun z => k0_pay5 z _ _ q) (ld_rows x10 _ _ o ho hob)).trans ?_
    refine (congrArg (fun z => k0_pay5 _ z _ q) (ld_cols x9 ⟨1, by decide⟩ _ _ rfl)).trans ?_
    exact congrArg (fun z => k0_pay5 _ _ z q) (ld_lanes x5 ⟨1, by decide⟩ _ _ rfl)
  | ⟨2, _⟩, h1 =>
    have h1' : (y 1).val = 1024 + (q 1).val := h1
    clear h1
    refine (View.read_writes_cons_unit_of_not_mem _ _ _ _ _ y rfl (1 : Fin 2) (Or.inl (by show (y 1).val < 1536; omega))).trans ?_
    refine (View.read_writes_cons_unit_of_mem _ _ _ _ _ y q rfl
      (Fin.forall_fin_two.mpr ⟨by show (y 0).val = 0 + (q 0).val; omega, by show (y 1).val = 1024 + (q 1).val; omega⟩)).trans ?_
    refine (congrFun (pay7_eq _ _ _) q).trans ?_
    refine (congrArg (fun z => k0_pay5 z _ _ q) (ld_rows x10 _ _ o ho hob)).trans ?_
    refine (congrArg (fun z => k0_pay5 _ z _ q) (ld_cols x9 ⟨2, by decide⟩ _ _ rfl)).trans ?_
    exact congrArg (fun z => k0_pay5 _ _ z q) (ld_lanes x5 ⟨2, by decide⟩ _ _ rfl)
  | ⟨3, _⟩, h1 =>
    have h1' : (y 1).val = 1536 + (q 1).val := h1
    clear h1
    refine (View.read_writes_cons_unit_of_mem _ _ _ _ _ y q rfl
      (Fin.forall_fin_two.mpr ⟨by show (y 0).val = 0 + (q 0).val; omega, by show (y 1).val = 1536 + (q 1).val; omega⟩)).trans ?_
    refine (congrFun (pay4_eq _ _ _) q).trans ?_
    refine (congrArg (fun z => k0_pay5 z _ _ q) (ld_rows x10 _ _ o ho hob)).trans ?_
    refine (congrArg (fun z => k0_pay5 _ z _ q) (ld_cols x9 ⟨3, by decide⟩ _ _ rfl)).trans ?_
    exact congrArg (fun z => k0_pay5 _ _ z q) (ld_lanes x5 ⟨3, by decide⟩ _ _ rfl)

end Cert.Kernel.Body

end
-- ==== Proof.KBBlocks.lean ====
import proofs.«102864_g35416300322820_cont_8to1_b_1386_18_alg».proof.Proof.KBShared
import proofs.«102864_g35416300322820_cont_8to1_b_1386_18_alg».proof.Proof.KBSpec
import Idealize.ShloMosaic.Lib.Pipeline.Value

/-!
# The windows' blocks as parts of whole arrays

Five of the six input windows have one block, the whole array, at every point (`x`, `W1`, the bias row `b1`, `W2`,
the bias row `b2`); the window of `adj` has blocks of 512 rows, and at point `t < 4` its block is rows
`512 t … 512 t + 511`. Each is read off the window's printed index map, decided over the grid.
-/

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen Cert.Kernel.KSpec
open Idealize.ShloMosaic.ValueIdx

variable {F : FTy → Type} [FloatOps F]
variable (m : (ℓ : Loc nD τ sig) → Buf (Elt F) ℓ)

/-- The six operand arrays as the region finds them. -/
def opX (c : Dev nD) : Vec F S2048x256 .f32 := V m c main_arg0
def opAdj (c : Dev nD) : Vec F S2048x2048 .f32 := V m c main_arg1
def opW1 (c : Dev nD) : Vec F S256x128 .f32 := V m c main_arg2
def opB1 (c : Dev nD) : Vec F S1x128 .f32 := V m c main_v0
def opW2 (c : Dev nD) : Vec F S128x2048 .f32 := V m c main_arg4
def opB2 (c : Dev nD) : Vec F S1x2048 .f32 := V m c main_v1

/-- Window 0's one block is its whole array, at every point. -/
theorem blk0_eq (c : Dev nD) (t : Fin cfg0.N) : (iblk m c 0 t : Vec F S2048x256 .f32) = opX m c := by
  have hi : ∀ t : Fin cfg0.N, win0_0.index t (0 : Fin 2) = 0 ∧ win0_0.index t (1 : Fin 2) = 0 :=
    (by decide +kernel : ∀ t : Fin grid0.N, win0_0.index t (0 : Fin 2) = 0 ∧ win0_0.index t (1 : Fin 2) = 0)
  funext j
  unfold iblk opX
  rw [View.read_apply]
  show V m c main_arg0 _ = V m c main_arg0 j
  congr 1
  funext a
  apply Fin.ext
  match a with
  | ⟨0, _⟩ => show win0_0.index t (0 : Fin 2) * 2048 + 1 * (j 0).val = (j 0).val; rw [(hi t).1]; omega
  | ⟨1, _⟩ => show win0_0.index t (1 : Fin 2) * 256 + 1 * (j 1).val = (j 1).val; rw [(hi t).2]; omega

/-- Window 2's one block is its whole array, at every point. -/
theorem blk2_eq (c : Dev nD) (t : Fin cfg0.N) : (iblk m c 2 t : Vec F S256x128 .f32) = opW1 m c := by
  have hi : ∀ t : Fin cfg0.N, win0_2.index t (0 : Fin 2) = 0 ∧ win0_2.index t (1 : Fin 2) = 0 :=
    (by decide +kernel : ∀ t : Fin grid0.N, win0_2.index t (0 : Fin 2) = 0 ∧ win0_2.index t (1 : Fin 2) = 0)
  funext j
  unfold iblk opW1
  rw [View.read_apply]
  show V m c main_arg2 _ = V m c main_arg2 j
  congr 1
  funext a
  apply Fin.ext
  match a with
  | ⟨0, _⟩ => show win0_2.index t (0 : Fin 2) * 256 + 1 * (j 0).val = (j 0).val; rw [(hi t).1]; omega
  | ⟨1, _⟩ => show win0_2.index t (1 : Fin 2) * 128 + 1 * (j 1).val = (j 1).val; rw [(hi t).2]; omega

/-- Window 3's one block is its whole array, at every point. -/
theorem blk3_eq (c : Dev nD) (t : Fin cfg0.N) : (iblk m c 3 t : Vec F S1x128 .f32) = opB1 m c := by
  have hi : ∀ t : Fin cfg0.N, win0_3.index t (0 : Fin 2) = 0 ∧ win0_3.index t (1 : Fin 2) = 0 :=
    (by decide +kernel : ∀ t : Fin grid0.N, win0_3.index t (0 : Fin 2) = 0 ∧ win0_3.index t (1 : Fin 2) = 0)
  funext j
  unfold iblk opB1
  rw [View.read_apply]
  show V m c main_v0 _ = V m c main_v0 j
  congr 1
  funext a
  apply Fin.ext
  match a with
  | ⟨0, _⟩ => show win0_3.index t (0 : Fin 2) * 1 + 1 * (j 0).val = (j 0).val; rw [(hi t).1]; omega
  | ⟨1, _⟩ => show win0_3.index t (1 : Fin 2) * 128 + 1 * (j 1).val = (j 1).val; rw [(hi t).2]; omega

/-- Window 4's one block is its whole array, at every point. -/
theorem blk4_eq (c : Dev nD) (t : Fin cfg0.N) : (iblk m c 4 t : Vec F S128x2048 .f32) = opW2 m c := by
  have hi : ∀ t : Fin cfg0.N, win0_4.index t (0 : Fin 2) = 0 ∧ win0_4.index t (1 : Fin 2) = 0 :=
    (by decide +kernel : ∀ t : Fin grid0.N, win0_4.index t (0 : Fin 2) = 0 ∧ win0_4.index t (1 : Fin 2) = 0)
  funext j
  unfold iblk opW2
  rw [View.read_apply]
  show V m c main_arg4 _ = V m c main_arg4 j
  congr 1
  funext a
  apply Fin.ext
  match a with
  | ⟨0, _⟩ => show win0_4.index t (0 : Fin 2) * 128 + 1 * (j 0).val = (j 0).val; rw [(hi t).1]; omega
  | ⟨1, _⟩ => show win0_4.index t (1 : Fin 2) * 2048 + 1 * (j 1).val = (j 1).val; rw [(hi t).2]; omega

/-- Window 5's one block is its whole array, at every point. -/
theorem blk5_eq (c : Dev nD) (t : Fin cfg0.N) : (iblk m c 5 t : Vec F S1x2048 .f32) = opB2 m c := by
  have hi : ∀ t : Fin cfg0.N, win0_5.index t (0 : Fin 2) = 0 ∧ win0_5.index t (1 : Fin 2) = 0 :=
    (by decide +kernel : ∀ t : Fin grid0.N, win0_5.index t (0 : Fin 2) = 0 ∧ win0_5.index t (1 : Fin 2) = 0)
  funext j
  unfold iblk opB2
  rw [View.read_apply]
  show V m c main_v1 _ = V m c main_v1 j
  congr 1
  funext a
  apply Fin.ext
  match a with
  | ⟨0, _⟩ => show win0_5.index t (0 : Fin 2) * 1 + 1 * (j 0).val = (j 0).val; rw [(hi t).1]; omega
  | ⟨1, _⟩ => show win0_5.index t (1 : Fin 2) * 2048 + 1 * (j 1).val = (j 1).val; rw [(hi t).2]; omega

/-- At a point `t < 4` the block of `adj` is its row block `t`. -/
theorem blk1_eq (c : Dev nD) (t : Fin cfg0.N) (ht : t.val < 4) :
    (iblk m c 1 t : Vec F S512x2048 .f32) = rowBlock (opAdj m c) ⟨t.val, ht⟩ := by
  have hi : ∀ t : Fin cfg0.N, t.val < 4 → win0_1.index t (0 : Fin 2) = t.val ∧ win0_1.index t (1 : Fin 2) = 0 :=
    (by decide +kernel : ∀ t : Fin grid0.N, t.val < 4 → win0_1.index t (0 : Fin 2) = t.val ∧ win0_1.index t (1 : Fin 2) = 0)
  funext j
  unfold iblk rowBlock opAdj
  rw [View.read_apply]
  show V m c main_arg1 _ = V m c main_arg1 _
  congr 1
  funext a
  apply Fin.ext
  match a with
  | ⟨0, _⟩ => show win0_1.index t (0 : Fin 2) * 512 + 1 * (j 0).val = 512 * t.val + (j 0).val; rw [(hi t ht).1]; omega
  | ⟨1, _⟩ => show win0_1.index t (1 : Fin 2) * 2048 + 1 * (j 1).val = (j 1).val; rw [(hi t ht).2]; omega

end Cert.Kernel.Body

end
-- ==== Proof.KBSpecAt.lean ====
import proofs.«102864_g35416300322820_cont_8to1_b_1386_18_alg».proof.Proof.KBSpec

/-!
# The closed form at an index given by block and position

`KSpec.support2` and `KSpec.out` pick their block by dividing the index by 512. When an index is handed over as
"block `b`, position `p` inside it" — row `512 b + p` — the division gives back `b` and the remainder `p`.
-/

noncomputable section

namespace Cert.Kernel.KSpec

open Idealize.ShloMosaic Cert.Kernel Cert.Kernel.Gen
open Idealize.ShloMosaic.ValueIdx

variable {F : FTy → Type} [FloatOps F]

/-- Row `512 b + p` of the intermediate is row `p` of block `b`. -/
theorem support2_at (x : Vec F S2048x256 .f32) (A : Vec F S2048x2048 .f32) (w1 : Vec F S256x128 .f32)
    (b1r : Vec F S1x128 .f32) (w2 : Vec F S128x2048 .f32) (b : Fin 4) (p : S512x2048.Idx) (y : S2048x2048.Idx)
    (hy0 : (y 0).val = 512 * b.val + (p 0).val) (hy1 : (y 1).val = (p 1).val) :
    support2 x A w1 b1r w2 y = support2Block x A w1 b1r w2 b p := by
  have hp0 : (p 0).val < 512 := (p 0).isLt
  have e : ∀ (b' : Fin 4) (p' : S512x2048.Idx), b' = b → p' = p →
      support2Block x A w1 b1r w2 b' p' = support2Block x A w1 b1r w2 b p := by
    rintro _ _ rfl rfl; rfl
  unfold support2
  exact e _ _ (Fin.ext (by show (y 0).val / 512 = b.val; omega)) (funext fun a => Fin.ext (by
    match a with
    | ⟨0, _⟩ => show (y 0).val % 512 = (p 0).val; omega
    | ⟨1, _⟩ => show (y 1).val = (p 1).val; exact hy1))

/-- Entry `(512 b + q₀, 512 j + q₁)` of the result is entry `q` of tile `(b, j)`. -/
theorem out_at (x : Vec F S2048x256 .f32) (A : Vec F S2048x2048 .f32) (w1 : Vec F S256x128 .f32)
    (b1r : Vec F S1x128 .f32) (w2 : Vec F S128x2048 .f32) (b2r : Vec F S1x2048 .f32) (b j : Fin 4)
    (q : S512x512.Idx) (y : S2048x2048.Idx)
    (hy0 : (y 0).val = 512 * b.val + (q 0).val) (hy1 : (y 1).val = 512 * j.val + (q 1).val) :
    out x A w1 b1r w2 b2r y = outTile x A w1 b1r w2 b2r b j q := by
  have hq0 : (q 0).val < 512 := (q 0).isLt
  have hq1 : (q 1).val < 512 := (q 1).isLt
  have e : ∀ (b' j' : Fin 4) (q' : S512x512.Idx), b' = b → j' = j → q' = q →
      outTile x A w1 b1r w2 b2r b' j' q' = outTile x A w1 b1r w2 b2r b j q := by
    rintro _ _ _ rfl rfl rfl; rfl
  unfold out
  exact e _ _ _ (Fin.ext (by show (y 0).val / 512 = b.val; omega)) (Fin.ext (by show (y 1).val / 512 = j.val; omega))
    (funext fun a => Fin.ext (by
      match a with
      | ⟨0, _⟩ => show (y 0).val % 512 = (q 0).val; omega
      | ⟨1, _⟩ => show (y 1).val % 512 = (q 1).val; omega))

end Cert.Kernel.KSpec

end
-- ==== Proof.KBFrame.lean ====
import proofs.«102864_g35416300322820_cont_8to1_b_1386_18_alg».proof.Proof.KBPieces
import proofs.«102864_g35416300322820_cont_8to1_b_1386_18_alg».proof.Proof.KBBlocks
import proofs.«102864_g35416300322820_cont_8to1_b_1386_18_alg».proof.Proof.KBSpecAt

/-!
# The proof data, the body at every point, and the run

Between points the three scratch buffers hold: the first always the product `x · W1` (from point 0 on); the intermediate
and the bank of `adj` each SOME contents that agree with the closed form (`KSpec.support2`, `adj` itself) on the rows
stored so far, rows `0 … 512 · min n 4 - 1` after `n` points. That is the invariant. The result's window is idle and not
written back at points 0–3; at point `t ≥ 4` the body leaves in its staging buffer block `t - 4` of `KSpec.out`, which
is written back there.

Each of the three kinds of point is one application of its run. After a point of the first two kinds the stored row block
is the closed form's on its rows (the run's store is the same arithmetic over the same blocks) and the rows outside it are
untouched. From point 4 on both buffers agree with the closed form everywhere, so the loads of the third kind read the
closed form's rows and slabs, and the four tiles are `KSpec.out`'s.
-/

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen Cert.Kernel.KSpec
open Idealize.ShloMosaic.ValueIdx

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The closed form over the operands as the region finds them -/

/-- The first product. -/
def kS1 (c : Dev nD) : Vec F S2048x128 .f32 := support1 (opX m c) (opW1 m c)
/-- The intermediate. -/
def kS2 (c : Dev nD) : Vec F S2048x2048 .f32 := support2 (opX m c) (opAdj m c) (opW1 m c) (opB1 m c) (opW2 m c)
/-- The result, as contents of the result array. -/
def kOut (c : Dev nD) : Buf (Elt F) ((c : Thread nD τ).loc main_v2) :=
  KSpec.out (opX m c) (opAdj m c) (opW1 m c) (opB1 m c) (opW2 m c) (opB2 m c)

/-- The product of the first point's two whole blocks is the first product. -/
theorem kS1_eq (c : Dev nD) (t : Fin cfg0.N) : k0_pay1 (iblk m c 0 t) (iblk m c 2 t) = kS1 m c := by
  rw [blk0_eq, blk2_eq]; rfl

/-- Contents `d` agree with the intermediate on the rows stored after `n` points. -/
def okS2 (c : Dev nD) (n : ℕ) (d : Vec F S2048x2048 .f32) : Prop :=
  ∀ y : S2048x2048.Idx, (y 0).val < 512 * min n 4 → d y = kS2 m c y
/-- Contents `d` agree with `adj` on the rows banked after `n` points. -/
def okAdj (c : Dev nD) (n : ℕ) (d : Vec F S2048x2048 .f32) : Prop :=
  ∀ y : S2048x2048.Idx, (y 0).val < 512 * min n 4 → d y = opAdj m c y

theorem okS2_full (c : Dev nD) (n : ℕ) (hn : 4 ≤ n) (d : Vec F S2048x2048 .f32) (h : okS2 m c n d) : d = kS2 m c :=
  funext fun y => h y (by have : (y 0).val < 2048 := (y 0).isLt; omega)
theorem okAdj_full (c : Dev nD) (n : ℕ) (hn : 4 ≤ n) (d : Vec F S2048x2048 .f32) (h : okAdj m c n d) : d = opAdj m c :=
  funext fun y => h y (by have : (y 0).val < 2048 := (y 0).isLt; omega)

/-- The row block stored at point `t < 4` is the closed form's on rows `512 t … 512 t + 511`. -/
theorem s2_row (c : Dev nD) (t : Fin cfg0.N) (ht : t.val < 4) (y : S2048x2048.Idx)
    (hlo : 512 * t.val ≤ (y 0).val) (hhi : (y 0).val < 512 * t.val + 512) :
    k0_pay3 (iblk m c 1 t) (kS1 m c) (iblk m c 3 t) (iblk m c 4 t)
      (ix2 (n0 := 512) (n1 := 2048) ⟨(y 0).val - 512 * t.val, by omega⟩ ⟨(y 1).val, (y 1).isLt⟩) = kS2 m c y := by
  rw [blk1_eq m c t ht, blk3_eq, blk4_eq]
  exact (support2_at (opX m c) (opAdj m c) (opW1 m c) (opB1 m c) (opW2 m c) ⟨t.val, ht⟩ _ y
    (by show (y 0).val = 512 * t.val + ((y 0).val - 512 * t.val); omega) rfl).symm

/-- The block of `adj` banked at point `t < 4` is `adj` on those rows. -/
theorem adj_row (c : Dev nD) (t : Fin cfg0.N) (ht : t.val < 4) (y : S2048x2048.Idx)
    (hlo : 512 * t.val ≤ (y 0).val) (hhi : (y 0).val < 512 * t.val + 512) :
    (iblk m c 1 t : Vec F S512x2048 .f32)
      (ix2 (n0 := 512) (n1 := 2048) ⟨(y 0).val - 512 * t.val, by omega⟩ ⟨(y 1).val, (y 1).isLt⟩) = opAdj m c y := by
  rw [blk1_eq m c t ht]
  unfold rowBlock
  congr 1
  funext a
  apply Fin.ext
  match a with
  | ⟨0, _⟩ => show 512 * t.val + ((y 0).val - 512 * t.val) = (y 0).val; omega
  | ⟨1, _⟩ => rfl

/-- One more row block: contents `R` that are the stored block on rows `512 t … 512 t + 511` and `d` elsewhere agree with
    the intermediate on the rows stored after `t + 1` points, if `d` did after `t`. -/
theorem okS2_step (c : Dev nD) (t : Fin cfg0.N) (ht : t.val < 4) (d R : Vec F S2048x2048 .f32) (hd : okS2 m c t.val d)
    (hin : ∀ (y : S2048x2048.Idx) (p : S512x2048.Idx), (y 0).val = 512 * t.val + (p 0).val → (y 1).val = (p 1).val →
      R y = k0_pay3 (iblk m c 1 t) (kS1 m c) (iblk m c 3 t) (iblk m c 4 t) p)
    (hout : ∀ y : S2048x2048.Idx, ((y 0).val < 512 * t.val ∨ 512 * t.val + 512 ≤ (y 0).val) → R y = d y) :
    okS2 m c (t.val + 1) R := by
  intro y hy
  by_cases hlo : (y 0).val < 512 * t.val
  · rw [hout y (Or.inl hlo)]; exact hd y (by omega)
  · rw [hin y (ix2 (n0 := 512) (n1 := 2048) ⟨(y 0).val - 512 * t.val, by omega⟩ ⟨(y 1).val, (y 1).isLt⟩)
      (by show (y 0).val = 512 * t.val + ((y 0).val - 512 * t.val); omega) rfl]
    exact s2_row m c t ht y (by omega) (by omega)

theorem okAdj_step (c : Dev nD) (t : Fin cfg0.N) (ht : t.val < 4) (d R : Vec F S2048x2048 .f32) (hd : okAdj m c t.val d)
    (hin : ∀ (y : S2048x2048.Idx) (p : S512x2048.Idx), (y 0).val = 512 * t.val + (p 0).val → (y 1).val = (p 1).val →
      R y = (iblk m c 1 t : Vec F S512x2048 .f32) p)
    (hout : ∀ y : S2048x2048.Idx, ((y 0).val < 512 * t.val ∨ 512 * t.val + 512 ≤ (y 0).val) → R y = d y) :
    okAdj m c (t.val + 1) R := by
  intro y hy
  by_cases hlo : (y 0).val < 512 * t.val
  · rw [hout y (Or.inl hlo)]; exact hd y (by omega)
  · rw [hin y (ix2 (n0 := 512) (n1 := 2048) ⟨(y 0).val - 512 * t.val, by omega⟩ ⟨(y 1).val, (y 1).isLt⟩)
      (by show (y 0).val = 512 * t.val + ((y 0).val - 512 * t.val); omega) rfl]
    exact adj_row m c t ht y (by omega) (by omega)

/-! ## The invariant and the proof data -/

/-- Before point `n`: at the start what the launch hands over; afterwards the first scratch at the first product, the other
    two at contents that agree with the closed form on the rows stored so far. -/
def PhiS (c : Dev nD) : ℕ → sProp 𝕄
  | 0 => Pipeline.ΦA spec0 c
  | n + 1 => iprop(iprop(owns (c : Thread nD τ) scrS1 fullShare (kS1 m c)
      ∗ (∃ d, owns (c : Thread nD τ) scrS2 fullShare d ∗ ⌜okS2 m c (n + 1) d⌝)
      ∗ (∃ d, owns (c : Thread nD τ) scrAdj fullShare d ∗ ⌜okAdj m c (n + 1) d⌝)) ∗ (∃ r, prngReg c r))

theorem PhiS_succ (c : Dev nD) (n : ℕ) :
    PhiS m c (n + 1) = iprop(iprop(owns (c : Thread nD τ) scrS1 fullShare (kS1 m c)
      ∗ (∃ d, owns (c : Thread nD τ) scrS2 fullShare d ∗ ⌜okS2 m c (n + 1) d⌝)
      ∗ (∃ d, owns (c : Thread nD τ) scrAdj fullShare d ∗ ⌜okAdj m c (n + 1) d⌝)) ∗ (∃ r, prngReg c r)) := rfl

theorem PhiS_pos (c : Dev nD) (n : ℕ) (hn : n ≠ 0) :
    PhiS m c n = iprop(iprop(owns (c : Thread nD τ) scrS1 fullShare (kS1 m c)
      ∗ (∃ d, owns (c : Thread nD τ) scrS2 fullShare d ∗ ⌜okS2 m c n d⌝)
      ∗ (∃ d, owns (c : Thread nD τ) scrAdj fullShare d ∗ ⌜okAdj m c n d⌝)) ∗ (∃ r, prngReg c r)) := by
  cases n with
  | zero => exact absurd rfl hn
  | succ n => rfl

theorem PhiS_zero (c : Dev nD) (n : ℕ) (hn : n = 0) : PhiS m c n = Pipeline.ΦA spec0 c := by subst hn; rfl

/-- The proof data on core `c`: the arrays as the region finds them; each input's buffer left at its block; the result's
    buffer left at its block of `KSpec.out`; the invariant above; full shares; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => ((cfg0.win 6).blk t).view.read (Elt F) (kOut m c)
  Φ t := PhiS m c t.val
  q _ := fullShare
  owed _ := 0

theorem A_eq (c : Dev nD) (w : Fin cfg0.W) : (dats m 0 c).A w = V m c (Pipeline.arrRef spec0 w) := by
  dsimp only [dats]

theorem Phi_castSucc (c : Dev nD) (t : Fin cfg0.N) : (dats m 0 c).Φ t.castSucc = PhiS m c t.val := by
  dsimp only [dats]; simp only [Fin.coe_castSucc]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) :
    (dats m 0 c).after 6 t = ((cfg0.win 6).blk t).view.read (Elt F) (kOut m c) := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d

/-- The conditions at a point, from where the point sits in the grid. -/
theorem cFirst (t : Fin cfg0.N) (h : t.val = 0) : isFirst (grid0.coords t) := (isFirst_iff t).mpr h
theorem nFirst (t : Fin cfg0.N) (h : t.val ≠ 0) : ¬isFirst (grid0.coords t) := fun h' => h ((isFirst_iff t).mp h')
theorem cBuild (t : Fin cfg0.N) (h : t.val < 4) : isBuild (grid0.coords t) := (isBuild_iff t).mpr h
theorem nBuild (t : Fin cfg0.N) (h : ¬t.val < 4) : ¬isBuild (grid0.coords t) := fun h' => h ((isBuild_iff t).mp h')
theorem cEmit (t : Fin cfg0.N) (h : 4 ≤ t.val) : isEmit (grid0.coords t) := (isEmit_iff t).mpr h
theorem nEmit (t : Fin cfg0.N) (h : ¬4 ≤ t.val) : ¬isEmit (grid0.coords t) := fun h' => h ((isEmit_iff t).mp h')

/-- What the four tiles of a point `t ≥ 4` leave is the result window's block of the closed form. -/
theorem emit_block (c : Dev nD) (t : Fin cfg0.N) (ht : 4 ≤ t.val) (hob : 512 * (t.val - 4) + 512 ≤ 2048)
    (R : Vec F S512x2048 .f32)
    (hR : ∀ (y : S512x2048.Idx) (j : Fin 4) (q : S512x512.Idx), (y 0).val = (q 0).val →
      (y 1).val = 512 * j.val + (q 1).val →
      R y = k0_pay5 (rowsAt (opAdj m c) (512 * (t.val - 4)) hob) (colSlab (kS2 m c) j) (laneSlab (iblk m c 5 t) j) q) :
    R = (dats m 0 c).after 6 t := by
  have hi : ∀ t : Fin cfg0.N, 4 ≤ t.val → win0_6.index t (0 : Fin 2) = t.val - 4 ∧ win0_6.index t (1 : Fin 2) = 0 :=
    (by decide +kernel : ∀ t : Fin grid0.N, 4 ≤ t.val → win0_6.index t (0 : Fin 2) = t.val - 4 ∧ win0_6.index t (1 : Fin 2) = 0)
  have hN : t.val < 8 := lt_of_lt_of_eq t.isLt (show cfg0.N = 8 from N_0)
  rw [after_6]
  funext y
  have hy0 : (y 0).val < 512 := (y 0).isLt
  have hy1 : (y 1).val < 2048 := (y 1).isLt
  rw [View.read_apply]
  rw [hR y ⟨(y 1).val / 512, by omega⟩ (ix2 (n0 := 512) (n1 := 512) ⟨(y 0).val, hy0⟩ ⟨(y 1).val % 512, Nat.mod_lt _ (by decide)⟩)
    rfl (by show (y 1).val = 512 * ((y 1).val / 512) + (y 1).val % 512; omega)]
  rw [blk5_eq]
  unfold kOut
  refine ((out_at (opX m c) (opAdj m c) (opW1 m c) (opB1 m c) (opW2 m c) (opB2 m c) ⟨t.val - 4, by omega⟩ ⟨(y 1).val / 512, by omega⟩
    (ix2 (n0 := 512) (n1 := 512) ⟨(y 0).val, hy0⟩ ⟨(y 1).val % 512, Nat.mod_lt _ (by decide)⟩) _ ?_ ?_).trans rfl).symm
  · show win0_6.index t (0 : Fin 2) * 512 + 1 * (y 0).val = 512 * (t.val - 4) + (y 0).val
    rw [(hi t ht).1]; omega
  · show win0_6.index t (1 : Fin 2) * 2048 + 1 * (y 1).val = 512 * ((y 1).val / 512) + (y 1).val % 512
    rw [(hi t ht).2]; omega

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (stg0 t) fullShare ((dats m 0 c).before 0 t d))
    ∗ (∃ d, owns (c : Thread nD τ) (stg1 t) fullShare ((dats m 0 c).before 1 t d))
    ∗ (∃ d, owns (c : Thread nD τ) (stg2 t) fullShare ((dats m 0 c).before 2 t d))
    ∗ (∃ d, owns (c : Thread nD τ) (stg3 t) fullShare ((dats m 0 c).before 3 t d))
    ∗ (∃ d, owns (c : Thread nD τ) (stg4 t) fullShare ((dats m 0 c).before 4 t d))
    ∗ (∃ d, owns (c : Thread nD τ) (stg5 t) fullShare ((dats m 0 c).before 5 t d))
    ∗ (∃ d, owns (c : Thread nD τ) (stg6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

set_option maxHeartbeats 4000000 in
/-- Point 0. -/
theorem sound_first (c : Dev nD) (t : Fin cfg0.N) (ht0 : t.val = 0) :
    bodyPre m c t ⊢ wp frame (wpE (defs₀ (F := F)) Variants.none c none) Set.univ (bodyAt0 t) (fun _ => bodyPost m c t) := by
  have ht : t.val < 4 := by omega
  unfold bodyPre bodyPost bodyAt0
  simp only [before_0, before_1, before_2, before_3, before_4, before_5]
  rw [show (dats m 0 c).owesAt () t.succ = (dats m 0 c).owesAt () t.castSucc from rfl]
  rw [show (dats m 0 c).Φ t.succ = PhiS m c (t.val + 1) from rfl, PhiS_succ, Phi_castSucc m c t]
  rw [show (dats m 0 c).leavesExact 0 t = owns (c : Thread nD τ) (stg0 t) fullShare ((dats m 0 c).after 0 t) from by
    unfold Dat.leavesExact; rw [live_0 t], after_0]
  rw [show (dats m 0 c).leavesExact 1 t = owns (c : Thread nD τ) (stg1 t) fullShare ((dats m 0 c).after 1 t) from by
    unfold Dat.leavesExact; rw [live_1 t], after_1]
  rw [show (dats m 0 c).leavesExact 2 t = owns (c : Thread nD τ) (stg2 t) fullShare ((dats m 0 c).after 2 t) from by
    unfold Dat.leavesExact; rw [live_2 t], after_2]
  rw [show (dats m 0 c).leavesExact 3 t = owns (c : Thread nD τ) (stg3 t) fullShare ((dats m 0 c).after 3 t) from by
    unfold Dat.leavesExact; rw [live_3 t], after_3]
  rw [show (dats m 0 c).leavesExact 4 t = owns (c : Thread nD τ) (stg4 t) fullShare ((dats m 0 c).after 4 t) from by
    unfold Dat.leavesExact; rw [live_4 t], after_4]
  rw [show (dats m 0 c).leavesExact 5 t = owns (c : Thread nD τ) (stg5 t) fullShare ((dats m 0 c).after 5 t) from by
    unfold Dat.leavesExact; rw [live_5 t], after_5]
  rw [(dats m 0 c).leavesExact_idle 6 t (idle_6 t ht) (noflush_6 t ht)]
  rw [PhiS_zero m c _ ht0, classInv_eq]
  iintro ⟨⟨⟨HS0, ⟨%d9, HS1⟩, ⟨%d10, HS2⟩⟩, Hg⟩, Ho, ⟨%e0, H0⟩, ⟨%e1, H1⟩, ⟨%e2, H2⟩, ⟨%e3, H3⟩, ⟨%e4, H4⟩, ⟨%e5, H5⟩, ⟨%e6, H6⟩⟩
  iapply ((runFirst c (grid0.coords t) (stg0 t) (stg0_whole t) (stg1 t) (stg1_whole t) (stg2 t) (stg2_whole t) (stg3 t) (stg3_whole t) (stg4 t) (stg4_whole t) (stg5 t) (stg5_whole t) (stg6 t) (stg6_whole t) scrS1 (Memref.isWhole_whole _) scrS2 (Memref.isWhole_whole _) scrAdj (Memref.isWhole_whole _) (cFirst t ht0) (cBuild t ht) (nEmit t (by omega)) (iblk m c 0 t) (iblk m c 1 t) (iblk m c 2 t) (iblk m c 3 t) (iblk m c 4 t) (iblk m c 5 t) ((dats m 0 c).before 6 t e6) d9 d10).2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HS0]; · iexact HS0
  isplitl [HS1]; · iexact HS1
  isplitl [HS2]; · iexact HS2
  iintro ⟨H0, H1, H2, H3, H4, H5, H6, ⟨%f8, HS0⟩, HS1, HS2⟩
  isplitl [HS0 HS1 HS2 Hg]
  · isplitl [HS0 HS1 HS2]
    · isplitl [HS0]
      · unfold owns; iexists _; isplitr
        swap; · iexact HS0
        ipureintro; exact (first_S1 c (grid0.coords t) (stg0 t) (stg0_whole t) (stg1 t) (stg1_whole t) (stg2 t) (stg2_whole t) (stg3 t) (stg3_whole t) (stg4 t) (stg4_whole t) (stg5 t) (stg5_whole t) (stg6 t) (stg6_whole t) scrS1 (Memref.isWhole_whole _) scrS2 (Memref.isWhole_whole _) scrAdj (Memref.isWhole_whole _) (cFirst t ht0) (cBuild t ht) (nEmit t (by omega)) (iblk m c 0 t) (iblk m c 1 t) (iblk m c 2 t) (iblk m c 3 t) (iblk m c 4 t) (iblk m c 5 t) ((dats m 0 c).before 6 t e6) d9 d10 f8).trans (kS1_eq m c t)
      isplitl [HS1]
      · iexists _; isplitl [HS1]
        · unfold owns; iexists _; isplitr
          swap; · iexact HS1
          ipureintro; rfl
        · ipureintro
          exact okS2_step m c t ht d9 _ (fun y hy => absurd hy (by omega))
            (fun y p h0 h1 => (first_S2_in c (grid0.coords t) (stg0 t) (stg0_whole t) (stg1 t) (stg1_whole t) (stg2 t) (stg2_whole t) (stg3 t) (stg3_whole t) (stg4 t) (stg4_whole t) (stg5 t) (stg5_whole t) (stg6 t) (stg6_whole t) scrS1 (Memref.isWhole_whole _) scrS2 (Memref.isWhole_whole _) scrAdj (Memref.isWhole_whole _) (cFirst t ht0) (cBuild t ht) (nEmit t (by omega)) (iblk m c 0 t) (iblk m c 1 t) (iblk m c 2 t) (iblk m c 3 t) (iblk m c 4 t) (iblk m c 5 t) ((dats m 0 c).before 6 t e6) d9 d10 (512 * t.val) (buildOff_eq t ht) y p h0 h1).trans (by rw [kS1_eq m c t]))
            (fun y h => first_S2_out c (grid0.coords t) (stg0 t) (stg0_whole t) (stg1 t) (stg1_whole t) (stg2 t) (stg2_whole t) (stg3 t) (stg3_whole t) (stg4 t) (stg4_whole t) (stg5 t) (stg5_whole t) (stg6 t) (stg6_whole t) scrS1 (Memref.isWhole_whole _) scrS2 (Memref.isWhole_whole _) scrAdj (Memref.isWhole_whole _) (cFirst t ht0) (cBuild t ht) (nEmit t (by omega)) (iblk m c 0 t) (iblk m c 1 t) (iblk m c 2 t) (iblk m c 3 t) (iblk m c 4 t) (iblk m c 5 t) ((dats m 0 c).before 6 t e6) d9 d10 (512 * t.val) (buildOff_eq t ht) y h)
      · iexists _; isplitl [HS2]
        · unfold owns; iexists _; isplitr
          swap; · iexact HS2
          ipureintro; rfl
        · ipureintro
          exact okAdj_step m c t ht d10 _ (fun y hy => absurd hy (by omega))
            (fun y p h0 h1 => first_Adj_in c (grid0.coords t) (stg0 t) (stg0_whole t) (stg1 t) (stg1_whole t) (stg2 t) (stg2_whole t) (stg3 t) (stg3_whole t) (stg4 t) (stg4_whole t) (stg5 t) (stg5_whole t) (stg6 t) (stg6_whole t) scrS1 (Memref.isWhole_whole _) scrS2 (Memref.isWhole_whole _) scrAdj (Memref.isWhole_whole _) (cFirst t ht0) (cBuild t ht) (nEmit t (by omega)) (iblk m c 0 t) (iblk m c 1 t) (iblk m c 2 t) (iblk m c 3 t) (iblk m c 4 t) (iblk m c 5 t) ((dats m 0 c).before 6 t e6) d9 d10 (512 * t.val) (buildOff_eq t ht) y p h0 h1)
            (fun y h => first_Adj_out c (grid0.coords t) (stg0 t) (stg0_whole t) (stg1 t) (stg1_whole t) (stg2 t) (stg2_whole t) (stg3 t) (stg3_whole t) (stg4 t) (stg4_whole t) (stg5 t) (stg5_whole t) (stg6 t) (stg6_whole t) scrS1 (Memref.isWhole_whole _) scrS2 (Memref.isWhole_whole _) scrAdj (Memref.isWhole_whole _) (cFirst t ht0) (cBuild t ht) (nEmit t (by omega)) (iblk m c 0 t) (iblk m c 1 t) (iblk m c 2 t) (iblk m c 3 t) (iblk m c 4 t) (iblk m c 5 t) ((dats m 0 c).before 6 t e6) d9 d10 (512 * t.val) (buildOff_eq t ht) y h)
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexists _; iexact H6

set_option maxHeartbeats 4000000 in
/-- Points 1–3. -/
theorem sound_build (c : Dev nD) (t : Fin cfg0.N) (ht0 : t.val ≠ 0) (ht : t.val < 4) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5]
  rw [show (dats m 0 c).owesAt () t.succ = (dats m 0 c).owesAt () t.castSucc from rfl]
  rw [show (dats m 0 c).Φ t.succ = PhiS m c (t.val + 1) from rfl, PhiS_succ, Phi_castSucc m c t]
  rw [show (dats m 0 c).leavesExact 0 t = owns (c : Thread nD τ) (stg0 t) fullShare ((dats m 0 c).after 0 t) from by
    unfold Dat.leavesExact; rw [live_0 t], after_0]
  rw [show (dats m 0 c).leavesExact 1 t = owns (c : Thread nD τ) (stg1 t) fullShare ((dats m 0 c).after 1 t) from by
    unfold Dat.leavesExact; rw [live_1 t], after_1]
  rw [show (dats m 0 c).leavesExact 2 t = owns (c : Thread nD τ) (stg2 t) fullShare ((dats m 0 c).after 2 t) from by
    unfold Dat.leavesExact; rw [live_2 t], after_2]
  rw [show (dats m 0 c).leavesExact 3 t = owns (c : Thread nD τ) (stg3 t) fullShare ((dats m 0 c).after 3 t) from by
    unfold Dat.leavesExact; rw [live_3 t], after_3]
  rw [show (dats m 0 c).leavesExact 4 t = owns (c : Thread nD τ) (stg4 t) fullShare ((dats m 0 c).after 4 t) from by
    unfold Dat.leavesExact; rw [live_4 t], after_4]
  rw [show (dats m 0 c).leavesExact 5 t = owns (c : Thread nD τ) (stg5 t) fullShare ((dats m 0 c).after 5 t) from by
    unfold Dat.leavesExact; rw [live_5 t], after_5]
  rw [(dats m 0 c).leavesExact_idle 6 t (idle_6 t ht) (noflush_6 t ht)]
  rw [PhiS_pos m c _ ht0]
  iintro ⟨⟨⟨HS0, ⟨%d9, HS1, %h9⟩, ⟨%d10, HS2, %h10⟩⟩, Hg⟩, Ho, ⟨%e0, H0⟩, ⟨%e1, H1⟩, ⟨%e2, H2⟩, ⟨%e3, H3⟩, ⟨%e4, H4⟩, ⟨%e5, H5⟩, ⟨%e6, H6⟩⟩
  iapply ((runBuild c (grid0.coords t) (stg0 t) (stg0_whole t) (stg1 t) (stg1_whole t) (stg2 t) (stg2_whole t) (stg3 t) (stg3_whole t) (stg4 t) (stg4_whole t) (stg5 t) (stg5_whole t) (stg6 t) (stg6_whole t) scrS1 (Memref.isWhole_whole _) scrS2 (Memref.isWhole_whole _) scrAdj (Memref.isWhole_whole _) (nFirst t ht0) (cBuild t ht) (nEmit t (by omega)) (iblk m c 0 t) (iblk m c 1 t) (iblk m c 2 t) (iblk m c 3 t) (iblk m c 4 t) (iblk m c 5 t) ((dats m 0 c).before 6 t e6) (kS1 m c) d9 d10).2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HS0]; · iexact HS0
  isplitl [HS1]; · iexact HS1
  isplitl [HS2]; · iexact HS2
  iintro ⟨H0, H1, H2, H3, H4, H5, H6, HS0, HS1, HS2⟩
  isplitl [HS0 HS1 HS2 Hg]
  · isplitl [HS0 HS1 HS2]
    · isplitl [HS0]; · iexact HS0
      isplitl [HS1]
      · iexists _; isplitl [HS1]
        · unfold owns; iexists _; isplitr
          swap; · iexact HS1
          ipureintro; rfl
        · ipureintro
          exact okS2_step m c t ht d9 _ h9
            (fun y p h0 h1 => build_S2_in c (grid0.coords t) (stg0 t) (stg0_whole t) (stg1 t) (stg1_whole t) (stg2 t) (stg2_whole t) (stg3 t) (stg3_whole t) (stg4 t) (stg4_whole t) (stg5 t) (stg5_whole t) (stg6 t) (stg6_whole t) scrS1 (Memref.isWhole_whole _) scrS2 (Memref.isWhole_whole _) scrAdj (Memref.isWhole_whole _) (nFirst t ht0) (cBuild t ht) (nEmit t (by omega)) (iblk m c 0 t) (iblk m c 1 t) (iblk m c 2 t) (iblk m c 3 t) (iblk m c 4 t) (iblk m c 5 t) ((dats m 0 c).before 6 t e6) (kS1 m c) d9 d10 (512 * t.val) (buildOff_eq t ht) y p h0 h1)
            (fun y h => build_S2_out c (grid0.coords t) (stg0 t) (stg0_whole t) (stg1 t) (stg1_whole t) (stg2 t) (stg2_whole t) (stg3 t) (stg3_whole t) (stg4 t) (stg4_whole t) (stg5 t) (stg5_whole t) (stg6 t) (stg6_whole t) scrS1 (Memref.isWhole_whole _) scrS2 (Memref.isWhole_whole _) scrAdj (Memref.isWhole_whole _) (nFirst t ht0) (cBuild t ht) (nEmit t (by omega)) (iblk m c 0 t) (iblk m c 1 t) (iblk m c 2 t) (iblk m c 3 t) (iblk m c 4 t) (iblk m c 5 t) ((dats m 0 c).before 6 t e6) (kS1 m c) d9 d10 (512 * t.val) (buildOff_eq t ht) y h)
      · iexists _; isplitl [HS2]
        · unfold owns; iexists _; isplitr
          swap; · iexact HS2
          ipureintro; rfl
        · ipureintro
          exact okAdj_step m c t ht d10 _ h10
            (fun y p h0 h1 => build_Adj_in c (grid0.coords t) (stg0 t) (stg0_whole t) (stg1 t) (stg1_whole t) (stg2 t) (stg2_whole t) (stg3 t) (stg3_whole t) (stg4 t) (stg4_whole t) (stg5 t) (stg5_whole t) (stg6 t) (stg6_whole t) scrS1 (Memref.isWhole_whole _) scrS2 (Memref.isWhole_whole _) scrAdj (Memref.isWhole_whole _) (nFirst t ht0) (cBuild t ht) (nEmit t (by omega)) (iblk m c 0 t) (iblk m c 1 t) (iblk m c 2 t) (iblk m c 3 t) (iblk m c 4 t) (iblk m c 5 t) ((dats m 0 c).before 6 t e6) (kS1 m c) d9 d10 (512 * t.val) (buildOff_eq t ht) y p h0 h1)
            (fun y h => build_Adj_out c (grid0.coords t) (stg0 t) (stg0_whole t) (stg1 t) (stg1_whole t) (stg2 t) (stg2_whole t) (stg3 t) (stg3_whole t) (stg4 t) (stg4_whole t) (stg5 t) (stg5_whole t) (stg6 t) (stg6_whole t) scrS1 (Memref.isWhole_whole _) scrS2 (Memref.isWhole_whole _) scrAdj (Memref.isWhole_whole _) (nFirst t ht0) (cBuild t ht) (nEmit t (by omega)) (iblk m c 0 t) (iblk m c 1 t) (iblk m c 2 t) (iblk m c 3 t) (iblk m c 4 t) (iblk m c 5 t) ((dats m 0 c).before 6 t e6) (kS1 m c) d9 d10 (512 * t.val) (buildOff_eq t ht) y h)
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexists _; iexact H6

set_option maxHeartbeats 4000000 in
/-- Points 4–7. -/
theorem sound_emit (c : Dev nD) (t : Fin cfg0.N) (ht : 4 ≤ t.val) :
    bodyPre m c t ⊢ wp frame (wpE (defs₀ (F := F)) Variants.none c none) Set.univ (bodyAt0 t) (fun _ => bodyPost m c t) := by
  have hN : t.val < 8 := lt_of_lt_of_eq t.isLt (show cfg0.N = 8 from N_0)
  have hob : 512 * (t.val - 4) + 512 ≤ 2048 := by omega
  unfold bodyPre bodyPost bodyAt0
  simp only [before_0, before_1, before_2, before_3, before_4, before_5]
  rw [show (dats m 0 c).owesAt () t.succ = (dats m 0 c).owesAt () t.castSucc from rfl]
  rw [show (dats m 0 c).Φ t.succ = PhiS m c (t.val + 1) from rfl, PhiS_succ, Phi_castSucc m c t]
  rw [show (dats m 0 c).leavesExact 0 t = owns (c : Thread nD τ) (stg0 t) fullShare ((dats m 0 c).after 0 t) from by
    unfold Dat.leavesExact; rw [live_0 t], after_0]
  rw [show (dats m 0 c).leavesExact 1 t = owns (c : Thread nD τ) (stg1 t) fullShare ((dats m 0 c).after 1 t) from by
    unfold Dat.leavesExact; rw [live_1 t], after_1]
  rw [show (dats m 0 c).leavesExact 2 t = owns (c : Thread nD τ) (stg2 t) fullShare ((dats m 0 c).after 2 t) from by
    unfold Dat.leavesExact; rw [live_2 t], after_2]
  rw [show (dats m 0 c).leavesExact 3 t = owns (c : Thread nD τ) (stg3 t) fullShare ((dats m 0 c).after 3 t) from by
    unfold Dat.leavesExact; rw [live_3 t], after_3]
  rw [show (dats m 0 c).leavesExact 4 t = owns (c : Thread nD τ) (stg4 t) fullShare ((dats m 0 c).after 4 t) from by
    unfold Dat.leavesExact; rw [live_4 t], after_4]
  rw [show (dats m 0 c).leavesExact 5 t = owns (c : Thread nD τ) (stg5 t) fullShare ((dats m 0 c).after 5 t) from by
    unfold Dat.leavesExact; rw [live_5 t], after_5]
  rw [show (dats m 0 c).leavesExact 6 t = owns (c : Thread nD τ) (stg6 t) fullShare ((dats m 0 c).after 6 t) from by
    unfold Dat.leavesExact; rw [live_6 t ht]]
  rw [PhiS_pos m c _ (by omega)]
  iintro ⟨⟨⟨HS0, ⟨%d9, HS1, %h9⟩, ⟨%d10, HS2, %h10⟩⟩, Hg⟩, Ho, ⟨%e0, H0⟩, ⟨%e1, H1⟩, ⟨%e2, H2⟩, ⟨%e3, H3⟩, ⟨%e4, H4⟩, ⟨%e5, H5⟩, ⟨%e6, H6⟩⟩
  obtain rfl := okS2_full m c t.val ht d9 h9
  obtain rfl := okAdj_full m c t.val ht d10 h10
  iapply ((runEmit c (grid0.coords t) (stg0 t) (stg0_whole t) (stg1 t) (stg1_whole t) (stg2 t) (stg2_whole t) (stg3 t) (stg3_whole t) (stg4 t) (stg4_whole t) (stg5 t) (stg5_whole t) (stg6 t) (stg6_whole t) scrS1 (Memref.isWhole_whole _) scrS2 (Memref.isWhole_whole _) scrAdj (Memref.isWhole_whole _) (nFirst t (by omega)) (nBuild t (by omega)) (cEmit t ht) (iblk m c 0 t) (iblk m c 1 t) (iblk m c 2 t) (iblk m c 3 t) (iblk m c 4 t) (iblk m c 5 t) (kS1 m c) (kS2 m c) (opAdj m c)).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [HS0]; · iexact HS0
  isplitl [HS1]; · iexact HS1
  isplitl [HS2]; · iexact HS2
  iintro ⟨H0, H1, H2, H3, H4, H5, ⟨%f7, H6⟩, HS0, HS1, HS2⟩
  isplitl [HS0 HS1 HS2 Hg]
  · isplitl [HS0 HS1 HS2]
    · isplitl [HS0]; · iexact HS0
      isplitl [HS1]
      · iexists _; isplitl [HS1]
        · iexact HS1
        · ipureintro; exact fun y _ => rfl
      · iexists _; isplitl [HS2]
        · iexact HS2
        · ipureintro; exact fun y _ => rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  unfold owns; iexists _; isplitr
  swap; · iexact H6
  ipureintro
  exact emit_block m c t ht hob _ (fun y j q h0 h1 =>
    emit_out c (grid0.coords t) (stg0 t) (stg0_whole t) (stg1 t) (stg1_whole t) (stg2 t) (stg2_whole t) (stg3 t) (stg3_whole t) (stg4 t) (stg4_whole t) (stg5 t) (stg5_whole t) (stg6 t) (stg6_whole t) scrS1 (Memref.isWhole_whole _) scrS2 (Memref.isWhole_whole _) scrAdj (Memref.isWhole_whole _) (nFirst t (by omega)) (nBuild t (by omega)) (cEmit t ht) (iblk m c 0 t) (iblk m c 1 t) (iblk m c 2 t) (iblk m c 3 t) (iblk m c 4 t) (iblk m c 5 t) (kS1 m c) (kS2 m c) (opAdj m c) (512 * (t.val - 4)) (emitOff_eq t ht) hob f7 y j q h0 h1)

/-- The body at any point. -/
theorem sound_body (c : Dev nD) (t : Fin cfg0.N) :
    bodyPre m c t ⊢ wp frame (wpE (defs₀ (F := F)) Variants.none c none) Set.univ (bodyAt0 t) (fun _ => bodyPost m c t) := by
  by_cases h0 : t.val = 0
  · exact sound_first m c t h0
  · by_cases h1 : t.val < 4
    · exact sound_build m c t h0 h1
    · exact sound_emit m c t (by omega)

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 from rfl, PhiS_zero m c 0 rfl]
  try exact Idealize.SL.BI.Entails.refl _

/-- After the last point the invariant gives it back, the scratch buffers' contents forgotten. -/
theorem hout (c : Dev nD) : (dats m 0 c).Φ (Fin.last cfg0.N) ⊢ Pipeline.ΦA spec0 c := by
  rw [show (dats m 0 c).Φ (Fin.last cfg0.N) = PhiS m c (Fin.last cfg0.N).val from rfl,
    PhiS_pos m c _ (by rw [Fin.val_last]; have : cfg0.N = 8 := N_0; omega), classInv_eq]
  iintro ⟨⟨HS0, ⟨%d9, HS1, -⟩, ⟨%d10, HS2, -⟩⟩, Hg⟩
  isplitl [HS0 HS1 HS2]
  · isplitl [HS0]
    · iexists _; iexact HS0
    isplitl [HS1]
    · iexists _; iexact HS1
    iexists _; iexact HS2
  iexact Hg

/-! ## The run -/

set_option backward.isDefEq.respectTransparency.types false in
/-- Every weakly fair execution of @main terminates, with every array of the pipeline at what the library computes from
    the proof data and every other unscoped buffer as the region found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame: every weakly fair execution terminates, nothing faults, and the six argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

end Cert.Kernel.Body

end
-- ==== Proof.KIShared.lean ====
import proofs.«102864_g35416300322820_cont_8to1_b_1386_18_alg».proof.Proof.Gen.KernelIdeal.Frame
import proofs.«102864_g35416300322820_cont_8to1_b_1386_18_alg».proof.Proof.Gen.KernelIdeal.Skeleton
import Idealize.ShloMosaic.Lib.Pipeline.FrameBody
import Idealize.ShloMosaic.Lib.Ring
import Idealize.ShloMosaic.Lib.Tactic

/-!
# The grid's three kinds of point, and what the body is called with

The body branches three times on the grid coordinate `t` alone: `t = 0` (form the first product), `t < 4` (bank a row
block of `adj` and form a row block of the intermediate), `4 ≤ t` (form a row block of the result). Over the eight
points that leaves three combinations: point 0 takes the first two branches, points 1–3 the second only, points 4–7 the
third only. Here the three conditions are decided over the grid once, in closed form; the result's window is shown to be
idle exactly at the points before 4 and written back exactly from point 4 on; and the staging memrefs and the three
scratch buffers the body is called with get names.
-/

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]

local notation "𝕄" => MT nD τ sig Unit (Elt F) ℕ (UR sig nD τ) ℕ

/-- The first branch's condition: the coordinate is zero. -/
abbrev isFirst (i : grid0.Coords) : Prop :=
  (Scalar.cmpi .ne (Scalar.extui (Scalar.cmpi .eq (BitVec.ofNat 32 (i 0).val) 0#32)) 0#32) = 1#1
theorem isFirst_iff : ∀ t : Fin cfg0.N, isFirst (grid0.coords t) ↔ t.val = 0 :=
  (by decide +kernel : ∀ t : Fin grid0.N, isFirst (grid0.coords t) ↔ t.val = 0)

/-- The second branch's condition: the coordinate is below four. -/
abbrev isBuild (i : grid0.Coords) : Prop := k0_cond2 i = 1#1
theorem isBuild_iff : ∀ t : Fin cfg0.N, isBuild (grid0.coords t) ↔ t.val < 4 :=
  (by decide +kernel : ∀ t : Fin grid0.N, isBuild (grid0.coords t) ↔ t.val < 4)

/-- The third branch's condition: the coordinate is at least four. -/
abbrev isEmit (i : grid0.Coords) : Prop := k0_cond3 i = 1#1
theorem isEmit_iff : ∀ t : Fin cfg0.N, isEmit (grid0.coords t) ↔ 4 ≤ t.val :=
  (by decide +kernel : ∀ t : Fin grid0.N, isEmit (grid0.coords t) ↔ 4 ≤ t.val)

/-- The row offset the second branch stores at: `512 t`. -/
theorem buildOff_eq : ∀ t : Fin cfg0.N, t.val < 4 → k0_off1 (grid0.coords t) = ![512 * t.val, 0] :=
  (by decide +kernel : ∀ t : Fin grid0.N, t.val < 4 → k0_off1 (grid0.coords t) = ![512 * t.val, 0])

/-- The row offset the third branch loads from: `512 (t - 4)`. -/
theorem emitOff_eq : ∀ t : Fin cfg0.N, 4 ≤ t.val → k0_off2 (grid0.coords t) = ![512 * (t.val - 4), 0] :=
  (by decide +kernel : ∀ t : Fin grid0.N, 4 ≤ t.val → k0_off2 (grid0.coords t) = ![512 * (t.val - 4), 0])

/-- The six input windows are never idle; -/
theorem live_0 : ∀ t : Fin cfg0.N, cfg0.idle 0 (grid0.coords t) = false := by decide +kernel
theorem live_1 : ∀ t : Fin cfg0.N, cfg0.idle 1 (grid0.coords t) = false := by decide +kernel
theorem live_2 : ∀ t : Fin cfg0.N, cfg0.idle 2 (grid0.coords t) = false := by decide +kernel
theorem live_3 : ∀ t : Fin cfg0.N, cfg0.idle 3 (grid0.coords t) = false := by decide +kernel
theorem live_4 : ∀ t : Fin cfg0.N, cfg0.idle 4 (grid0.coords t) = false := by decide +kernel
theorem live_5 : ∀ t : Fin cfg0.N, cfg0.idle 5 (grid0.coords t) = false := by decide +kernel
/-- the result's window is idle at the points before 4 and live from 4 on, -/
theorem idle_6 : ∀ t : Fin cfg0.N, t.val < 4 → cfg0.idle 6 (grid0.coords t) = true := by decide +kernel
theorem live_6 : ∀ t : Fin cfg0.N, 4 ≤ t.val → cfg0.idle 6 (grid0.coords t) = false := by decide +kernel
/-- and is written back exactly from point 4 on (its block index moves after each of those points, or the grid ends). -/
theorem flush_6 : ∀ t : Fin cfg0.N, (cfg0.win 6).flush t = true ↔ 4 ≤ t.val :=
  (by decide +kernel : ∀ t : Fin grid0.N, win0_6.flush t = true ↔ 4 ≤ t.val)
theorem noflush_6 : ∀ t : Fin cfg0.N, t.val < 4 → (cfg0.win 6).flush t = false := by decide +kernel
/-- The result's window is not one whose blocks overhang the array. -/
theorem tight_6 : cfg0.loose 6 = false := by decide

/-- Each window's current staging memref at point `t`, as the pipeline passes it, and that it is a whole buffer. -/
abbrev stg0 (t : Fin cfg0.N) : Memref sig .tc .vmem S2048x256 .f32 := win0_0.stage (cfg0.slots t 0)
abbrev stg0_whole (t : Fin cfg0.N) : (stg0 t).IsWhole := hstage0_0 ((cfg0.slots t 0).cast nbuf0_0)
abbrev stg1 (t : Fin cfg0.N) : Memref sig .tc .vmem S512x2048 .f32 := win0_1.stage (cfg0.slots t 1)
abbrev stg1_whole (t : Fin cfg0.N) : (stg1 t).IsWhole := hstage0_1 ((cfg0.slots t 1).cast nbuf0_1)
abbrev stg2 (t : Fin cfg0.N) : Memref sig .tc .vmem S256x128 .f32 := win0_2.stage (cfg0.slots t 2)
abbrev stg2_whole (t : Fin cfg0.N) : (stg2 t).IsWhole := hstage0_2 ((cfg0.slots t 2).cast nbuf0_2)
abbrev stg3 (t : Fin cfg0.N) : Memref sig .tc .vmem S1x128 .f32 := win0_3.stage (cfg0.slots t 3)
abbrev stg3_whole (t : Fin cfg0.N) : (stg3 t).IsWhole := hstage0_3 ((cfg0.slots t 3).cast nbuf0_3)
abbrev stg4 (t : Fin cfg0.N) : Memref sig .tc .vmem S128x2048 .f32 := win0_4.stage (cfg0.slots t 4)
abbrev stg4_whole (t : Fin cfg0.N) : (stg4 t).IsWhole := hstage0_4 ((cfg0.slots t 4).cast nbuf0_4)
abbrev stg5 (t : Fin cfg0.N) : Memref sig .tc .vmem S1x2048 .f32 := win0_5.stage (cfg0.slots t 5)
abbrev stg5_whole (t : Fin cfg0.N) : (stg5 t).IsWhole := hstage0_5 ((cfg0.slots t 5).cast nbuf0_5)
abbrev stg6 (t : Fin cfg0.N) : Memref sig .tc .vmem S512x2048 .f32 := win0_6.stage (cfg0.slots t 6)
abbrev stg6_whole (t : Fin cfg0.N) : (stg6 t).IsWhole := hstage0_6 ((cfg0.slots t 6).cast nbuf0_6)

/-- The three scratch buffers: the first product, the intermediate, the banked copy of `adj`. -/
abbrev scrS1 : Memref sig .tc .vmem S2048x128 .f32 := Memref.whole cc0_scratch0
abbrev scrS2 : Memref sig .tc .vmem S2048x2048 .f32 := Memref.whole cc0_scratch1
abbrev scrAdj : Memref sig .tc .vmem S2048x2048 .f32 := Memref.whole cc0_scratch2

/-- What the launch hands the region beside the windows: the three scratch buffers at some contents and the generator's
    register at some state. -/
theorem classInv_eq (c : Dev nD) :
    (Pipeline.ΦA spec0 c : sProp 𝕄)
      = iprop(iprop((∃ d, owns (c : Thread nD τ) scrS1 fullShare d) ∗ (∃ d, owns (c : Thread nD τ) scrS2 fullShare d) ∗ (∃ d, owns (c : Thread nD τ) scrAdj fullShare d)) ∗ (∃ r, prngReg c r)) := by
  unfold Pipeline.ΦA; rw [scopedRest0_eq]; simp only [scrS1, scrS2, scrAdj, owns_whole]; try rfl

end Cert.KernelIdeal.Body

end
-- ==== Proof.KIRunA.lean ====
import proofs.«102864_g35416300322820_cont_8to1_b_1386_18_alg».proof.Proof.KIShared

/-!
# Point 0: the first product, then the first row block

At the first point the body takes the first two branches. It loads `x` and `W1` whole and stores their product over the
whole of the first scratch buffer; then it loads its 512-row block of `adj`, stores a copy of it over rows `0 … 511` of
the bank, loads the product back, and stores `max (block · product + b1, 0) · W2` over rows `0 … 511` of the
intermediate. The result's staging buffer is not touched. The statement below says exactly that, with the three lists
of stores the symbolic run finds as its data.
-/

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]

local notation "𝕄" => MT nD τ sig Unit (Elt F) ℕ (UR sig nD τ) ℕ

set_option maxHeartbeats 1000000 in
/-- The body at a point of the first kind, on whole memrefs: the six inputs at `x0 … x5`, the result's buffer at `x7`,
    the first scratch at anything, the other two at `x9`, `x10`. It hands back the inputs and the result's buffer as
    they were, and each scratch with the listed stores written over what it held. -/
noncomputable def runFirst (c : Dev nD) (i : grid0.Coords) (arg1 : Memref sig .tc .vmem S2048x256 .f32) (harg1 : arg1.IsWhole) (arg2 : Memref sig .tc .vmem S512x2048 .f32) (harg2 : arg2.IsWhole) (arg3 : Memref sig .tc .vmem S256x128 .f32) (harg3 : arg3.IsWhole) (arg4 : Memref sig .tc .vmem S1x128 .f32) (harg4 : arg4.IsWhole) (arg5 : Memref sig .tc .vmem S128x2048 .f32) (harg5 : arg5.IsWhole) (arg6 : Memref sig .tc .vmem S1x2048 .f32) (harg6 : arg6.IsWhole) (arg7 : Memref sig .tc .vmem S512x2048 .f32) (harg7 : arg7.IsWhole) (arg8 : Memref sig .tc .vmem S2048x128 .f32) (harg8 : arg8.IsWhole) (arg9 : Memref sig .tc .vmem S2048x2048 .f32) (harg9 : arg9.IsWhole) (arg10 : Memref sig .tc .vmem S2048x2048 .f32) (harg10 : arg10.IsWhole) (hc0 : isFirst i) (hc1 : isBuild i) (hc2 : ¬isEmit i)
    (x0 : Vec F S2048x256 .f32) (x1 : Vec F S512x2048 .f32) (x2 : Vec F S256x128 .f32) (x3 : Vec F S1x128 .f32) (x4 : Vec F S128x2048 .f32) (x5 : Vec F S1x2048 .f32) (x7 : Vec F S512x2048 .f32) (x9 x10 : Vec F S2048x2048 .f32) :
    (L8 : List (View.Piece (Elt F) S2048x128 .f32)) ×' (L9 : List (View.Piece (Elt F) S2048x2048 .f32)) ×'
    { L10 : List (View.Piece (Elt F) S2048x2048 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x7 ∗ (∃ d, owns (c : Thread nD τ) arg8 fullShare d) ∗ owns (c : Thread nD τ) arg9 fullShare x9 ∗ owns (c : Thread nD τ) arg10 fullShare x10
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x7 ∗ (∃ f, arg8.view.loc (c : Thread nD τ) ↦[arg8.view.set]{fullShare} arg8.view.writes (Elt F) f L8) ∗ (arg9.view.loc (c : Thread nD τ) ↦[arg9.view.set]{fullShare} arg9.view.writes (Elt F) (harg9.unread x9) L9) ∗ (arg10.view.loc (c : Thread nD τ) ↦[arg10.view.set]{fullShare} arg10.view.writes (Elt F) (harg10.unread x10) L10)) -∗ K ⟨⟩))
          ⊢ wp frame (wpE (defs₀ (F := F)) Variants.none c none) E (cc0__gcn_body i arg1 harg1 arg2 harg2 arg3 harg3 arg4 harg4 arg5 harg5 arg6 harg6 arg7 harg7 arg8 harg8 arg9 harg9 arg10 harg10) K } := by
  refine ⟨?_, ?_, ?_, fun E K => ?run⟩
  case run =>
    simp only [cc0__gcn_body_eq_skeleton]; unfold cc0__gcn_body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, ⟨%fs1, %hfs1, HS1⟩, ⟨%fs2, %hfs2, HS2⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg9.eq_unread hfs1; obtain rfl := harg10.eq_unread hfs2
    sl_exec (disch := first | exact hc0 | exact hc1 | exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [HS0]; · iexists _; iexact HS0
    isplitl [HS1]; · iexact HS1
    iexact HS2

end Cert.KernelIdeal.Body

end
-- ==== Proof.KIRunB.lean ====
import proofs.«102864_g35416300322820_cont_8to1_b_1386_18_alg».proof.Proof.KIRunA

/-!
# Points 1–3: one more row block

At these points the body takes the second branch only: it loads its 512-row block of `adj`, stores a copy of it over
rows `512 t … 512 t + 511` of the bank, loads the first product from its scratch buffer, and stores
`max (block · product + b1, 0) · W2` over the same rows of the intermediate. The first scratch and the result's staging
buffer are not written.
-/

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]

local notation "𝕄" => MT nD τ sig Unit (Elt F) ℕ (UR sig nD τ) ℕ

set_option maxHeartbeats 1000000 in
/-- The body at a point of the second kind, on whole memrefs: inputs at `x0 … x5`, the result's buffer at `x7`, the
    three scratch buffers at `x8`, `x9`, `x10`. It hands back everything as it was except the last two, which carry
    the listed stores over what they held. -/
noncomputable def runBuild (c : Dev nD) (i : grid0.Coords) (arg1 : Memref sig .tc .vmem S2048x256 .f32) (harg1 : arg1.IsWhole) (arg2 : Memref sig .tc .vmem S512x2048 .f32) (harg2 : arg2.IsWhole) (arg3 : Memref sig .tc .vmem S256x128 .f32) (harg3 : arg3.IsWhole) (arg4 : Memref sig .tc .vmem S1x128 .f32) (harg4 : arg4.IsWhole) (arg5 : Memref sig .tc .vmem S128x2048 .f32) (harg5 : arg5.IsWhole) (arg6 : Memref sig .tc .vmem S1x2048 .f32) (harg6 : arg6.IsWhole) (arg7 : Memref sig .tc .vmem S512x2048 .f32) (harg7 : arg7.IsWhole) (arg8 : Memref sig .tc .vmem S2048x128 .f32) (harg8 : arg8.IsWhole) (arg9 : Memref sig .tc .vmem S2048x2048 .f32) (harg9 : arg9.IsWhole) (arg10 : Memref sig .tc .vmem S2048x2048 .f32) (harg10 : arg10.IsWhole) (hc0 : ¬isFirst i) (hc1 : isBuild i) (hc2 : ¬isEmit i)
    (x0 : Vec F S2048x256 .f32) (x1 : Vec F S512x2048 .f32) (x2 : Vec F S256x128 .f32) (x3 : Vec F S1x128 .f32) (x4 : Vec F S128x2048 .f32) (x5 : Vec F S1x2048 .f32) (x7 : Vec F S512x2048 .f32) (x8 : Vec F S2048x128 .f32) (x9 x10 : Vec F S2048x2048 .f32) :
    (L9 : List (View.Piece (Elt F) S2048x2048 .f32)) ×'
    { L10 : List (View.Piece (Elt F) S2048x2048 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x7 ∗ owns (c : Thread nD τ) arg8 fullShare x8 ∗ owns (c : Thread nD τ) arg9 fullShare x9 ∗ owns (c : Thread nD τ) arg10 fullShare x10
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x7 ∗ owns (c : Thread nD τ) arg8 fullShare x8 ∗ (arg9.view.loc (c : Thread nD τ) ↦[arg9.view.set]{fullShare} arg9.view.writes (Elt F) (harg9.unread x9) L9) ∗ (arg10.view.loc (c : Thread nD τ) ↦[arg10.view.set]{fullShare} arg10.view.writes (Elt F) (harg10.unread x10) L10)) -∗ K ⟨⟩))
          ⊢ wp frame (wpE (defs₀ (F := F)) Variants.none c none) E (cc0__gcn_body i arg1 harg1 arg2 harg2 arg3 harg3 arg4 harg4 arg5 harg5 arg6 harg6 arg7 harg7 arg8 harg8 arg9 harg9 arg10 harg10) K } := by
  refine ⟨?_, ?_, fun E K => ?run⟩
  case run =>
    simp only [cc0__gcn_body_eq_skeleton]; unfold cc0__gcn_body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, ⟨%fs1, %hfs1, HS1⟩, ⟨%fs2, %hfs2, HS2⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hfs0; obtain rfl := harg9.eq_unread hfs1; obtain rfl := harg10.eq_unread hfs2
    sl_exec (disch := first | exact hc0 | exact hc1 | exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [HS0]
    · iexists _; isplitr; · ipureintro; exact harg8.read_unread _
      iexact HS0
    isplitl [HS1]; · iexact HS1
    iexact HS2

end Cert.KernelIdeal.Body

end
-- ==== Proof.KIRunC.lean ====
import proofs.«102864_g35416300322820_cont_8to1_b_1386_18_alg».proof.Proof.KIRunB

/-!
# Points 4–7: one row block of the result

At these points the body takes the third branch only: it loads rows `512 (t - 4) … 512 (t - 4) + 511` of the banked
`adj`, and for each of the four slabs of 512 columns loads that slab of the intermediate and the matching 512 lanes of
the second bias row, and stores `logistic (rows · slab + lanes)` over the matching 512 × 512 tile of the result's
staging buffer. The four tiles cover the buffer; the three scratch buffers are only read.
-/

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]

local notation "𝕄" => MT nD τ sig Unit (Elt F) ℕ (UR sig nD τ) ℕ

set_option maxHeartbeats 1000000 in
/-- The body at a point of the third kind, on whole memrefs: inputs at `x0 … x5`, the result's buffer at anything, the
    three scratch buffers at `x8`, `x9`, `x10`. It hands back everything as it was except the result's buffer, which
    carries the listed stores. -/
noncomputable def runEmit (c : Dev nD) (i : grid0.Coords) (arg1 : Memref sig .tc .vmem S2048x256 .f32) (harg1 : arg1.IsWhole) (arg2 : Memref sig .tc .vmem S512x2048 .f32) (harg2 : arg2.IsWhole) (arg3 : Memref sig .tc .vmem S256x128 .f32) (harg3 : arg3.IsWhole) (arg4 : Memref sig .tc .vmem S1x128 .f32) (harg4 : arg4.IsWhole) (arg5 : Memref sig .tc .vmem S128x2048 .f32) (harg5 : arg5.IsWhole) (arg6 : Memref sig .tc .vmem S1x2048 .f32) (harg6 : arg6.IsWhole) (arg7 : Memref sig .tc .vmem S512x2048 .f32) (harg7 : arg7.IsWhole) (arg8 : Memref sig .tc .vmem S2048x128 .f32) (harg8 : arg8.IsWhole) (arg9 : Memref sig .tc .vmem S2048x2048 .f32) (harg9 : arg9.IsWhole) (arg10 : Memref sig .tc .vmem S2048x2048 .f32) (harg10 : arg10.IsWhole) (hc0 : ¬isFirst i) (hc1 : ¬isBuild i) (hc2 : isEmit i)
    (x0 : Vec F S2048x256 .f32) (x1 : Vec F S512x2048 .f32) (x2 : Vec F S256x128 .f32) (x3 : Vec F S1x128 .f32) (x4 : Vec F S128x2048 .f32) (x5 : Vec F S1x2048 .f32) (x8 : Vec F S2048x128 .f32) (x9 x10 : Vec F S2048x2048 .f32) :
    { L7 : List (View.Piece (Elt F) S512x2048 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare x8 ∗ owns (c : Thread nD τ) arg9 fullShare x9 ∗ owns (c : Thread nD τ) arg10 fullShare x10
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L7) ∗ owns (c : Thread nD τ) arg8 fullShare x8 ∗ owns (c : Thread nD τ) arg9 fullShare x9 ∗ owns (c : Thread nD τ) arg10 fullShare x10) -∗ K ⟨⟩))
          ⊢ wp frame (wpE (defs₀ (F := F)) Variants.none c none) E (cc0__gcn_body i arg1 harg1 arg2 harg2 arg3 harg3 arg4 harg4 arg5 harg5 arg6 harg6 arg7 harg7 arg8 harg8 arg9 harg9 arg10 harg10) K } := by
  refine ⟨?_, fun E K => ?run⟩
  case run =>
    simp only [cc0__gcn_body_eq_skeleton]; unfold cc0__gcn_body_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, ⟨%fs1, %hfs1, HS1⟩, ⟨%fs2, %hfs2, HS2⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg8.eq_unread hfs0; obtain rfl := harg9.eq_unread hfs1; obtain rfl := harg10.eq_unread hfs2
    sl_exec (disch := first | exact hc0 | exact hc1 | exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [HS0]
    · iexists _; isplitr; · ipureintro; exact harg8.read_unread _
      iexact HS0
    isplitl [HS1]
    · iexists _; isplitr; · ipureintro; exact harg9.read_unread _
      iexact HS1
    iexists _; isplitr; · ipureintro; exact harg10.read_unread _
    iexact HS2

end Cert.KernelIdeal.Body

end
-- ==== Proof.KSpec.lean ====
import proofs.«102864_g35416300322820_cont_8to1_b_1386_18_alg».proof.Proof.Gen.KernelIdeal.Skeleton
import Idealize.ShloMosaic.Lib.ValueIdx

/-!
# The kernel's result as one function of its six operands

The kernel walks eight grid points. At the first it forms the product `x · W1` (2048 × 128) once. At each of the
first four it takes one block of 512 rows of `adj`, multiplies it by that product, adds the bias row, clamps at
zero and multiplies by `W2`: 512 rows of a 2048 × 2048 intermediate. At each of the last four it multiplies one
block of 512 rows of `adj` by each of the four slabs of 512 columns of the finished intermediate, adds the matching
512 lanes of the second bias row and applies the logistic function: four 512 × 512 tiles of the result.

Here that is written down as a function of whole arrays, over the body's own arithmetic (the generated payloads
`k0_pay1`, `k0_pay3`, `k0_pay5`), at any float instance: row `r` of the intermediate comes from the block
`r / 512` at row `r % 512`; entry `(r, j)` of the result from the tile `(r / 512, j / 512)` at `(r % 512, j % 512)`.
-/

noncomputable section

namespace Cert.KernelIdeal.KSpec

open Idealize.ShloMosaic Cert.KernelIdeal Cert.KernelIdeal.Gen
open Idealize.ShloMosaic.ValueIdx

variable {F : FTy → Type} [FloatOps F]

/-- Rows `512 b … 512 b + 511` of a 2048 × 2048 matrix. -/
def rowBlock (A : Vec F S2048x2048 .f32) (b : Fin 4) : Vec F S512x2048 .f32 :=
  fun y => A (ix2 (n0 := 2048) (n1 := 2048)
    ⟨512 * b.val + (y 0).val, by have h : (y 0).val < 512 := (y 0).isLt; have := b.isLt; omega⟩
    ⟨(y 1).val, (y 1).isLt⟩)

/-- Columns `512 j … 512 j + 511` of a 2048 × 2048 matrix. -/
def colSlab (S : Vec F S2048x2048 .f32) (j : Fin 4) : Vec F S2048x512 .f32 :=
  fun y => S (ix2 (n0 := 2048) (n1 := 2048)
    ⟨(y 0).val, (y 0).isLt⟩
    ⟨512 * j.val + (y 1).val, by have h : (y 1).val < 512 := (y 1).isLt; have := j.isLt; omega⟩)

/-- Lanes `512 j … 512 j + 511` of a row of 2048. -/
def laneSlab (v : Vec F S1x2048 .f32) (j : Fin 4) : Vec F S1x512 .f32 :=
  fun y => v (ix2 (n0 := 1) (n1 := 2048)
    ⟨(y 0).val, (y 0).isLt⟩
    ⟨512 * j.val + (y 1).val, by have h : (y 1).val < 512 := (y 1).isLt; have := j.isLt; omega⟩)

/-- The first product, `x · W1`. -/
def support1 (x : Vec F S2048x256 .f32) (w1 : Vec F S256x128 .f32) : Vec F S2048x128 .f32 := k0_pay1 x w1

/-- Block `b` of 512 rows of the intermediate: `max (adj_b · (x · W1) + b1, 0) · W2`. -/
def support2Block (x : Vec F S2048x256 .f32) (A : Vec F S2048x2048 .f32) (w1 : Vec F S256x128 .f32)
    (b1r : Vec F S1x128 .f32) (w2 : Vec F S128x2048 .f32) (b : Fin 4) : Vec F S512x2048 .f32 :=
  k0_pay3 (rowBlock A b) (support1 x w1) b1r w2

/-- The whole intermediate, row `r` read from block `r / 512` at row `r % 512`. -/
def support2 (x : Vec F S2048x256 .f32) (A : Vec F S2048x2048 .f32) (w1 : Vec F S256x128 .f32)
    (b1r : Vec F S1x128 .f32) (w2 : Vec F S128x2048 .f32) : Vec F S2048x2048 .f32 :=
  fun y => support2Block x A w1 b1r w2
    ⟨(y 0).val / 512, by have h : (y 0).val < 2048 := (y 0).isLt; omega⟩
    (ix2 (n0 := 512) (n1 := 2048) ⟨(y 0).val % 512, Nat.mod_lt _ (by decide)⟩ ⟨(y 1).val, (y 1).isLt⟩)

/-- Tile `(b, j)` of the result: `logistic (adj_b · S2[:, slab j] + b2[slab j])`. -/
def outTile (x : Vec F S2048x256 .f32) (A : Vec F S2048x2048 .f32) (w1 : Vec F S256x128 .f32)
    (b1r : Vec F S1x128 .f32) (w2 : Vec F S128x2048 .f32) (b2r : Vec F S1x2048 .f32) (b j : Fin 4) :
    Vec F S512x512 .f32 :=
  k0_pay5 (rowBlock A b) (colSlab (support2 x A w1 b1r w2) j) (laneSlab b2r j)

/-- The whole result, entry `(r, j)` read from tile `(r / 512, j / 512)` at `(r % 512, j % 512)`. -/
def out (x : Vec F S2048x256 .f32) (A : Vec F S2048x2048 .f32) (w1 : Vec F S256x128 .f32)
    (b1r : Vec F S1x128 .f32) (w2 : Vec F S128x2048 .f32) (b2r : Vec F S1x2048 .f32) : Vec F S2048x2048 .f32 :=
  fun y => outTile x A w1 b1r w2 b2r
    ⟨(y 0).val / 512, by have h : (y 0).val < 2048 := (y 0).isLt; omega⟩
    ⟨(y 1).val / 512, by have h : (y 1).val < 2048 := (y 1).isLt; omega⟩
    (ix2 (n0 := 512) (n1 := 512) ⟨(y 0).val % 512, Nat.mod_lt _ (by decide)⟩ ⟨(y 1).val % 512, Nat.mod_lt _ (by decide)⟩)

/-- The last tile's store passes its zero accumulator in from outside; it is the same arithmetic. -/
theorem pay4_eq (v13 : Vec F S512x2048 .f32) (v38 : Vec F S2048x512 .f32) (v40 : Vec F S1x512 .f32) :
    k0_pay4 v13 v38 (constant S512x512 .f32 0x00000000#32) v40 = k0_pay5 v13 v38 v40 := rfl

theorem pay6_eq (v13 : Vec F S512x2048 .f32) (v38 : Vec F S2048x512 .f32) (v40 : Vec F S1x512 .f32) :
    k0_pay6 v13 v38 v40 = k0_pay5 v13 v38 v40 := rfl

theorem pay7_eq (v13 : Vec F S512x2048 .f32) (v38 : Vec F S2048x512 .f32) (v40 : Vec F S1x512 .f32) :
    k0_pay7 v13 v38 v40 = k0_pay5 v13 v38 v40 := rfl

end Cert.KernelIdeal.KSpec

end
-- ==== Proof.KIPieces.lean ====
import proofs.«102864_g35416300322820_cont_8to1_b_1386_18_alg».proof.Proof.KIRunC
import proofs.«102864_g35416300322820_cont_8to1_b_1386_18_alg».proof.Proof.KSpec
import Idealize.ShloMosaic.Lib.Pipeline.Value
import Idealize.ShloMosaic.Lib.WritesUnit

/-!
# What the stores leave, read back as values

Each run hands back a scratch buffer (or the result's staging buffer) with a short list of stores written over what it
held. Here each list is read at an index. A store of 512 whole rows at row offset `o` gives, at a row inside
`o … o + 511`, the stored value at the row's position in the block, and at any other row what the buffer held before.
The one store over the whole first scratch gives the stored product everywhere. The four 512 × 512 tiles of the result's
buffer are kept apart by their column ranges, so an index in columns `512 j … 512 j + 511` reads tile `j`.
The loads the stored values are computed from read whole buffers, a block of rows, a slab of columns or a run of lanes.
-/

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen Cert.KernelIdeal.KSpec
open Idealize.ShloMosaic.ValueIdx

variable {F : FTy → Type} [FloatOps F]

theorem hz2 : (![0, 0] : Fin 2 → Nat) = fun _ => 0 := funext fun a => by fin_cases a <;> rfl

/-! ## Loads of parts of a buffer -/

/-- Rows `o … o + 511` of a 2048 × 2048 buffer. -/
def rowsAt (X : Vec F S2048x2048 .f32) (o : ℕ) (ho : o + 512 ≤ 2048) : Vec F S512x2048 .f32 :=
  fun p => X (ix2 (n0 := 2048) (n1 := 2048) ⟨o + (p 0).val, by have h : (p 0).val < 512 := (p 0).isLt; omega⟩ ⟨(p 1).val, (p 1).isLt⟩)

theorem rowsAt_block (X : Vec F S2048x2048 .f32) (b : Fin 4) (ho : 512 * b.val + 512 ≤ 2048) :
    rowsAt X (512 * b.val) ho = rowBlock X b := rfl

/-- A load of 512 whole rows at row offset `o` reads those rows. -/
theorem ld_rows (X : Vec F S2048x2048 .f32) (off : Fin 2 → ℕ) (inb : ∀ a, off a + S512x2048.size a ≤ S2048x2048.size a)
    (o : ℕ) (hoff : off = ![o, 0]) (ho : o + 512 ≤ 2048) :
    View.ld X (Rect.unit (s := S2048x2048) off S512x2048.size inb) = rowsAt X o ho := by
  subst hoff
  funext p
  show X _ = X _
  congr 1
  funext a
  apply Fin.ext
  match a with
  | ⟨0, _⟩ => show o + 1 * (p 0).val = o + (p 0).val; omega
  | ⟨1, _⟩ => show 0 + 1 * (p 1).val = (p 1).val; omega

/-- A load of 512 whole columns at column offset `512 j` reads that slab. -/
theorem ld_cols (X : Vec F S2048x2048 .f32) (j : Fin 4) (off : Fin 2 → ℕ)
    (inb : ∀ a, off a + S2048x512.size a ≤ S2048x2048.size a) (hoff : off = ![0, 512 * j.val]) :
    View.ld X (Rect.unit (s := S2048x2048) off S2048x512.size inb) = colSlab X j := by
  subst hoff
  funext p
  show X _ = X _
  congr 1
  funext a
  apply Fin.ext
  match a with
  | ⟨0, _⟩ => show 0 + 1 * (p 0).val = (p 0).val; omega
  | ⟨1, _⟩ => show 512 * j.val + 1 * (p 1).val = 512 * j.val + (p 1).val; omega

/-- A load of 512 lanes at lane offset `512 j` of a row of 2048 reads those lanes. -/
theorem ld_lanes (X : Vec F S1x2048 .f32) (j : Fin 4) (off : Fin 2 → ℕ)
    (inb : ∀ a, off a + S1x512.size a ≤ S1x2048.size a) (hoff : off = ![0, 512 * j.val]) :
    View.ld X (Rect.unit (s := S1x2048) off S1x512.size inb) = laneSlab X j := by
  subst hoff
  funext p
  show X _ = X _
  congr 1
  funext a
  apply Fin.ext
  match a with
  | ⟨0, _⟩ => show 0 + 1 * (p 0).val = (p 0).val; omega
  | ⟨1, _⟩ => show 512 * j.val + 1 * (p 1).val = 512 * j.val + (p 1).val; omega

/-! ## Point 0 -/

/-- After point 0 the first scratch holds the product `x · W1`, whatever it held. -/
theorem first_S1 (c : Dev nD) (i : grid0.Coords) (arg1 : Memref sig .tc .vmem S2048x256 .f32) (harg1 : arg1.IsWhole) (arg2 : Memref sig .tc .vmem S512x2048 .f32) (harg2 : arg2.IsWhole) (arg3 : Memref sig .tc .vmem S256x128 .f32) (harg3 : arg3.IsWhole) (arg4 : Memref sig .tc .vmem S1x128 .f32) (harg4 : arg4.IsWhole) (arg5 : Memref sig .tc .vmem S128x2048 .f32) (harg5 : arg5.IsWhole) (arg6 : Memref sig .tc .vmem S1x2048 .f32) (harg6 : arg6.IsWhole) (arg7 : Memref sig .tc .vmem S512x2048 .f32) (harg7 : arg7.IsWhole) (arg8 : Memref sig .tc .vmem S2048x128 .f32) (harg8 : arg8.IsWhole) (arg9 : Memref sig .tc .vmem S2048x2048 .f32) (harg9 : arg9.IsWhole) (arg10 : Memref sig .tc .vmem S2048x2048 .f32) (harg10 : arg10.IsWhole) (hc0 : isFirst i) (hc1 : isBuild i) (hc2 : ¬isEmit i)
    (x0 : Vec F S2048x256 .f32) (x1 : Vec F S512x2048 .f32) (x2 : Vec F S256x128 .f32) (x3 : Vec F S1x128 .f32) (x4 : Vec F S128x2048 .f32) (x5 : Vec F S1x2048 .f32) (x7 : Vec F S512x2048 .f32) (x9 x10 : Vec F S2048x2048 .f32) (f : arg8.view.ty.Contents (Elt F)) :
    arg8.view.read (Elt F) (arg8.view.writes (Elt F) f (runFirst c i arg1 harg1 arg2 harg2 arg3 harg3 arg4 harg4 arg5 harg5 arg6 harg6 arg7 harg7 arg8 harg8 arg9 harg9 arg10 harg10 hc0 hc1 hc2 x0 x1 x2 x3 x4 x5 x7 x9 x10).1) = k0_pay1 x0 x2 := by
  unfold runFirst; dsimp only; sl_unfold_words
  simp only [View.readAt_eq_ld, harg1.read_unread, harg2.read_unread, harg3.read_unread, harg4.read_unread, harg5.read_unread, harg6.read_unread, harg8.read_unread, harg9.read_unread, harg10.read_unread, View.ld_unit_zero (S := S2048x256) hz2, View.ld_unit_zero (S := S256x128) hz2, View.ld_unit_zero (S := S512x2048) hz2, View.ld_unit_zero (S := S1x128) hz2, View.ld_unit_zero (S := S128x2048) hz2, View.ld_unit_zero (S := S2048x128) hz2]
  funext y
  exact View.read_writes_cons_rows_of_mem _ _ _ _ _ y y rfl (Nat.zero_add _).symm rfl

/-- Inside the stored rows the intermediate holds the stored block, -/
theorem first_S2_in (c : Dev nD) (i : grid0.Coords) (arg1 : Memref sig .tc .vmem S2048x256 .f32) (harg1 : arg1.IsWhole) (arg2 : Memref sig .tc .vmem S512x2048 .f32) (harg2 : arg2.IsWhole) (arg3 : Memref sig .tc .vmem S256x128 .f32) (harg3 : arg3.IsWhole) (arg4 : Memref sig .tc .vmem S1x128 .f32) (harg4 : arg4.IsWhole) (arg5 : Memref sig .tc .vmem S128x2048 .f32) (harg5 : arg5.IsWhole) (arg6 : Memref sig .tc .vmem S1x2048 .f32) (harg6 : arg6.IsWhole) (arg7 : Memref sig .tc .vmem S512x2048 .f32) (harg7 : arg7.IsWhole) (arg8 : Memref sig .tc .vmem S2048x128 .f32) (harg8 : arg8.IsWhole) (arg9 : Memref sig .tc .vmem S2048x2048 .f32) (harg9 : arg9.IsWhole) (arg10 : Memref sig .tc .vmem S2048x2048 .f32) (harg10 : arg10.IsWhole) (hc0 : isFirst i) (hc1 : isBuild i) (hc2 : ¬isEmit i)
    (x0 : Vec F S2048x256 .f32) (x1 : Vec F S512x2048 .f32) (x2 : Vec F S256x128 .f32) (x3 : Vec F S1x128 .f32) (x4 : Vec F S128x2048 .f32) (x5 : Vec F S1x2048 .f32) (x7 : Vec F S512x2048 .f32) (x9 x10 : Vec F S2048x2048 .f32) (o : ℕ) (ho : k0_off1 i = ![o, 0]) (y : S2048x2048.Idx) (p : S512x2048.Idx)
    (h0 : (y 0).val = o + (p 0).val) (h1 : (y 1).val = (p 1).val) :
    arg9.view.read (Elt F) (arg9.view.writes (Elt F) (harg9.unread x9) (runFirst c i arg1 harg1 arg2 harg2 arg3 harg3 arg4 harg4 arg5 harg5 arg6 harg6 arg7 harg7 arg8 harg8 arg9 harg9 arg10 harg10 hc0 hc1 hc2 x0 x1 x2 x3 x4 x5 x7 x9 x10).2.1) y
      = k0_pay3 x1 (k0_pay1 x0 x2) x3 x4 p := by
  unfold runFirst; dsimp only; sl_unfold_words
  refine (View.read_writes_cons_rows_of_mem _ _ _ _ _ y p ho h0 h1).trans ?_
  simp only [View.readAt_eq_ld, harg1.read_unread, harg2.read_unread, harg3.read_unread, harg4.read_unread, harg5.read_unread, harg6.read_unread, harg8.read_unread, harg9.read_unread, harg10.read_unread, View.ld_unit_zero (S := S2048x256) hz2, View.ld_unit_zero (S := S256x128) hz2, View.ld_unit_zero (S := S512x2048) hz2, View.ld_unit_zero (S := S1x128) hz2, View.ld_unit_zero (S := S128x2048) hz2, View.ld_unit_zero (S := S2048x128) hz2]
  rw [View.readCov_unit_zero (S := S2048x128) _ hz2]

/-- and outside them what it held. -/
theorem first_S2_out (c : Dev nD) (i : grid0.Coords) (arg1 : Memref sig .tc .vmem S2048x256 .f32) (harg1 : arg1.IsWhole) (arg2 : Memref sig .tc .vmem S512x2048 .f32) (harg2 : arg2.IsWhole) (arg3 : Memref sig .tc .vmem S256x128 .f32) (harg3 : arg3.IsWhole) (arg4 : Memref sig .tc .vmem S1x128 .f32) (harg4 : arg4.IsWhole) (arg5 : Memref sig .tc .vmem S128x2048 .f32) (harg5 : arg5.IsWhole) (arg6 : Memref sig .tc .vmem S1x2048 .f32) (harg6 : arg6.IsWhole) (arg7 : Memref sig .tc .vmem S512x2048 .f32) (harg7 : arg7.IsWhole) (arg8 : Memref sig .tc .vmem S2048x128 .f32) (harg8 : arg8.IsWhole) (arg9 : Memref sig .tc .vmem S2048x2048 .f32) (harg9 : arg9.IsWhole) (arg10 : Memref sig .tc .vmem S2048x2048 .f32) (harg10 : arg10.IsWhole) (hc0 : isFirst i) (hc1 : isBuild i) (hc2 : ¬isEmit i)
    (x0 : Vec F S2048x256 .f32) (x1 : Vec F S512x2048 .f32) (x2 : Vec F S256x128 .f32) (x3 : Vec F S1x128 .f32) (x4 : Vec F S128x2048 .f32) (x5 : Vec F S1x2048 .f32) (x7 : Vec F S512x2048 .f32) (x9 x10 : Vec F S2048x2048 .f32) (o : ℕ) (ho : k0_off1 i = ![o, 0]) (y : S2048x2048.Idx)
    (h : (y 0).val < o ∨ o + 512 ≤ (y 0).val) :
    arg9.view.read (Elt F) (arg9.view.writes (Elt F) (harg9.unread x9) (runFirst c i arg1 harg1 arg2 harg2 arg3 harg3 arg4 harg4 arg5 harg5 arg6 harg6 arg7 harg7 arg8 harg8 arg9 harg9 arg10 harg10 hc0 hc1 hc2 x0 x1 x2 x3 x4 x5 x7 x9 x10).2.1) y = x9 y := by
  unfold runFirst; dsimp only; sl_unfold_words
  refine (View.read_writes_cons_rows_of_not_mem _ _ _ _ _ y ho rfl h).trans ?_
  rw [View.writes_nil, harg9.read_unread]

/-- Inside the stored rows the bank holds the block of `adj`, -/
theorem first_Adj_in (c : Dev nD) (i : grid0.Coords) (arg1 : Memref sig .tc .vmem S2048x256 .f32) (harg1 : arg1.IsWhole) (arg2 : Memref sig .tc .vmem S512x2048 .f32) (harg2 : arg2.IsWhole) (arg3 : Memref sig .tc .vmem S256x128 .f32) (harg3 : arg3.IsWhole) (arg4 : Memref sig .tc .vmem S1x128 .f32) (harg4 : arg4.IsWhole) (arg5 : Memref sig .tc .vmem S128x2048 .f32) (harg5 : arg5.IsWhole) (arg6 : Memref sig .tc .vmem S1x2048 .f32) (harg6 : arg6.IsWhole) (arg7 : Memref sig .tc .vmem S512x2048 .f32) (harg7 : arg7.IsWhole) (arg8 : Memref sig .tc .vmem S2048x128 .f32) (harg8 : arg8.IsWhole) (arg9 : Memref sig .tc .vmem S2048x2048 .f32) (harg9 : arg9.IsWhole) (arg10 : Memref sig .tc .vmem S2048x2048 .f32) (harg10 : arg10.IsWhole) (hc0 : isFirst i) (hc1 : isBuild i) (hc2 : ¬isEmit i)
    (x0 : Vec F S2048x256 .f32) (x1 : Vec F S512x2048 .f32) (x2 : Vec F S256x128 .f32) (x3 : Vec F S1x128 .f32) (x4 : Vec F S128x2048 .f32) (x5 : Vec F S1x2048 .f32) (x7 : Vec F S512x2048 .f32) (x9 x10 : Vec F S2048x2048 .f32) (o : ℕ) (ho : k0_off1 i = ![o, 0]) (y : S2048x2048.Idx) (p : S512x2048.Idx)
    (h0 : (y 0).val = o + (p 0).val) (h1 : (y 1).val = (p 1).val) :
    arg10.view.read (Elt F) (arg10.view.writes (Elt F) (harg10.unread x10) (runFirst c i arg1 harg1 arg2 harg2 arg3 harg3 arg4 harg4 arg5 harg5 arg6 harg6 arg7 harg7 arg8 harg8 arg9 harg9 arg10 harg10 hc0 hc1 hc2 x0 x1 x2 x3 x4 x5 x7 x9 x10).2.2.1) y = x1 p := by
  unfold runFirst; dsimp only; sl_unfold_words
  refine (View.read_writes_cons_rows_of_mem _ _ _ _ _ y p ho h0 h1).trans ?_
  unfold k0_pay2
  simp only [View.readAt_eq_ld, harg1.read_unread, harg2.read_unread, harg3.read_unread, harg4.read_unread, harg5.read_unread, harg6.read_unread, harg8.read_unread, harg9.read_unread, harg10.read_unread, View.ld_unit_zero (S := S2048x256) hz2, View.ld_unit_zero (S := S256x128) hz2, View.ld_unit_zero (S := S512x2048) hz2, View.ld_unit_zero (S := S1x128) hz2, View.ld_unit_zero (S := S128x2048) hz2, View.ld_unit_zero (S := S2048x128) hz2, shapeCast_self]

/-- and outside them what it held. -/
theorem first_Adj_out (c : Dev nD) (i : grid0.Coords) (arg1 : Memref sig .tc .vmem S2048x256 .f32) (harg1 : arg1.IsWhole) (arg2 : Memref sig .tc .vmem S512x2048 .f32) (harg2 : arg2.IsWhole) (arg3 : Memref sig .tc .vmem S256x128 .f32) (harg3 : arg3.IsWhole) (arg4 : Memref sig .tc .vmem S1x128 .f32) (harg4 : arg4.IsWhole) (arg5 : Memref sig .tc .vmem S128x2048 .f32) (harg5 : arg5.IsWhole) (arg6 : Memref sig .tc .vmem S1x2048 .f32) (harg6 : arg6.IsWhole) (arg7 : Memref sig .tc .vmem S512x2048 .f32) (harg7 : arg7.IsWhole) (arg8 : Memref sig .tc .vmem S2048x128 .f32) (harg8 : arg8.IsWhole) (arg9 : Memref sig .tc .vmem S2048x2048 .f32) (harg9 : arg9.IsWhole) (arg10 : Memref sig .tc .vmem S2048x2048 .f32) (harg10 : arg10.IsWhole) (hc0 : isFirst i) (hc1 : isBuild i) (hc2 : ¬isEmit i)
    (x0 : Vec F S2048x256 .f32) (x1 : Vec F S512x2048 .f32) (x2 : Vec F S256x128 .f32) (x3 : Vec F S1x128 .f32) (x4 : Vec F S128x2048 .f32) (x5 : Vec F S1x2048 .f32) (x7 : Vec F S512x2048 .f32) (x9 x10 : Vec F S2048x2048 .f32) (o : ℕ) (ho : k0_off1 i = ![o, 0]) (y : S2048x2048.Idx)
    (h : (y 0).val < o ∨ o + 512 ≤ (y 0).val) :
    arg10.view.read (Elt F) (arg10.view.writes (Elt F) (harg10.unread x10) (runFirst c i arg1 harg1 arg2 harg2 arg3 harg3 arg4 harg4 arg5 harg5 arg6 harg6 arg7 harg7 arg8 harg8 arg9 harg9 arg10 harg10 hc0 hc1 hc2 x0 x1 x2 x3 x4 x5 x7 x9 x10).2.2.1) y = x10 y := by
  unfold runFirst; dsimp only; sl_unfold_words
  refine (View.read_writes_cons_rows_of_not_mem _ _ _ _ _ y ho rfl h).trans ?_
  rw [View.writes_nil, harg10.read_unread]

/-! ## Points 1–3 -/

theorem build_S2_in (c : Dev nD) (i : grid0.Coords) (arg1 : Memref sig .tc .vmem S2048x256 .f32) (harg1 : arg1.IsWhole) (arg2 : Memref sig .tc .vmem S512x2048 .f32) (harg2 : arg2.IsWhole) (arg3 : Memref sig .tc .vmem S256x128 .f32) (harg3 : arg3.IsWhole) (arg4 : Memref sig .tc .vmem S1x128 .f32) (harg4 : arg4.IsWhole) (arg5 : Memref sig .tc .vmem S128x2048 .f32) (harg5 : arg5.IsWhole) (arg6 : Memref sig .tc .vmem S1x2048 .f32) (harg6 : arg6.IsWhole) (arg7 : Memref sig .tc .vmem S512x2048 .f32) (harg7 : arg7.IsWhole) (arg8 : Memref sig .tc .vmem S2048x128 .f32) (harg8 : arg8.IsWhole) (arg9 : Memref sig .tc .vmem S2048x2048 .f32) (harg9 : arg9.IsWhole) (arg10 : Memref sig .tc .vmem S2048x2048 .f32) (harg10 : arg10.IsWhole) (hc0 : ¬isFirst i) (hc1 : isBuild i) (hc2 : ¬isEmit i)
    (x0 : Vec F S2048x256 .f32) (x1 : Vec F S512x2048 .f32) (x2 : Vec F S256x128 .f32) (x3 : Vec F S1x128 .f32) (x4 : Vec F S128x2048 .f32) (x5 : Vec F S1x2048 .f32) (x7 : Vec F S512x2048 .f32) (x8 : Vec F S2048x128 .f32) (x9 x10 : Vec F S2048x2048 .f32) (o : ℕ) (ho : k0_off1 i = ![o, 0]) (y : S2048x2048.Idx) (p : S512x2048.Idx)
    (h0 : (y 0).val = o + (p 0).val) (h1 : (y 1).val = (p 1).val) :
    arg9.view.read (Elt F) (arg9.view.writes (Elt F) (harg9.unread x9) (runBuild c i arg1 harg1 arg2 harg2 arg3 harg3 arg4 harg4 arg5 harg5 arg6 harg6 arg7 harg7 arg8 harg8 arg9 harg9 arg10 harg10 hc0 hc1 hc2 x0 x1 x2 x3 x4 x5 x7 x8 x9 x10).1) y
      = k0_pay3 x1 x8 x3 x4 p := by
  unfold runBuild; dsimp only; sl_unfold_words
  refine (View.read_writes_cons_rows_of_mem _ _ _ _ _ y p ho h0 h1).trans ?_
  simp only [View.readAt_eq_ld, harg1.read_unread, harg2.read_unread, harg3.read_unread, harg4.read_unread, harg5.read_unread, harg6.read_unread, harg8.read_unread, harg9.read_unread, harg10.read_unread, View.ld_unit_zero (S := S2048x256) hz2, View.ld_unit_zero (S := S256x128) hz2, View.ld_unit_zero (S := S512x2048) hz2, View.ld_unit_zero (S := S1x128) hz2, View.ld_unit_zero (S := S128x2048) hz2, View.ld_unit_zero (S := S2048x128) hz2]

theorem build_S2_out (c : Dev nD) (i : grid0.Coords) (arg1 : Memref sig .tc .vmem S2048x256 .f32) (harg1 : arg1.IsWhole) (arg2 : Memref sig .tc .vmem S512x2048 .f32) (harg2 : arg2.IsWhole) (arg3 : Memref sig .tc .vmem S256x128 .f32) (harg3 : arg3.IsWhole) (arg4 : Memref sig .tc .vmem S1x128 .f32) (harg4 : arg4.IsWhole) (arg5 : Memref sig .tc .vmem S128x2048 .f32) (harg5 : arg5.IsWhole) (arg6 : Memref sig .tc .vmem S1x2048 .f32) (harg6 : arg6.IsWhole) (arg7 : Memref sig .tc .vmem S512x2048 .f32) (harg7 : arg7.IsWhole) (arg8 : Memref sig .tc .vmem S2048x128 .f32) (harg8 : arg8.IsWhole) (arg9 : Memref sig .tc .vmem S2048x2048 .f32) (harg9 : arg9.IsWhole) (arg10 : Memref sig .tc .vmem S2048x2048 .f32) (harg10 : arg10.IsWhole) (hc0 : ¬isFirst i) (hc1 : isBuild i) (hc2 : ¬isEmit i)
    (x0 : Vec F S2048x256 .f32) (x1 : Vec F S512x2048 .f32) (x2 : Vec F S256x128 .f32) (x3 : Vec F S1x128 .f32) (x4 : Vec F S128x2048 .f32) (x5 : Vec F S1x2048 .f32) (x7 : Vec F S512x2048 .f32) (x8 : Vec F S2048x128 .f32) (x9 x10 : Vec F S2048x2048 .f32) (o : ℕ) (ho : k0_off1 i = ![o, 0]) (y : S2048x2048.Idx)
    (h : (y 0).val < o ∨ o + 512 ≤ (y 0).val) :
    arg9.view.read (Elt F) (arg9.view.writes (Elt F) (harg9.unread x9) (runBuild c i arg1 harg1 arg2 harg2 arg3 harg3 arg4 harg4 arg5 harg5 arg6 harg6 arg7 harg7 arg8 harg8 arg9 harg9 arg10 harg10 hc0 hc1 hc2 x0 x1 x2 x3 x4 x5 x7 x8 x9 x10).1) y = x9 y := by
  unfold runBuild; dsimp only; sl_unfold_words
  refine (View.read_writes_cons_rows_of_not_mem _ _ _ _ _ y ho rfl h).trans ?_
  rw [View.writes_nil, harg9.read_unread]

theorem build_Adj_in (c : Dev nD) (i : grid0.Coords) (arg1 : Memref sig .tc .vmem S2048x256 .f32) (harg1 : arg1.IsWhole) (arg2 : Memref sig .tc .vmem S512x2048 .f32) (harg2 : arg2.IsWhole) (arg3 : Memref sig .tc .vmem S256x128 .f32) (harg3 : arg3.IsWhole) (arg4 : Memref sig .tc .vmem S1x128 .f32) (harg4 : arg4.IsWhole) (arg5 : Memref sig .tc .vmem S128x2048 .f32) (harg5 : arg5.IsWhole) (arg6 : Memref sig .tc .vmem S1x2048 .f32) (harg6 : arg6.IsWhole) (arg7 : Memref sig .tc .vmem S512x2048 .f32) (harg7 : arg7.IsWhole) (arg8 : Memref sig .tc .vmem S2048x128 .f32) (harg8 : arg8.IsWhole) (arg9 : Memref sig .tc .vmem S2048x2048 .f32) (harg9 : arg9.IsWhole) (arg10 : Memref sig .tc .vmem S2048x2048 .f32) (harg10 : arg10.IsWhole) (hc0 : ¬isFirst i) (hc1 : isBuild i) (hc2 : ¬isEmit i)
    (x0 : Vec F S2048x256 .f32) (x1 : Vec F S512x2048 .f32) (x2 : Vec F S256x128 .f32) (x3 : Vec F S1x128 .f32) (x4 : Vec F S128x2048 .f32) (x5 : Vec F S1x2048 .f32) (x7 : Vec F S512x2048 .f32) (x8 : Vec F S2048x128 .f32) (x9 x10 : Vec F S2048x2048 .f32) (o : ℕ) (ho : k0_off1 i = ![o, 0]) (y : S2048x2048.Idx) (p : S512x2048.Idx)
    (h0 : (y 0).val = o + (p 0).val) (h1 : (y 1).val = (p 1).val) :
    arg10.view.read (Elt F) (arg10.view.writes (Elt F) (harg10.unread x10) (runBuild c i arg1 harg1 arg2 harg2 arg3 harg3 arg4 harg4 arg5 harg5 arg6 harg6 arg7 harg7 arg8 harg8 arg9 harg9 arg10 harg10 hc0 hc1 hc2 x0 x1 x2 x3 x4 x5 x7 x8 x9 x10).2.1) y = x1 p := by
  unfold runBuild; dsimp only; sl_unfold_words
  refine (View.read_writes_cons_rows_of_mem _ _ _ _ _ y p ho h0 h1).trans ?_
  unfold k0_pay2
  simp only [View.readAt_eq_ld, harg1.read_unread, harg2.read_unread, harg3.read_unread, harg4.read_unread, harg5.read_unread, harg6.read_unread, harg8.read_unread, harg9.read_unread, harg10.read_unread, View.ld_unit_zero (S := S2048x256) hz2, View.ld_unit_zero (S := S256x128) hz2, View.ld_unit_zero (S := S512x2048) hz2, View.ld_unit_zero (S := S1x128) hz2, View.ld_unit_zero (S := S128x2048) hz2, View.ld_unit_zero (S := S2048x128) hz2, shapeCast_self]

theorem build_Adj_out (c : Dev nD) (i : grid0.Coords) (arg1 : Memref sig .tc .vmem S2048x256 .f32) (harg1 : arg1.IsWhole) (arg2 : Memref sig .tc .vmem S512x2048 .f32) (harg2 : arg2.IsWhole) (arg3 : Memref sig .tc .vmem S256x128 .f32) (harg3 : arg3.IsWhole) (arg4 : Memref sig .tc .vmem S1x128 .f32) (harg4 : arg4.IsWhole) (arg5 : Memref sig .tc .vmem S128x2048 .f32) (harg5 : arg5.IsWhole) (arg6 : Memref sig .tc .vmem S1x2048 .f32) (harg6 : arg6.IsWhole) (arg7 : Memref sig .tc .vmem S512x2048 .f32) (harg7 : arg7.IsWhole) (arg8 : Memref sig .tc .vmem S2048x128 .f32) (harg8 : arg8.IsWhole) (arg9 : Memref sig .tc .vmem S2048x2048 .f32) (harg9 : arg9.IsWhole) (arg10 : Memref sig .tc .vmem S2048x2048 .f32) (harg10 : arg10.IsWhole) (hc0 : ¬isFirst i) (hc1 : isBuild i) (hc2 : ¬isEmit i)
    (x0 : Vec F S2048x256 .f32) (x1 : Vec F S512x2048 .f32) (x2 : Vec F S256x128 .f32) (x3 : Vec F S1x128 .f32) (x4 : Vec F S128x2048 .f32) (x5 : Vec F S1x2048 .f32) (x7 : Vec F S512x2048 .f32) (x8 : Vec F S2048x128 .f32) (x9 x10 : Vec F S2048x2048 .f32) (o : ℕ) (ho : k0_off1 i = ![o, 0]) (y : S2048x2048.Idx)
    (h : (y 0).val < o ∨ o + 512 ≤ (y 0).val) :
    arg10.view.read (Elt F) (arg10.view.writes (Elt F) (harg10.unread x10) (runBuild c i arg1 harg1 arg2 harg2 arg3 harg3 arg4 harg4 arg5 harg5 arg6 harg6 arg7 harg7 arg8 harg8 arg9 harg9 arg10 harg10 hc0 hc1 hc2 x0 x1 x2 x3 x4 x5 x7 x8 x9 x10).2.1) y = x10 y := by
  unfold runBuild; dsimp only; sl_unfold_words
  refine (View.read_writes_cons_rows_of_not_mem _ _ _ _ _ y ho rfl h).trans ?_
  rw [View.writes_nil, harg10.read_unread]

/-! ## Points 4–7 -/

/-- An index of the result's buffer in columns `512 j … 512 j + 511` reads tile `j`: the logistic of the banked rows
    times slab `j` of the intermediate plus lanes `j` of the bias row. -/
theorem emit_out (c : Dev nD) (i : grid0.Coords) (arg1 : Memref sig .tc .vmem S2048x256 .f32) (harg1 : arg1.IsWhole) (arg2 : Memref sig .tc .vmem S512x2048 .f32) (harg2 : arg2.IsWhole) (arg3 : Memref sig .tc .vmem S256x128 .f32) (harg3 : arg3.IsWhole) (arg4 : Memref sig .tc .vmem S1x128 .f32) (harg4 : arg4.IsWhole) (arg5 : Memref sig .tc .vmem S128x2048 .f32) (harg5 : arg5.IsWhole) (arg6 : Memref sig .tc .vmem S1x2048 .f32) (harg6 : arg6.IsWhole) (arg7 : Memref sig .tc .vmem S512x2048 .f32) (harg7 : arg7.IsWhole) (arg8 : Memref sig .tc .vmem S2048x128 .f32) (harg8 : arg8.IsWhole) (arg9 : Memref sig .tc .vmem S2048x2048 .f32) (harg9 : arg9.IsWhole) (arg10 : Memref sig .tc .vmem S2048x2048 .f32) (harg10 : arg10.IsWhole) (hc0 : ¬isFirst i) (hc1 : ¬isBuild i) (hc2 : isEmit i)
    (x0 : Vec F S2048x256 .f32) (x1 : Vec F S512x2048 .f32) (x2 : Vec F S256x128 .f32) (x3 : Vec F S1x128 .f32) (x4 : Vec F S128x2048 .f32) (x5 : Vec F S1x2048 .f32) (x8 : Vec F S2048x128 .f32) (x9 x10 : Vec F S2048x2048 .f32) (o : ℕ) (ho : k0_off2 i = ![o, 0]) (hob : o + 512 ≤ 2048)
    (f : arg7.view.ty.Contents (Elt F)) (y : S512x2048.Idx) (j : Fin 4) (q : S512x512.Idx)
    (h0 : (y 0).val = (q 0).val) (h1 : (y 1).val = 512 * j.val + (q 1).val) :
    arg7.view.read (Elt F) (arg7.view.writes (Elt F) f (runEmit c i arg1 harg1 arg2 harg2 arg3 harg3 arg4 harg4 arg5 harg5 arg6 harg6 arg7 harg7 arg8 harg8 arg9 harg9 arg10 harg10 hc0 hc1 hc2 x0 x1 x2 x3 x4 x5 x8 x9 x10).1) y
      = k0_pay5 (rowsAt x10 o hob) (colSlab x9 j) (laneSlab x5 j) q := by
  have hq1 : (q 1).val < 512 := (q 1).isLt
  unfold runEmit; dsimp only; sl_unfold_words
  simp only [View.readAt_eq_ld, harg6.read_unread, harg9.read_unread, harg10.read_unread]
  match j, h1 with
  | ⟨0, _⟩, h1 =>
    have h1' : (y 1).val = 0 + (q 1).val := h1
    clear h1
    refine (View.read_writes_cons_unit_of_not_mem _ _ _ _ _ y rfl (1 : Fin 2) (Or.inl (by show (y 1).val < 1536; omega))).trans ?_
    refine (View.read_writes_cons_unit_of_not_mem _ _ _ _ _ y rfl (1 : Fin 2) (Or.inl (by show (y 1).val < 1024; omega))).trans ?_
    refine (View.read_writes_cons_unit_of_not_mem _ _ _ _ _ y rfl (1 : Fin 2) (Or.inl (by show (y 1).val < 512; omega))).trans ?_
    refine (View.read_writes_cons_unit_of_mem _ _ _ _ _ y q rfl
      (Fin.forall_fin_two.mpr ⟨by show (y 0).val = 0 + (q 0).val; omega, by show (y 1).val = 0 + (q 1).val; omega⟩)).trans ?_
    refine (congrArg (fun z => k0_pay5 z _ _ q) (ld_rows x10 _ _ o ho hob)).trans ?_
    refine (congrArg (fun z => k0_pay5 _ z _ q) (ld_cols x9 ⟨0, by decide⟩ _ _ rfl)).trans ?_
    exact congrArg (fun z => k0_pay5 _ _ z q) (ld_lanes x5 ⟨0, by decide⟩ _ _ rfl)
  | ⟨1, _⟩, h1 =>
    have h1' : (y 1).val = 512 + (q 1).val := h1
    clear h1
    refine (View.read_writes_cons_unit_of_not_mem _ _ _ _ _ y rfl (1 : Fin 2) (Or.inl (by show (y 1).val < 1536; omega))).trans ?_
    refine (View.read_writes_cons_unit_of_not_mem _ _ _ _ _ y rfl (1 : Fin 2) (Or.inl (by show (y 1).val < 1024; omega))).trans ?_
    refine (View.read_writes_cons_unit_of_mem _ _ _ _ _ y q rfl
      (Fin.forall_fin_two.mpr ⟨by show (y 0).val = 0 + (q 0).val; omega, by show (y 1).val = 512 + (q 1).val; omega⟩)).trans ?_
    refine (congrFun (pay6_eq _ _ _) q).trans ?_
    refine (congrArg (fun z => k0_pay5 z _ _ q) (ld_rows x10 _ _ o ho hob)).trans ?_
    refine (congrArg (fun z => k0_pay5 _ z _ q) (ld_cols x9 ⟨1, by decide⟩ _ _ rfl)).trans ?_
    exact congrArg (fun z => k0_pay5 _ _ z q) (ld_lanes x5 ⟨1, by decide⟩ _ _ rfl)
  | ⟨2, _⟩, h1 =>
    have h1' : (y 1).val = 1024 + (q 1).val := h1
    clear h1
    refine (View.read_writes_cons_unit_of_not_mem _ _ _ _ _ y rfl (1 : Fin 2) (Or.inl (by show (y 1).val < 1536; omega))).trans ?_
    refine (View.read_writes_cons_unit_of_mem _ _ _ _ _ y q rfl
      (Fin.forall_fin_two.mpr ⟨by show (y 0).val = 0 + (q 0).val; omega, by show (y 1).val = 1024 + (q 1).val; omega⟩)).trans ?_
    refine (congrFun (pay7_eq _ _ _) q).trans ?_
    refine (congrArg (fun z => k0_pay5 z _ _ q) (ld_rows x10 _ _ o ho hob)).trans ?_
    refine (congrArg (fun z => k0_pay5 _ z _ q) (ld_cols x9 ⟨2, by decide⟩ _ _ rfl)).trans ?_
    exact congrArg (fun z => k0_pay5 _ _ z q) (ld_lanes x5 ⟨2, by decide⟩ _ _ rfl)
  | ⟨3, _⟩, h1 =>
    have h1' : (y 1).val = 1536 + (q 1).val := h1
    clear h1
    refine (View.read_writes_cons_unit_of_mem _ _ _ _ _ y q rfl
      (Fin.forall_fin_two.mpr ⟨by show (y 0).val = 0 + (q 0).val; omega, by show (y 1).val = 1536 + (q 1).val; omega⟩)).trans ?_
    refine (congrFun (pay4_eq _ _ _) q).trans ?_
    refine (congrArg (fun z => k0_pay5 z _ _ q) (ld_rows x10 _ _ o ho hob)).trans ?_
    refine (congrArg (fun z => k0_pay5 _ z _ q) (ld_cols x9 ⟨3, by decide⟩ _ _ rfl)).trans ?_
    exact congrArg (fun z => k0_pay5 _ _ z q) (ld_lanes x5 ⟨3, by decide⟩ _ _ rfl)

end Cert.KernelIdeal.Body

end
-- ==== Proof.KIBlocks.lean ====
import proofs.«102864_g35416300322820_cont_8to1_b_1386_18_alg».proof.Proof.KIShared
import proofs.«102864_g35416300322820_cont_8to1_b_1386_18_alg».proof.Proof.KSpec
import Idealize.ShloMosaic.Lib.Pipeline.Value

/-!
# The windows' blocks as parts of whole arrays

Five of the six input windows have one block, the whole array, at every point (`x`, `W1`, the bias row `b1`, `W2`,
the bias row `b2`); the window of `adj` has blocks of 512 rows, and at point `t < 4` its block is rows
`512 t … 512 t + 511`. Each is read off the window's printed index map, decided over the grid.
-/

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen Cert.KernelIdeal.KSpec
open Idealize.ShloMosaic.ValueIdx

variable {F : FTy → Type} [FloatOps F]
variable (m : (ℓ : Loc nD τ sig) → Buf (Elt F) ℓ)

/-- The six operand arrays as the region finds them. -/
def opX (c : Dev nD) : Vec F S2048x256 .f32 := V m c main_arg0
def opAdj (c : Dev nD) : Vec F S2048x2048 .f32 := V m c main_arg1
def opW1 (c : Dev nD) : Vec F S256x128 .f32 := V m c main_arg2
def opB1 (c : Dev nD) : Vec F S1x128 .f32 := V m c main_v0
def opW2 (c : Dev nD) : Vec F S128x2048 .f32 := V m c main_arg4
def opB2 (c : Dev nD) : Vec F S1x2048 .f32 := V m c main_v1

/-- Window 0's one block is its whole array, at every point. -/
theorem blk0_eq (c : Dev nD) (t : Fin cfg0.N) : (iblk m c 0 t : Vec F S2048x256 .f32) = opX m c := by
  have hi : ∀ t : Fin cfg0.N, win0_0.index t (0 : Fin 2) = 0 ∧ win0_0.index t (1 : Fin 2) = 0 :=
    (by decide +kernel : ∀ t : Fin grid0.N, win0_0.index t (0 : Fin 2) = 0 ∧ win0_0.index t (1 : Fin 2) = 0)
  funext j
  unfold iblk opX
  rw [View.read_apply]
  show V m c main_arg0 _ = V m c main_arg0 j
  congr 1
  funext a
  apply Fin.ext
  match a with
  | ⟨0, _⟩ => show win0_0.index t (0 : Fin 2) * 2048 + 1 * (j 0).val = (j 0).val; rw [(hi t).1]; omega
  | ⟨1, _⟩ => show win0_0.index t (1 : Fin 2) * 256 + 1 * (j 1).val = (j 1).val; rw [(hi t).2]; omega

/-- Window 2's one block is its whole array, at every point. -/
theorem blk2_eq (c : Dev nD) (t : Fin cfg0.N) : (iblk m c 2 t : Vec F S256x128 .f32) = opW1 m c := by
  have hi : ∀ t : Fin cfg0.N, win0_2.index t (0 : Fin 2) = 0 ∧ win0_2.index t (1 : Fin 2) = 0 :=
    (by decide +kernel : ∀ t : Fin grid0.N, win0_2.index t (0 : Fin 2) = 0 ∧ win0_2.index t (1 : Fin 2) = 0)
  funext j
  unfold iblk opW1
  rw [View.read_apply]
  show V m c main_arg2 _ = V m c main_arg2 j
  congr 1
  funext a
  apply Fin.ext
  match a with
  | ⟨0, _⟩ => show win0_2.index t (0 : Fin 2) * 256 + 1 * (j 0).val = (j 0).val; rw [(hi t).1]; omega
  | ⟨1, _⟩ => show win0_2.index t (1 : Fin 2) * 128 + 1 * (j 1).val = (j 1).val; rw [(hi t).2]; omega

/-- Window 3's one block is its whole array, at every point. -/
theorem blk3_eq (c : Dev nD) (t : Fin cfg0.N) : (iblk m c 3 t : Vec F S1x128 .f32) = opB1 m c := by
  have hi : ∀ t : Fin cfg0.N, win0_3.index t (0 : Fin 2) = 0 ∧ win0_3.index t (1 : Fin 2) = 0 :=
    (by decide +kernel : ∀ t : Fin grid0.N, win0_3.index t (0 : Fin 2) = 0 ∧ win0_3.index t (1 : Fin 2) = 0)
  funext j
  unfold iblk opB1
  rw [View.read_apply]
  show V m c main_v0 _ = V m c main_v0 j
  congr 1
  funext a
  apply Fin.ext
  match a with
  | ⟨0, _⟩ => show win0_3.index t (0 : Fin 2) * 1 + 1 * (j 0).val = (j 0).val; rw [(hi t).1]; omega
  | ⟨1, _⟩ => show win0_3.index t (1 : Fin 2) * 128 + 1 * (j 1).val = (j 1).val; rw [(hi t).2]; omega

/-- Window 4's one block is its whole array, at every point. -/
theorem blk4_eq (c : Dev nD) (t : Fin cfg0.N) : (iblk m c 4 t : Vec F S128x2048 .f32) = opW2 m c := by
  have hi : ∀ t : Fin cfg0.N, win0_4.index t (0 : Fin 2) = 0 ∧ win0_4.index t (1 : Fin 2) = 0 :=
    (by decide +kernel : ∀ t : Fin grid0.N, win0_4.index t (0 : Fin 2) = 0 ∧ win0_4.index t (1 : Fin 2) = 0)
  funext j
  unfold iblk opW2
  rw [View.read_apply]
  show V m c main_arg4 _ = V m c main_arg4 j
  congr 1
  funext a
  apply Fin.ext
  match a with
  | ⟨0, _⟩ => show win0_4.index t (0 : Fin 2) * 128 + 1 * (j 0).val = (j 0).val; rw [(hi t).1]; omega
  | ⟨1, _⟩ => show win0_4.index t (1 : Fin 2) * 2048 + 1 * (j 1).val = (j 1).val; rw [(hi t).2]; omega

/-- Window 5's one block is its whole array, at every point. -/
theorem blk5_eq (c : Dev nD) (t : Fin cfg0.N) : (iblk m c 5 t : Vec F S1x2048 .f32) = opB2 m c := by
  have hi : ∀ t : Fin cfg0.N, win0_5.index t (0 : Fin 2) = 0 ∧ win0_5.index t (1 : Fin 2) = 0 :=
    (by decide +kernel : ∀ t : Fin grid0.N, win0_5.index t (0 : Fin 2) = 0 ∧ win0_5.index t (1 : Fin 2) = 0)
  funext j
  unfold iblk opB2
  rw [View.read_apply]
  show V m c main_v1 _ = V m c main_v1 j
  congr 1
  funext a
  apply Fin.ext
  match a with
  | ⟨0, _⟩ => show win0_5.index t (0 : Fin 2) * 1 + 1 * (j 0).val = (j 0).val; rw [(hi t).1]; omega
  | ⟨1, _⟩ => show win0_5.index t (1 : Fin 2) * 2048 + 1 * (j 1).val = (j 1).val; rw [(hi t).2]; omega

/-- At a point `t < 4` the block of `adj` is its row block `t`. -/
theorem blk1_eq (c : Dev nD) (t : Fin cfg0.N) (ht : t.val < 4) :
    (iblk m c 1 t : Vec F S512x2048 .f32) = rowBlock (opAdj m c) ⟨t.val, ht⟩ := by
  have hi : ∀ t : Fin cfg0.N, t.val < 4 → win0_1.index t (0 : Fin 2) = t.val ∧ win0_1.index t (1 : Fin 2) = 0 :=
    (by decide +kernel : ∀ t : Fin grid0.N, t.val < 4 → win0_1.index t (0 : Fin 2) = t.val ∧ win0_1.index t (1 : Fin 2) = 0)
  funext j
  unfold iblk rowBlock opAdj
  rw [View.read_apply]
  show V m c main_arg1 _ = V m c main_arg1 _
  congr 1
  funext a
  apply Fin.ext
  match a with
  | ⟨0, _⟩ => show win0_1.index t (0 : Fin 2) * 512 + 1 * (j 0).val = 512 * t.val + (j 0).val; rw [(hi t ht).1]; omega
  | ⟨1, _⟩ => show win0_1.index t (1 : Fin 2) * 2048 + 1 * (j 1).val = (j 1).val; rw [(hi t ht).2]; omega

end Cert.KernelIdeal.Body

end
-- ==== Proof.KSpecAt.lean ====
import proofs.«102864_g35416300322820_cont_8to1_b_1386_18_alg».proof.Proof.KSpec

/-!
# The closed form at an index given by block and position

`KSpec.support2` and `KSpec.out` pick their block by dividing the index by 512. When an index is handed over as
"block `b`, position `p` inside it" — row `512 b + p` — the division gives back `b` and the remainder `p`.
-/

noncomputable section

namespace Cert.KernelIdeal.KSpec

open Idealize.ShloMosaic Cert.KernelIdeal Cert.KernelIdeal.Gen
open Idealize.ShloMosaic.ValueIdx

variable {F : FTy → Type} [FloatOps F]

/-- Row `512 b + p` of the intermediate is row `p` of block `b`. -/
theorem support2_at (x : Vec F S2048x256 .f32) (A : Vec F S2048x2048 .f32) (w1 : Vec F S256x128 .f32)
    (b1r : Vec F S1x128 .f32) (w2 : Vec F S128x2048 .f32) (b : Fin 4) (p : S512x2048.Idx) (y : S2048x2048.Idx)
    (hy0 : (y 0).val = 512 * b.val + (p 0).val) (hy1 : (y 1).val = (p 1).val) :
    support2 x A w1 b1r w2 y = support2Block x A w1 b1r w2 b p := by
  have hp0 : (p 0).val < 512 := (p 0).isLt
  have e : ∀ (b' : Fin 4) (p' : S512x2048.Idx), b' = b → p' = p →
      support2Block x A w1 b1r w2 b' p' = support2Block x A w1 b1r w2 b p := by
    rintro _ _ rfl rfl; rfl
  unfold support2
  exact e _ _ (Fin.ext (by show (y 0).val / 512 = b.val; omega)) (funext fun a => Fin.ext (by
    match a with
    | ⟨0, _⟩ => show (y 0).val % 512 = (p 0).val; omega
    | ⟨1, _⟩ => show (y 1).val = (p 1).val; exact hy1))

/-- Entry `(512 b + q₀, 512 j + q₁)` of the result is entry `q` of tile `(b, j)`. -/
theorem out_at (x : Vec F S2048x256 .f32) (A : Vec F S2048x2048 .f32) (w1 : Vec F S256x128 .f32)
    (b1r : Vec F S1x128 .f32) (w2 : Vec F S128x2048 .f32) (b2r : Vec F S1x2048 .f32) (b j : Fin 4)
    (q : S512x512.Idx) (y : S2048x2048.Idx)
    (hy0 : (y 0).val = 512 * b.val + (q 0).val) (hy1 : (y 1).val = 512 * j.val + (q 1).val) :
    out x A w1 b1r w2 b2r y = outTile x A w1 b1r w2 b2r b j q := by
  have hq0 : (q 0).val < 512 := (q 0).isLt
  have hq1 : (q 1).val < 512 := (q 1).isLt
  have e : ∀ (b' j' : Fin 4) (q' : S512x512.Idx), b' = b → j' = j → q' = q →
      outTile x A w1 b1r w2 b2r b' j' q' = outTile x A w1 b1r w2 b2r b j q := by
    rintro _ _ _ rfl rfl rfl; rfl
  unfold out
  exact e _ _ _ (Fin.ext (by show (y 0).val / 512 = b.val; omega)) (Fin.ext (by show (y 1).val / 512 = j.val; omega))
    (funext fun a => Fin.ext (by
      match a with
      | ⟨0, _⟩ => show (y 0).val % 512 = (q 0).val; omega
      | ⟨1, _⟩ => show (y 1).val % 512 = (q 1).val; omega))

end Cert.KernelIdeal.KSpec

end
-- ==== Proof.KIFrame.lean ====
import proofs.«102864_g35416300322820_cont_8to1_b_1386_18_alg».proof.Proof.KIPieces
import proofs.«102864_g35416300322820_cont_8to1_b_1386_18_alg».proof.Proof.KIBlocks
import proofs.«102864_g35416300322820_cont_8to1_b_1386_18_alg».proof.Proof.KSpecAt

/-!
# The proof data, the body at every point, and the run

Between points the three scratch buffers hold: the first always the product `x · W1` (from point 0 on); the intermediate
and the bank of `adj` each SOME contents that agree with the closed form (`KSpec.support2`, `adj` itself) on the rows
stored so far, rows `0 … 512 · min n 4 - 1` after `n` points. That is the invariant. The result's window is idle and not
written back at points 0–3; at point `t ≥ 4` the body leaves in its staging buffer block `t - 4` of `KSpec.out`, which
is written back there.

Each of the three kinds of point is one application of its run. After a point of the first two kinds the stored row block
is the closed form's on its rows (the run's store is the same arithmetic over the same blocks) and the rows outside it are
untouched. From point 4 on both buffers agree with the closed form everywhere, so the loads of the third kind read the
closed form's rows and slabs, and the four tiles are `KSpec.out`'s.
-/

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen Cert.KernelIdeal.KSpec
open Idealize.ShloMosaic.ValueIdx

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The closed form over the operands as the region finds them -/

/-- The first product. -/
def kS1 (c : Dev nD) : Vec F S2048x128 .f32 := support1 (opX m c) (opW1 m c)
/-- The intermediate. -/
def kS2 (c : Dev nD) : Vec F S2048x2048 .f32 := support2 (opX m c) (opAdj m c) (opW1 m c) (opB1 m c) (opW2 m c)
/-- The result, as contents of the result array. -/
def kOut (c : Dev nD) : Buf (Elt F) ((c : Thread nD τ).loc main_v2) :=
  KSpec.out (opX m c) (opAdj m c) (opW1 m c) (opB1 m c) (opW2 m c) (opB2 m c)

/-- The product of the first point's two whole blocks is the first product. -/
theorem kS1_eq (c : Dev nD) (t : Fin cfg0.N) : k0_pay1 (iblk m c 0 t) (iblk m c 2 t) = kS1 m c := by
  rw [blk0_eq, blk2_eq]; rfl

/-- Contents `d` agree with the intermediate on the rows stored after `n` points. -/
def okS2 (c : Dev nD) (n : ℕ) (d : Vec F S2048x2048 .f32) : Prop :=
  ∀ y : S2048x2048.Idx, (y 0).val < 512 * min n 4 → d y = kS2 m c y
/-- Contents `d` agree with `adj` on the rows banked after `n` points. -/
def okAdj (c : Dev nD) (n : ℕ) (d : Vec F S2048x2048 .f32) : Prop :=
  ∀ y : S2048x2048.Idx, (y 0).val < 512 * min n 4 → d y = opAdj m c y

theorem okS2_full (c : Dev nD) (n : ℕ) (hn : 4 ≤ n) (d : Vec F S2048x2048 .f32) (h : okS2 m c n d) : d = kS2 m c :=
  funext fun y => h y (by have : (y 0).val < 2048 := (y 0).isLt; omega)
theorem okAdj_full (c : Dev nD) (n : ℕ) (hn : 4 ≤ n) (d : Vec F S2048x2048 .f32) (h : okAdj m c n d) : d = opAdj m c :=
  funext fun y => h y (by have : (y 0).val < 2048 := (y 0).isLt; omega)

/-- The row block stored at point `t < 4` is the closed form's on rows `512 t … 512 t + 511`. -/
theorem s2_row (c : Dev nD) (t : Fin cfg0.N) (ht : t.val < 4) (y : S2048x2048.Idx)
    (hlo : 512 * t.val ≤ (y 0).val) (hhi : (y 0).val < 512 * t.val + 512) :
    k0_pay3 (iblk m c 1 t) (kS1 m c) (iblk m c 3 t) (iblk m c 4 t)
      (ix2 (n0 := 512) (n1 := 2048) ⟨(y 0).val - 512 * t.val, by omega⟩ ⟨(y 1).val, (y 1).isLt⟩) = kS2 m c y := by
  rw [blk1_eq m c t ht, blk3_eq, blk4_eq]
  exact (support2_at (opX m c) (opAdj m c) (opW1 m c) (opB1 m c) (opW2 m c) ⟨t.val, ht⟩ _ y
    (by show (y 0).val = 512 * t.val + ((y 0).val - 512 * t.val); omega) rfl).symm

/-- The block of `adj` banked at point `t < 4` is `adj` on those rows. -/
theorem adj_row (c : Dev nD) (t : Fin cfg0.N) (ht : t.val < 4) (y : S2048x2048.Idx)
    (hlo : 512 * t.val ≤ (y 0).val) (hhi : (y 0).val < 512 * t.val + 512) :
    (iblk m c 1 t : Vec F S512x2048 .f32)
      (ix2 (n0 := 512) (n1 := 2048) ⟨(y 0).val - 512 * t.val, by omega⟩ ⟨(y 1).val, (y 1).isLt⟩) = opAdj m c y := by
  rw [blk1_eq m c t ht]
  unfold rowBlock
  congr 1
  funext a
  apply Fin.ext
  match a with
  | ⟨0, _⟩ => show 512 * t.val + ((y 0).val - 512 * t.val) = (y 0).val; omega
  | ⟨1, _⟩ => rfl

/-- One more row block: contents `R` that are the stored block on rows `512 t … 512 t + 511` and `d` elsewhere agree with
    the intermediate on the rows stored after `t + 1` points, if `d` did after `t`. -/
theorem okS2_step (c : Dev nD) (t : Fin cfg0.N) (ht : t.val < 4) (d R : Vec F S2048x2048 .f32) (hd : okS2 m c t.val d)
    (hin : ∀ (y : S2048x2048.Idx) (p : S512x2048.Idx), (y 0).val = 512 * t.val + (p 0).val → (y 1).val = (p 1).val →
      R y = k0_pay3 (iblk m c 1 t) (kS1 m c) (iblk m c 3 t) (iblk m c 4 t) p)
    (hout : ∀ y : S2048x2048.Idx, ((y 0).val < 512 * t.val ∨ 512 * t.val + 512 ≤ (y 0).val) → R y = d y) :
    okS2 m c (t.val + 1) R := by
  intro y hy
  by_cases hlo : (y 0).val < 512 * t.val
  · rw [hout y (Or.inl hlo)]; exact hd y (by omega)
  · rw [hin y (ix2 (n0 := 512) (n1 := 2048) ⟨(y 0).val - 512 * t.val, by omega⟩ ⟨(y 1).val, (y 1).isLt⟩)
      (by show (y 0).val = 512 * t.val + ((y 0).val - 512 * t.val); omega) rfl]
    exact s2_row m c t ht y (by omega) (by omega)

theorem okAdj_step (c : Dev nD) (t : Fin cfg0.N) (ht : t.val < 4) (d R : Vec F S2048x2048 .f32) (hd : okAdj m c t.val d)
    (hin : ∀ (y : S2048x2048.Idx) (p : S512x2048.Idx), (y 0).val = 512 * t.val + (p 0).val → (y 1).val = (p 1).val →
      R y = (iblk m c 1 t : Vec F S512x2048 .f32) p)
    (hout : ∀ y : S2048x2048.Idx, ((y 0).val < 512 * t.val ∨ 512 * t.val + 512 ≤ (y 0).val) → R y = d y) :
    okAdj m c (t.val + 1) R := by
  intro y hy
  by_cases hlo : (y 0).val < 512 * t.val
  · rw [hout y (Or.inl hlo)]; exact hd y (by omega)
  · rw [hin y (ix2 (n0 := 512) (n1 := 2048) ⟨(y 0).val - 512 * t.val, by omega⟩ ⟨(y 1).val, (y 1).isLt⟩)
      (by show (y 0).val = 512 * t.val + ((y 0).val - 512 * t.val); omega) rfl]
    exact adj_row m c t ht y (by omega) (by omega)

/-! ## The invariant and the proof data -/

/-- Before point `n`: at the start what the launch hands over; afterwards the first scratch at the first product, the other
    two at contents that agree with the closed form on the rows stored so far. -/
def PhiS (c : Dev nD) : ℕ → sProp 𝕄
  | 0 => Pipeline.ΦA spec0 c
  | n + 1 => iprop(iprop(owns (c : Thread nD τ) scrS1 fullShare (kS1 m c)
      ∗ (∃ d, owns (c : Thread nD τ) scrS2 fullShare d ∗ ⌜okS2 m c (n + 1) d⌝)
      ∗ (∃ d, owns (c : Thread nD τ) scrAdj fullShare d ∗ ⌜okAdj m c (n + 1) d⌝)) ∗ (∃ r, prngReg c r))

theorem PhiS_succ (c : Dev nD) (n : ℕ) :
    PhiS m c (n + 1) = iprop(iprop(owns (c : Thread nD τ) scrS1 fullShare (kS1 m c)
      ∗ (∃ d, owns (c : Thread nD τ) scrS2 fullShare d ∗ ⌜okS2 m c (n + 1) d⌝)
      ∗ (∃ d, owns (c : Thread nD τ) scrAdj fullShare d ∗ ⌜okAdj m c (n + 1) d⌝)) ∗ (∃ r, prngReg c r)) := rfl

theorem PhiS_pos (c : Dev nD) (n : ℕ) (hn : n ≠ 0) :
    PhiS m c n = iprop(iprop(owns (c : Thread nD τ) scrS1 fullShare (kS1 m c)
      ∗ (∃ d, owns (c : Thread nD τ) scrS2 fullShare d ∗ ⌜okS2 m c n d⌝)
      ∗ (∃ d, owns (c : Thread nD τ) scrAdj fullShare d ∗ ⌜okAdj m c n d⌝)) ∗ (∃ r, prngReg c r)) := by
  cases n with
  | zero => exact absurd rfl hn
  | succ n => rfl

theorem PhiS_zero (c : Dev nD) (n : ℕ) (hn : n = 0) : PhiS m c n = Pipeline.ΦA spec0 c := by subst hn; rfl

/-- The proof data on core `c`: the arrays as the region finds them; each input's buffer left at its block; the result's
    buffer left at its block of `KSpec.out`; the invariant above; full shares; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => ((cfg0.win 6).blk t).view.read (Elt F) (kOut m c)
  Φ t := PhiS m c t.val
  q _ := fullShare
  owed _ := 0

theorem A_eq (c : Dev nD) (w : Fin cfg0.W) : (dats m 0 c).A w = V m c (Pipeline.arrRef spec0 w) := by
  dsimp only [dats]

theorem Phi_castSucc (c : Dev nD) (t : Fin cfg0.N) : (dats m 0 c).Φ t.castSucc = PhiS m c t.val := by
  dsimp only [dats]; simp only [Fin.coe_castSucc]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) :
    (dats m 0 c).after 6 t = ((cfg0.win 6).blk t).view.read (Elt F) (kOut m c) := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d

/-- The conditions at a point, from where the point sits in the grid. -/
theorem cFirst (t : Fin cfg0.N) (h : t.val = 0) : isFirst (grid0.coords t) := (isFirst_iff t).mpr h
theorem nFirst (t : Fin cfg0.N) (h : t.val ≠ 0) : ¬isFirst (grid0.coords t) := fun h' => h ((isFirst_iff t).mp h')
theorem cBuild (t : Fin cfg0.N) (h : t.val < 4) : isBuild (grid0.coords t) := (isBuild_iff t).mpr h
theorem nBuild (t : Fin cfg0.N) (h : ¬t.val < 4) : ¬isBuild (grid0.coords t) := fun h' => h ((isBuild_iff t).mp h')
theorem cEmit (t : Fin cfg0.N) (h : 4 ≤ t.val) : isEmit (grid0.coords t) := (isEmit_iff t).mpr h
theorem nEmit (t : Fin cfg0.N) (h : ¬4 ≤ t.val) : ¬isEmit (grid0.coords t) := fun h' => h ((isEmit_iff t).mp h')

/-- What the four tiles of a point `t ≥ 4` leave is the result window's block of the closed form. -/
theorem emit_block (c : Dev nD) (t : Fin cfg0.N) (ht : 4 ≤ t.val) (hob : 512 * (t.val - 4) + 512 ≤ 2048)
    (R : Vec F S512x2048 .f32)
    (hR : ∀ (y : S512x2048.Idx) (j : Fin 4) (q : S512x512.Idx), (y 0).val = (q 0).val →
      (y 1).val = 512 * j.val + (q 1).val →
      R y = k0_pay5 (rowsAt (opAdj m c) (512 * (t.val - 4)) hob) (colSlab (kS2 m c) j) (laneSlab (iblk m c 5 t) j) q) :
    R = (dats m 0 c).after 6 t := by
  have hi : ∀ t : Fin cfg0.N, 4 ≤ t.val → win0_6.index t (0 : Fin 2) = t.val - 4 ∧ win0_6.index t (1 : Fin 2) = 0 :=
    (by decide +kernel : ∀ t : Fin grid0.N, 4 ≤ t.val → win0_6.index t (0 : Fin 2) = t.val - 4 ∧ win0_6.index t (1 : Fin 2) = 0)
  have hN : t.val < 8 := lt_of_lt_of_eq t.isLt (show cfg0.N = 8 from N_0)
  rw [after_6]
  funext y
  have hy0 : (y 0).val < 512 := (y 0).isLt
  have hy1 : (y 1).val < 2048 := (y 1).isLt
  rw [View.read_apply]
  rw [hR y ⟨(y 1).val / 512, by omega⟩ (ix2 (n0 := 512) (n1 := 512) ⟨(y 0).val, hy0⟩ ⟨(y 1).val % 512, Nat.mod_lt _ (by decide)⟩)
    rfl (by show (y 1).val = 512 * ((y 1).val / 512) + (y 1).val % 512; omega)]
  rw [blk5_eq]
  unfold kOut
  refine ((out_at (opX m c) (opAdj m c) (opW1 m c) (opB1 m c) (opW2 m c) (opB2 m c) ⟨t.val - 4, by omega⟩ ⟨(y 1).val / 512, by omega⟩
    (ix2 (n0 := 512) (n1 := 512) ⟨(y 0).val, hy0⟩ ⟨(y 1).val % 512, Nat.mod_lt _ (by decide)⟩) _ ?_ ?_).trans rfl).symm
  · show win0_6.index t (0 : Fin 2) * 512 + 1 * (y 0).val = 512 * (t.val - 4) + (y 0).val
    rw [(hi t ht).1]; omega
  · show win0_6.index t (1 : Fin 2) * 2048 + 1 * (y 1).val = 512 * ((y 1).val / 512) + (y 1).val % 512
    rw [(hi t ht).2]; omega

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (stg0 t) fullShare ((dats m 0 c).before 0 t d))
    ∗ (∃ d, owns (c : Thread nD τ) (stg1 t) fullShare ((dats m 0 c).before 1 t d))
    ∗ (∃ d, owns (c : Thread nD τ) (stg2 t) fullShare ((dats m 0 c).before 2 t d))
    ∗ (∃ d, owns (c : Thread nD τ) (stg3 t) fullShare ((dats m 0 c).before 3 t d))
    ∗ (∃ d, owns (c : Thread nD τ) (stg4 t) fullShare ((dats m 0 c).before 4 t d))
    ∗ (∃ d, owns (c : Thread nD τ) (stg5 t) fullShare ((dats m 0 c).before 5 t d))
    ∗ (∃ d, owns (c : Thread nD τ) (stg6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

set_option maxHeartbeats 4000000 in
/-- Point 0. -/
theorem sound_first (c : Dev nD) (t : Fin cfg0.N) (ht0 : t.val = 0) :
    bodyPre m c t ⊢ wp frame (wpE (defs₀ (F := F)) Variants.none c none) Set.univ (bodyAt0 t) (fun _ => bodyPost m c t) := by
  have ht : t.val < 4 := by omega
  unfold bodyPre bodyPost bodyAt0
  simp only [before_0, before_1, before_2, before_3, before_4, before_5]
  rw [show (dats m 0 c).owesAt () t.succ = (dats m 0 c).owesAt () t.castSucc from rfl]
  rw [show (dats m 0 c).Φ t.succ = PhiS m c (t.val + 1) from rfl, PhiS_succ, Phi_castSucc m c t]
  rw [show (dats m 0 c).leavesExact 0 t = owns (c : Thread nD τ) (stg0 t) fullShare ((dats m 0 c).after 0 t) from by
    unfold Dat.leavesExact; rw [live_0 t], after_0]
  rw [show (dats m 0 c).leavesExact 1 t = owns (c : Thread nD τ) (stg1 t) fullShare ((dats m 0 c).after 1 t) from by
    unfold Dat.leavesExact; rw [live_1 t], after_1]
  rw [show (dats m 0 c).leavesExact 2 t = owns (c : Thread nD τ) (stg2 t) fullShare ((dats m 0 c).after 2 t) from by
    unfold Dat.leavesExact; rw [live_2 t], after_2]
  rw [show (dats m 0 c).leavesExact 3 t = owns (c : Thread nD τ) (stg3 t) fullShare ((dats m 0 c).after 3 t) from by
    unfold Dat.leavesExact; rw [live_3 t], after_3]
  rw [show (dats m 0 c).leavesExact 4 t = owns (c : Thread nD τ) (stg4 t) fullShare ((dats m 0 c).after 4 t) from by
    unfold Dat.leavesExact; rw [live_4 t], after_4]
  rw [show (dats m 0 c).leavesExact 5 t = owns (c : Thread nD τ) (stg5 t) fullShare ((dats m 0 c).after 5 t) from by
    unfold Dat.leavesExact; rw [live_5 t], after_5]
  rw [(dats m 0 c).leavesExact_idle 6 t (idle_6 t ht) (noflush_6 t ht)]
  rw [PhiS_zero m c _ ht0, classInv_eq]
  iintro ⟨⟨⟨HS0, ⟨%d9, HS1⟩, ⟨%d10, HS2⟩⟩, Hg⟩, Ho, ⟨%e0, H0⟩, ⟨%e1, H1⟩, ⟨%e2, H2⟩, ⟨%e3, H3⟩, ⟨%e4, H4⟩, ⟨%e5, H5⟩, ⟨%e6, H6⟩⟩
  iapply ((runFirst c (grid0.coords t) (stg0 t) (stg0_whole t) (stg1 t) (stg1_whole t) (stg2 t) (stg2_whole t) (stg3 t) (stg3_whole t) (stg4 t) (stg4_whole t) (stg5 t) (stg5_whole t) (stg6 t) (stg6_whole t) scrS1 (Memref.isWhole_whole _) scrS2 (Memref.isWhole_whole _) scrAdj (Memref.isWhole_whole _) (cFirst t ht0) (cBuild t ht) (nEmit t (by omega)) (iblk m c 0 t) (iblk m c 1 t) (iblk m c 2 t) (iblk m c 3 t) (iblk m c 4 t) (iblk m c 5 t) ((dats m 0 c).before 6 t e6) d9 d10).2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HS0]; · iexact HS0
  isplitl [HS1]; · iexact HS1
  isplitl [HS2]; · iexact HS2
  iintro ⟨H0, H1, H2, H3, H4, H5, H6, ⟨%f8, HS0⟩, HS1, HS2⟩
  isplitl [HS0 HS1 HS2 Hg]
  · isplitl [HS0 HS1 HS2]
    · isplitl [HS0]
      · unfold owns; iexists _; isplitr
        swap; · iexact HS0
        ipureintro; exact (first_S1 c (grid0.coords t) (stg0 t) (stg0_whole t) (stg1 t) (stg1_whole t) (stg2 t) (stg2_whole t) (stg3 t) (stg3_whole t) (stg4 t) (stg4_whole t) (stg5 t) (stg5_whole t) (stg6 t) (stg6_whole t) scrS1 (Memref.isWhole_whole _) scrS2 (Memref.isWhole_whole _) scrAdj (Memref.isWhole_whole _) (cFirst t ht0) (cBuild t ht) (nEmit t (by omega)) (iblk m c 0 t) (iblk m c 1 t) (iblk m c 2 t) (iblk m c 3 t) (iblk m c 4 t) (iblk m c 5 t) ((dats m 0 c).before 6 t e6) d9 d10 f8).trans (kS1_eq m c t)
      isplitl [HS1]
      · iexists _; isplitl [HS1]
        · unfold owns; iexists _; isplitr
          swap; · iexact HS1
          ipureintro; rfl
        · ipureintro
          exact okS2_step m c t ht d9 _ (fun y hy => absurd hy (by omega))
            (fun y p h0 h1 => (first_S2_in c (grid0.coords t) (stg0 t) (stg0_whole t) (stg1 t) (stg1_whole t) (stg2 t) (stg2_whole t) (stg3 t) (stg3_whole t) (stg4 t) (stg4_whole t) (stg5 t) (stg5_whole t) (stg6 t) (stg6_whole t) scrS1 (Memref.isWhole_whole _) scrS2 (Memref.isWhole_whole _) scrAdj (Memref.isWhole_whole _) (cFirst t ht0) (cBuild t ht) (nEmit t (by omega)) (iblk m c 0 t) (iblk m c 1 t) (iblk m c 2 t) (iblk m c 3 t) (iblk m c 4 t) (iblk m c 5 t) ((dats m 0 c).before 6 t e6) d9 d10 (512 * t.val) (buildOff_eq t ht) y p h0 h1).trans (by rw [kS1_eq m c t]))
            (fun y h => first_S2_out c (grid0.coords t) (stg0 t) (stg0_whole t) (stg1 t) (stg1_whole t) (stg2 t) (stg2_whole t) (stg3 t) (stg3_whole t) (stg4 t) (stg4_whole t) (stg5 t) (stg5_whole t) (stg6 t) (stg6_whole t) scrS1 (Memref.isWhole_whole _) scrS2 (Memref.isWhole_whole _) scrAdj (Memref.isWhole_whole _) (cFirst t ht0) (cBuild t ht) (nEmit t (by omega)) (iblk m c 0 t) (iblk m c 1 t) (iblk m c 2 t) (iblk m c 3 t) (iblk m c 4 t) (iblk m c 5 t) ((dats m 0 c).before 6 t e6) d9 d10 (512 * t.val) (buildOff_eq t ht) y h)
      · iexists _; isplitl [HS2]
        · unfold owns; iexists _; isplitr
          swap; · iexact HS2
          ipureintro; rfl
        · ipureintro
          exact okAdj_step m c t ht d10 _ (fun y hy => absurd hy (by omega))
            (fun y p h0 h1 => first_Adj_in c (grid0.coords t) (stg0 t) (stg0_whole t) (stg1 t) (stg1_whole t) (stg2 t) (stg2_whole t) (stg3 t) (stg3_whole t) (stg4 t) (stg4_whole t) (stg5 t) (stg5_whole t) (stg6 t) (stg6_whole t) scrS1 (Memref.isWhole_whole _) scrS2 (Memref.isWhole_whole _) scrAdj (Memref.isWhole_whole _) (cFirst t ht0) (cBuild t ht) (nEmit t (by omega)) (iblk m c 0 t) (iblk m c 1 t) (iblk m c 2 t) (iblk m c 3 t) (iblk m c 4 t) (iblk m c 5 t) ((dats m 0 c).before 6 t e6) d9 d10 (512 * t.val) (buildOff_eq t ht) y p h0 h1)
            (fun y h => first_Adj_out c (grid0.coords t) (stg0 t) (stg0_whole t) (stg1 t) (stg1_whole t) (stg2 t) (stg2_whole t) (stg3 t) (stg3_whole t) (stg4 t) (stg4_whole t) (stg5 t) (stg5_whole t) (stg6 t) (stg6_whole t) scrS1 (Memref.isWhole_whole _) scrS2 (Memref.isWhole_whole _) scrAdj (Memref.isWhole_whole _) (cFirst t ht0) (cBuild t ht) (nEmit t (by omega)) (iblk m c 0 t) (iblk m c 1 t) (iblk m c 2 t) (iblk m c 3 t) (iblk m c 4 t) (iblk m c 5 t) ((dats m 0 c).before 6 t e6) d9 d10 (512 * t.val) (buildOff_eq t ht) y h)
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexists _; iexact H6

set_option maxHeartbeats 4000000 in
/-- Points 1–3. -/
theorem sound_build (c : Dev nD) (t : Fin cfg0.N) (ht0 : t.val ≠ 0) (ht : t.val < 4) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5]
  rw [show (dats m 0 c).owesAt () t.succ = (dats m 0 c).owesAt () t.castSucc from rfl]
  rw [show (dats m 0 c).Φ t.succ = PhiS m c (t.val + 1) from rfl, PhiS_succ, Phi_castSucc m c t]
  rw [show (dats m 0 c).leavesExact 0 t = owns (c : Thread nD τ) (stg0 t) fullShare ((dats m 0 c).after 0 t) from by
    unfold Dat.leavesExact; rw [live_0 t], after_0]
  rw [show (dats m 0 c).leavesExact 1 t = owns (c : Thread nD τ) (stg1 t) fullShare ((dats m 0 c).after 1 t) from by
    unfold Dat.leavesExact; rw [live_1 t], after_1]
  rw [show (dats m 0 c).leavesExact 2 t = owns (c : Thread nD τ) (stg2 t) fullShare ((dats m 0 c).after 2 t) from by
    unfold Dat.leavesExact; rw [live_2 t], after_2]
  rw [show (dats m 0 c).leavesExact 3 t = owns (c : Thread nD τ) (stg3 t) fullShare ((dats m 0 c).after 3 t) from by
    unfold Dat.leavesExact; rw [live_3 t], after_3]
  rw [show (dats m 0 c).leavesExact 4 t = owns (c : Thread nD τ) (stg4 t) fullShare ((dats m 0 c).after 4 t) from by
    unfold Dat.leavesExact; rw [live_4 t], after_4]
  rw [show (dats m 0 c).leavesExact 5 t = owns (c : Thread nD τ) (stg5 t) fullShare ((dats m 0 c).after 5 t) from by
    unfold Dat.leavesExact; rw [live_5 t], after_5]
  rw [(dats m 0 c).leavesExact_idle 6 t (idle_6 t ht) (noflush_6 t ht)]
  rw [PhiS_pos m c _ ht0]
  iintro ⟨⟨⟨HS0, ⟨%d9, HS1, %h9⟩, ⟨%d10, HS2, %h10⟩⟩, Hg⟩, Ho, ⟨%e0, H0⟩, ⟨%e1, H1⟩, ⟨%e2, H2⟩, ⟨%e3, H3⟩, ⟨%e4, H4⟩, ⟨%e5, H5⟩, ⟨%e6, H6⟩⟩
  iapply ((runBuild c (grid0.coords t) (stg0 t) (stg0_whole t) (stg1 t) (stg1_whole t) (stg2 t) (stg2_whole t) (stg3 t) (stg3_whole t) (stg4 t) (stg4_whole t) (stg5 t) (stg5_whole t) (stg6 t) (stg6_whole t) scrS1 (Memref.isWhole_whole _) scrS2 (Memref.isWhole_whole _) scrAdj (Memref.isWhole_whole _) (nFirst t ht0) (cBuild t ht) (nEmit t (by omega)) (iblk m c 0 t) (iblk m c 1 t) (iblk m c 2 t) (iblk m c 3 t) (iblk m c 4 t) (iblk m c 5 t) ((dats m 0 c).before 6 t e6) (kS1 m c) d9 d10).2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HS0]; · iexact HS0
  isplitl [HS1]; · iexact HS1
  isplitl [HS2]; · iexact HS2
  iintro ⟨H0, H1, H2, H3, H4, H5, H6, HS0, HS1, HS2⟩
  isplitl [HS0 HS1 HS2 Hg]
  · isplitl [HS0 HS1 HS2]
    · isplitl [HS0]; · iexact HS0
      isplitl [HS1]
      · iexists _; isplitl [HS1]
        · unfold owns; iexists _; isplitr
          swap; · iexact HS1
          ipureintro; rfl
        · ipureintro
          exact okS2_step m c t ht d9 _ h9
            (fun y p h0 h1 => build_S2_in c (grid0.coords t) (stg0 t) (stg0_whole t) (stg1 t) (stg1_whole t) (stg2 t) (stg2_whole t) (stg3 t) (stg3_whole t) (stg4 t) (stg4_whole t) (stg5 t) (stg5_whole t) (stg6 t) (stg6_whole t) scrS1 (Memref.isWhole_whole _) scrS2 (Memref.isWhole_whole _) scrAdj (Memref.isWhole_whole _) (nFirst t ht0) (cBuild t ht) (nEmit t (by omega)) (iblk m c 0 t) (iblk m c 1 t) (iblk m c 2 t) (iblk m c 3 t) (iblk m c 4 t) (iblk m c 5 t) ((dats m 0 c).before 6 t e6) (kS1 m c) d9 d10 (512 * t.val) (buildOff_eq t ht) y p h0 h1)
            (fun y h => build_S2_out c (grid0.coords t) (stg0 t) (stg0_whole t) (stg1 t) (stg1_whole t) (stg2 t) (stg2_whole t) (stg3 t) (stg3_whole t) (stg4 t) (stg4_whole t) (stg5 t) (stg5_whole t) (stg6 t) (stg6_whole t) scrS1 (Memref.isWhole_whole _) scrS2 (Memref.isWhole_whole _) scrAdj (Memref.isWhole_whole _) (nFirst t ht0) (cBuild t ht) (nEmit t (by omega)) (iblk m c 0 t) (iblk m c 1 t) (iblk m c 2 t) (iblk m c 3 t) (iblk m c 4 t) (iblk m c 5 t) ((dats m 0 c).before 6 t e6) (kS1 m c) d9 d10 (512 * t.val) (buildOff_eq t ht) y h)
      · iexists _; isplitl [HS2]
        · unfold owns; iexists _; isplitr
          swap; · iexact HS2
          ipureintro; rfl
        · ipureintro
          exact okAdj_step m c t ht d10 _ h10
            (fun y p h0 h1 => build_Adj_in c (grid0.coords t) (stg0 t) (stg0_whole t) (stg1 t) (stg1_whole t) (stg2 t) (stg2_whole t) (stg3 t) (stg3_whole t) (stg4 t) (stg4_whole t) (stg5 t) (stg5_whole t) (stg6 t) (stg6_whole t) scrS1 (Memref.isWhole_whole _) scrS2 (Memref.isWhole_whole _) scrAdj (Memref.isWhole_whole _) (nFirst t ht0) (cBuild t ht) (nEmit t (by omega)) (iblk m c 0 t) (iblk m c 1 t) (iblk m c 2 t) (iblk m c 3 t) (iblk m c 4 t) (iblk m c 5 t) ((dats m 0 c).before 6 t e6) (kS1 m c) d9 d10 (512 * t.val) (buildOff_eq t ht) y p h0 h1)
            (fun y h => build_Adj_out c (grid0.coords t) (stg0 t) (stg0_whole t) (stg1 t) (stg1_whole t) (stg2 t) (stg2_whole t) (stg3 t) (stg3_whole t) (stg4 t) (stg4_whole t) (stg5 t) (stg5_whole t) (stg6 t) (stg6_whole t) scrS1 (Memref.isWhole_whole _) scrS2 (Memref.isWhole_whole _) scrAdj (Memref.isWhole_whole _) (nFirst t ht0) (cBuild t ht) (nEmit t (by omega)) (iblk m c 0 t) (iblk m c 1 t) (iblk m c 2 t) (iblk m c 3 t) (iblk m c 4 t) (iblk m c 5 t) ((dats m 0 c).before 6 t e6) (kS1 m c) d9 d10 (512 * t.val) (buildOff_eq t ht) y h)
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexists _; iexact H6

set_option maxHeartbeats 4000000 in
/-- Points 4–7. -/
theorem sound_emit (c : Dev nD) (t : Fin cfg0.N) (ht : 4 ≤ t.val) :
    bodyPre m c t ⊢ wp frame (wpE (defs₀ (F := F)) Variants.none c none) Set.univ (bodyAt0 t) (fun _ => bodyPost m c t) := by
  have hN : t.val < 8 := lt_of_lt_of_eq t.isLt (show cfg0.N = 8 from N_0)
  have hob : 512 * (t.val - 4) + 512 ≤ 2048 := by omega
  unfold bodyPre bodyPost bodyAt0
  simp only [before_0, before_1, before_2, before_3, before_4, before_5]
  rw [show (dats m 0 c).owesAt () t.succ = (dats m 0 c).owesAt () t.castSucc from rfl]
  rw [show (dats m 0 c).Φ t.succ = PhiS m c (t.val + 1) from rfl, PhiS_succ, Phi_castSucc m c t]
  rw [show (dats m 0 c).leavesExact 0 t = owns (c : Thread nD τ) (stg0 t) fullShare ((dats m 0 c).after 0 t) from by
    unfold Dat.leavesExact; rw [live_0 t], after_0]
  rw [show (dats m 0 c).leavesExact 1 t = owns (c : Thread nD τ) (stg1 t) fullShare ((dats m 0 c).after 1 t) from by
    unfold Dat.leavesExact; rw [live_1 t], after_1]
  rw [show (dats m 0 c).leavesExact 2 t = owns (c : Thread nD τ) (stg2 t) fullShare ((dats m 0 c).after 2 t) from by
    unfold Dat.leavesExact; rw [live_2 t], after_2]
  rw [show (dats m 0 c).leavesExact 3 t = owns (c : Thread nD τ) (stg3 t) fullShare ((dats m 0 c).after 3 t) from by
    unfold Dat.leavesExact; rw [live_3 t], after_3]
  rw [show (dats m 0 c).leavesExact 4 t = owns (c : Thread nD τ) (stg4 t) fullShare ((dats m 0 c).after 4 t) from by
    unfold Dat.leavesExact; rw [live_4 t], after_4]
  rw [show (dats m 0 c).leavesExact 5 t = owns (c : Thread nD τ) (stg5 t) fullShare ((dats m 0 c).after 5 t) from by
    unfold Dat.leavesExact; rw [live_5 t], after_5]
  rw [show (dats m 0 c).leavesExact 6 t = owns (c : Thread nD τ) (stg6 t) fullShare ((dats m 0 c).after 6 t) from by
    unfold Dat.leavesExact; rw [live_6 t ht]]
  rw [PhiS_pos m c _ (by omega)]
  iintro ⟨⟨⟨HS0, ⟨%d9, HS1, %h9⟩, ⟨%d10, HS2, %h10⟩⟩, Hg⟩, Ho, ⟨%e0, H0⟩, ⟨%e1, H1⟩, ⟨%e2, H2⟩, ⟨%e3, H3⟩, ⟨%e4, H4⟩, ⟨%e5, H5⟩, ⟨%e6, H6⟩⟩
  obtain rfl := okS2_full m c t.val ht d9 h9
  obtain rfl := okAdj_full m c t.val ht d10 h10
  iapply ((runEmit c (grid0.coords t) (stg0 t) (stg0_whole t) (stg1 t) (stg1_whole t) (stg2 t) (stg2_whole t) (stg3 t) (stg3_whole t) (stg4 t) (stg4_whole t) (stg5 t) (stg5_whole t) (stg6 t) (stg6_whole t) scrS1 (Memref.isWhole_whole _) scrS2 (Memref.isWhole_whole _) scrAdj (Memref.isWhole_whole _) (nFirst t (by omega)) (nBuild t (by omega)) (cEmit t ht) (iblk m c 0 t) (iblk m c 1 t) (iblk m c 2 t) (iblk m c 3 t) (iblk m c 4 t) (iblk m c 5 t) (kS1 m c) (kS2 m c) (opAdj m c)).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [HS0]; · iexact HS0
  isplitl [HS1]; · iexact HS1
  isplitl [HS2]; · iexact HS2
  iintro ⟨H0, H1, H2, H3, H4, H5, ⟨%f7, H6⟩, HS0, HS1, HS2⟩
  isplitl [HS0 HS1 HS2 Hg]
  · isplitl [HS0 HS1 HS2]
    · isplitl [HS0]; · iexact HS0
      isplitl [HS1]
      · iexists _; isplitl [HS1]
        · iexact HS1
        · ipureintro; exact fun y _ => rfl
      · iexists _; isplitl [HS2]
        · iexact HS2
        · ipureintro; exact fun y _ => rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  unfold owns; iexists _; isplitr
  swap; · iexact H6
  ipureintro
  exact emit_block m c t ht hob _ (fun y j q h0 h1 =>
    emit_out c (grid0.coords t) (stg0 t) (stg0_whole t) (stg1 t) (stg1_whole t) (stg2 t) (stg2_whole t) (stg3 t) (stg3_whole t) (stg4 t) (stg4_whole t) (stg5 t) (stg5_whole t) (stg6 t) (stg6_whole t) scrS1 (Memref.isWhole_whole _) scrS2 (Memref.isWhole_whole _) scrAdj (Memref.isWhole_whole _) (nFirst t (by omega)) (nBuild t (by omega)) (cEmit t ht) (iblk m c 0 t) (iblk m c 1 t) (iblk m c 2 t) (iblk m c 3 t) (iblk m c 4 t) (iblk m c 5 t) (kS1 m c) (kS2 m c) (opAdj m c) (512 * (t.val - 4)) (emitOff_eq t ht) hob f7 y j q h0 h1)

/-- The body at any point. -/
theorem sound_body (c : Dev nD) (t : Fin cfg0.N) :
    bodyPre m c t ⊢ wp frame (wpE (defs₀ (F := F)) Variants.none c none) Set.univ (bodyAt0 t) (fun _ => bodyPost m c t) := by
  by_cases h0 : t.val = 0
  · exact sound_first m c t h0
  · by_cases h1 : t.val < 4
    · exact sound_build m c t h0 h1
    · exact sound_emit m c t (by omega)

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 from rfl, PhiS_zero m c 0 rfl]
  try exact Idealize.SL.BI.Entails.refl _

/-- After the last point the invariant gives it back, the scratch buffers' contents forgotten. -/
theorem hout (c : Dev nD) : (dats m 0 c).Φ (Fin.last cfg0.N) ⊢ Pipeline.ΦA spec0 c := by
  rw [show (dats m 0 c).Φ (Fin.last cfg0.N) = PhiS m c (Fin.last cfg0.N).val from rfl,
    PhiS_pos m c _ (by rw [Fin.val_last]; have : cfg0.N = 8 := N_0; omega), classInv_eq]
  iintro ⟨⟨HS0, ⟨%d9, HS1, -⟩, ⟨%d10, HS2, -⟩⟩, Hg⟩
  isplitl [HS0 HS1 HS2]
  · isplitl [HS0]
    · iexists _; iexact HS0
    isplitl [HS1]
    · iexists _; iexact HS1
    iexists _; iexact HS2
  iexact Hg

/-! ## The run -/

set_option backward.isDefEq.respectTransparency.types false in
/-- Every weakly fair execution of @main terminates, with every array of the pipeline at what the library computes from
    the proof data and every other unscoped buffer as the region found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame: every weakly fair execution terminates, nothing faults, and the six argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

end Cert.KernelIdeal.Body

end
-- ==== Proof.Bridge.lean ====
import proofs.«102864_g35416300322820_cont_8to1_b_1386_18_alg».proof.Proof.KSpec
import proofs.«102864_g35416300322820_cont_8to1_b_1386_18_alg».proof.Proof.Gen.ReferenceIdeal.Read
import Idealize.ShloMosaic.PureOps.Ideal.Laws
import Idealize.ShloMosaic.Lib.ValueIdx
import Idealize.ShloMosaic.Lib.Pipeline.Value
import Idealize.ShloMosaic.Lib.ValueLayout
import Idealize.ShloMosaic.Lib.IdealHost

/-!
# The kernel's whole-array result equals the reference's, at the extended reals

Both sides compute, at entry `(r, j)` of a 2048 × 2048 array,

  `logistic (∑ k, adj[r,k] * S2[k,j] + b2[j])`, with
  `S2[k,j] = ∑ h, max (∑ q, adj[k,q] * S1[q,h] + b1[h]) 0 * W2[h,j]` and `S1[q,h] = ∑ f, x[q,f] * W1[f,h]`.

The kernel reaches the entry through row blocks of 512 and column slabs of 512; the reference spells the logistic
function as `1 / (1 + exp (-z))`, which at the extended reals is the definition of `logistic`. Every sum runs over the
same index set with the same operand order on both sides, so the proof only rewrites each side to these nested sums.
-/

noncomputable section

namespace Cert.Bridge

open Idealize.ShloMosaic Idealize.ShloMosaic.ValueIdx

/-! ## A product into a zero accumulator, read at an entry

At the extended reals a matrix product accumulated into the zero splat is, at entry `(p, q)`, the sum over the one
contraction axis of the products of the left operand's row `p` and the right operand's column `q`. The contraction
index set is identified with `Fin K`; the two operand indices at a contraction index are computed axis by axis. -/

section Products

open Cert.KernelIdeal Cert.KernelIdeal.Gen

/-! ### `x · W1`: 2048 × 256 times 256 × 128 -/

theorem lhs0_xw1 (i : S2048x128.Idx) (c : dot_S2048x256_S256x128_S2048x128_1_0_0_1_n_n.contr.Idx) :
    (dot_S2048x256_S256x128_S2048x128_1_0_0_1_n_n.lhsIdx i c 0).val = (i 0).val := by
  unfold DotDims.lhsIdx
  rw [dif_neg (show ¬(0 : Fin S2048x256.rank) ∈ dot_S2048x256_S256x128_S2048x128_1_0_0_1_n_n.lhsBatch by decide),
    dif_pos (show (0 : Fin S2048x256.rank) ∈ dot_S2048x256_S256x128_S2048x128_1_0_0_1_n_n.lhsNonContracting by decide)]
  rfl
theorem lhs1_xw1 (i : S2048x128.Idx) (c : dot_S2048x256_S256x128_S2048x128_1_0_0_1_n_n.contr.Idx) :
    (dot_S2048x256_S256x128_S2048x128_1_0_0_1_n_n.lhsIdx i c 1).val = (c ⟨0, by decide⟩).val :=
  dot_S2048x256_S256x128_S2048x128_1_0_0_1_n_n.lhsIdx_val_of_single rfl i c
theorem rhs0_xw1 (i : S2048x128.Idx) (c : dot_S2048x256_S256x128_S2048x128_1_0_0_1_n_n.contr.Idx) :
    (dot_S2048x256_S256x128_S2048x128_1_0_0_1_n_n.rhsIdx i c 0).val = (c ⟨0, by decide⟩).val :=
  dot_S2048x256_S256x128_S2048x128_1_0_0_1_n_n.rhsIdx_val_of_single rfl i c
theorem rhs1_xw1 (i : S2048x128.Idx) (c : dot_S2048x256_S256x128_S2048x128_1_0_0_1_n_n.contr.Idx) :
    (dot_S2048x256_S256x128_S2048x128_1_0_0_1_n_n.rhsIdx i c 1).val = (i 1).val := by
  unfold DotDims.rhsIdx
  rw [dif_neg (show ¬(1 : Fin S256x128.rank) ∈ dot_S2048x256_S256x128_S2048x128_1_0_0_1_n_n.rhsBatch by decide),
    dif_pos (show (1 : Fin S256x128.rank) ∈ dot_S2048x256_S256x128_S2048x128_1_0_0_1_n_n.rhsNonContracting by decide)]
  rfl

/-- `(x · W1)[p, q] = ∑ k, x[p, k] * W1[k, q]`. -/
theorem matmul_xw1 (l : FVec Ideal S2048x256 .f32) (r : FVec Ideal S256x128 .f32) (p : Fin 2048) (q : Fin 128) :
    matmul (F := Ideal) dot_S2048x256_S256x128_S2048x128_1_0_0_1_n_n none l r
        (constant (F := Ideal) S2048x128 .f32 0x00000000#32) (ix2 p q)
      = ∑ k : Fin 256, l (ix2 p k) * r (ix2 k q) := by
  simp only [matmul]
  rw [Ideal.matmul_constant_zero_apply,
    ← Equiv.sum_comp (contrEquiv1 dot_S2048x256_S256x128_S2048x128_1_0_0_1_n_n 256 rfl rfl).symm]
  refine Finset.sum_congr rfl fun k _ => ?_
  have hk := contrEquiv1_symm_val dot_S2048x256_S256x128_S2048x128_1_0_0_1_n_n 256 rfl rfl k
  have el : dot_S2048x256_S256x128_S2048x128_1_0_0_1_n_n.lhsIdx (ix2 p q)
      ((contrEquiv1 dot_S2048x256_S256x128_S2048x128_1_0_0_1_n_n 256 rfl rfl).symm k) = ix2 p k :=
    funext fun a => Fin.ext (by
      match a with
      | ⟨0, _⟩ => exact lhs0_xw1 _ _
      | ⟨1, _⟩ => exact (lhs1_xw1 _ _).trans hk)
  have er : dot_S2048x256_S256x128_S2048x128_1_0_0_1_n_n.rhsIdx (ix2 p q)
      ((contrEquiv1 dot_S2048x256_S256x128_S2048x128_1_0_0_1_n_n 256 rfl rfl).symm k) = ix2 k q :=
    funext fun a => Fin.ext (by
      match a with
      | ⟨0, _⟩ => exact (rhs0_xw1 _ _).trans hk
      | ⟨1, _⟩ => exact rhs1_xw1 _ _)
  rw [el, er]

/-! ### `adj_b · S1`: 512 × 2048 times 2048 × 128 -/

theorem lhs0_as1 (i : S512x128.Idx) (c : dot_S512x2048_S2048x128_S512x128_1_0_0_1_n_n.contr.Idx) :
    (dot_S512x2048_S2048x128_S512x128_1_0_0_1_n_n.lhsIdx i c 0).val = (i 0).val := by
  unfold DotDims.lhsIdx
  rw [dif_neg (show ¬(0 : Fin S512x2048.rank) ∈ dot_S512x2048_S2048x128_S512x128_1_0_0_1_n_n.lhsBatch by decide),
    dif_pos (show (0 : Fin S512x2048.rank) ∈ dot_S512x2048_S2048x128_S512x128_1_0_0_1_n_n.lhsNonContracting by decide)]
  rfl
theorem lhs1_as1 (i : S512x128.Idx) (c : dot_S512x2048_S2048x128_S512x128_1_0_0_1_n_n.contr.Idx) :
    (dot_S512x2048_S2048x128_S512x128_1_0_0_1_n_n.lhsIdx i c 1).val = (c ⟨0, by decide⟩).val :=
  dot_S512x2048_S2048x128_S512x128_1_0_0_1_n_n.lhsIdx_val_of_single rfl i c
theorem rhs0_as1 (i : S512x128.Idx) (c : dot_S512x2048_S2048x128_S512x128_1_0_0_1_n_n.contr.Idx) :
    (dot_S512x2048_S2048x128_S512x128_1_0_0_1_n_n.rhsIdx i c 0).val = (c ⟨0, by decide⟩).val :=
  dot_S512x2048_S2048x128_S512x128_1_0_0_1_n_n.rhsIdx_val_of_single rfl i c
theorem rhs1_as1 (i : S512x128.Idx) (c : dot_S512x2048_S2048x128_S512x128_1_0_0_1_n_n.contr.Idx) :
    (dot_S512x2048_S2048x128_S512x128_1_0_0_1_n_n.rhsIdx i c 1).val = (i 1).val := by
  unfold DotDims.rhsIdx
  rw [dif_neg (show ¬(1 : Fin S2048x128.rank) ∈ dot_S512x2048_S2048x128_S512x128_1_0_0_1_n_n.rhsBatch by decide),
    dif_pos (show (1 : Fin S2048x128.rank) ∈ dot_S512x2048_S2048x128_S512x128_1_0_0_1_n_n.rhsNonContracting by decide)]
  rfl

/-- `(adj_b · S1)[p, q] = ∑ k, adj_b[p, k] * S1[k, q]`. -/
theorem matmul_as1 (l : FVec Ideal S512x2048 .f32) (r : FVec Ideal S2048x128 .f32) (p : Fin 512) (q : Fin 128) :
    matmul (F := Ideal) dot_S512x2048_S2048x128_S512x128_1_0_0_1_n_n none l r
        (constant (F := Ideal) S512x128 .f32 0x00000000#32) (ix2 p q)
      = ∑ k : Fin 2048, l (ix2 p k) * r (ix2 k q) := by
  simp only [matmul]
  rw [Ideal.matmul_constant_zero_apply,
    ← Equiv.sum_comp (contrEquiv1 dot_S512x2048_S2048x128_S512x128_1_0_0_1_n_n 2048 rfl rfl).symm]
  refine Finset.sum_congr rfl fun k _ => ?_
  have hk := contrEquiv1_symm_val dot_S512x2048_S2048x128_S512x128_1_0_0_1_n_n 2048 rfl rfl k
  have el : dot_S512x2048_S2048x128_S512x128_1_0_0_1_n_n.lhsIdx (ix2 p q)
      ((contrEquiv1 dot_S512x2048_S2048x128_S512x128_1_0_0_1_n_n 2048 rfl rfl).symm k) = ix2 p k :=
    funext fun a => Fin.ext (by
      match a with
      | ⟨0, _⟩ => exact lhs0_as1 _ _
      | ⟨1, _⟩ => exact (lhs1_as1 _ _).trans hk)
  have er : dot_S512x2048_S2048x128_S512x128_1_0_0_1_n_n.rhsIdx (ix2 p q)
      ((contrEquiv1 dot_S512x2048_S2048x128_S512x128_1_0_0_1_n_n 2048 rfl rfl).symm k) = ix2 k q :=
    funext fun a => Fin.ext (by
      match a with
      | ⟨0, _⟩ => exact (rhs0_as1 _ _).trans hk
      | ⟨1, _⟩ => exact rhs1_as1 _ _)
  rw [el, er]

/-! ### `H_b · W2`: 512 × 128 times 128 × 2048 -/

theorem lhs0_hw2 (i : S512x2048.Idx) (c : dot_S512x128_S128x2048_S512x2048_1_0_0_1_n_n.contr.Idx) :
    (dot_S512x128_S128x2048_S512x2048_1_0_0_1_n_n.lhsIdx i c 0).val = (i 0).val := by
  unfold DotDims.lhsIdx
  rw [dif_neg (show ¬(0 : Fin S512x128.rank) ∈ dot_S512x128_S128x2048_S512x2048_1_0_0_1_n_n.lhsBatch by decide),
    dif_pos (show (0 : Fin S512x128.rank) ∈ dot_S512x128_S128x2048_S512x2048_1_0_0_1_n_n.lhsNonContracting by decide)]
  rfl
theorem lhs1_hw2 (i : S512x2048.Idx) (c : dot_S512x128_S128x2048_S512x2048_1_0_0_1_n_n.contr.Idx) :
    (dot_S512x128_S128x2048_S512x2048_1_0_0_1_n_n.lhsIdx i c 1).val = (c ⟨0, by decide⟩).val :=
  dot_S512x128_S128x2048_S512x2048_1_0_0_1_n_n.lhsIdx_val_of_single rfl i c
theorem rhs0_hw2 (i : S512x2048.Idx) (c : dot_S512x128_S128x2048_S512x2048_1_0_0_1_n_n.contr.Idx) :
    (dot_S512x128_S128x2048_S512x2048_1_0_0_1_n_n.rhsIdx i c 0).val = (c ⟨0, by decide⟩).val :=
  dot_S512x128_S128x2048_S512x2048_1_0_0_1_n_n.rhsIdx_val_of_single rfl i c
theorem rhs1_hw2 (i : S512x2048.Idx) (c : dot_S512x128_S128x2048_S512x2048_1_0_0_1_n_n.contr.Idx) :
    (dot_S512x128_S128x2048_S512x2048_1_0_0_1_n_n.rhsIdx i c 1).val = (i 1).val := by
  unfold DotDims.rhsIdx
  rw [dif_neg (show ¬(1 : Fin S128x2048.rank) ∈ dot_S512x128_S128x2048_S512x2048_1_0_0_1_n_n.rhsBatch by decide),
    dif_pos (show (1 : Fin S128x2048.rank) ∈ dot_S512x128_S128x2048_S512x2048_1_0_0_1_n_n.rhsNonContracting by decide)]
  rfl

/-- `(H_b · W2)[p, q] = ∑ k, H_b[p, k] * W2[k, q]`. -/
theorem matmul_hw2 (l : FVec Ideal S512x128 .f32) (r : FVec Ideal S128x2048 .f32) (p : Fin 512) (q : Fin 2048) :
    matmul (F := Ideal) dot_S512x128_S128x2048_S512x2048_1_0_0_1_n_n none l r
        (constant (F := Ideal) S512x2048 .f32 0x00000000#32) (ix2 p q)
      = ∑ k : Fin 128, l (ix2 p k) * r (ix2 k q) := by
  simp only [matmul]
  rw [Ideal.matmul_constant_zero_apply,
    ← Equiv.sum_comp (contrEquiv1 dot_S512x128_S128x2048_S512x2048_1_0_0_1_n_n 128 rfl rfl).symm]
  refine Finset.sum_congr rfl fun k _ => ?_
  have hk := contrEquiv1_symm_val dot_S512x128_S128x2048_S512x2048_1_0_0_1_n_n 128 rfl rfl k
  have el : dot_S512x128_S128x2048_S512x2048_1_0_0_1_n_n.lhsIdx (ix2 p q)
      ((contrEquiv1 dot_S512x128_S128x2048_S512x2048_1_0_0_1_n_n 128 rfl rfl).symm k) = ix2 p k :=
    funext fun a => Fin.ext (by
      match a with
      | ⟨0, _⟩ => exact lhs0_hw2 _ _
      | ⟨1, _⟩ => exact (lhs1_hw2 _ _).trans hk)
  have er : dot_S512x128_S128x2048_S512x2048_1_0_0_1_n_n.rhsIdx (ix2 p q)
      ((contrEquiv1 dot_S512x128_S128x2048_S512x2048_1_0_0_1_n_n 128 rfl rfl).symm k) = ix2 k q :=
    funext fun a => Fin.ext (by
      match a with
      | ⟨0, _⟩ => exact (rhs0_hw2 _ _).trans hk
      | ⟨1, _⟩ => exact rhs1_hw2 _ _)
  rw [el, er]

/-! ### `adj_b · S2[:, slab]`: 512 × 2048 times 2048 × 512 -/

theorem lhs0_as2 (i : S512x512.Idx) (c : dot_S512x2048_S2048x512_S512x512_1_0_0_1_n_n.contr.Idx) :
    (dot_S512x2048_S2048x512_S512x512_1_0_0_1_n_n.lhsIdx i c 0).val = (i 0).val := by
  unfold DotDims.lhsIdx
  rw [dif_neg (show ¬(0 : Fin S512x2048.rank) ∈ dot_S512x2048_S2048x512_S512x512_1_0_0_1_n_n.lhsBatch by decide),
    dif_pos (show (0 : Fin S512x2048.rank) ∈ dot_S512x2048_S2048x512_S512x512_1_0_0_1_n_n.lhsNonContracting by decide)]
  rfl
theorem lhs1_as2 (i : S512x512.Idx) (c : dot_S512x2048_S2048x512_S512x512_1_0_0_1_n_n.contr.Idx) :
    (dot_S512x2048_S2048x512_S512x512_1_0_0_1_n_n.lhsIdx i c 1).val = (c ⟨0, by decide⟩).val :=
  dot_S512x2048_S2048x512_S512x512_1_0_0_1_n_n.lhsIdx_val_of_single rfl i c
theorem rhs0_as2 (i : S512x512.Idx) (c : dot_S512x2048_S2048x512_S512x512_1_0_0_1_n_n.contr.Idx) :
    (dot_S512x2048_S2048x512_S512x512_1_0_0_1_n_n.rhsIdx i c 0).val = (c ⟨0, by decide⟩).val :=
  dot_S512x2048_S2048x512_S512x512_1_0_0_1_n_n.rhsIdx_val_of_single rfl i c
theorem rhs1_as2 (i : S512x512.Idx) (c : dot_S512x2048_S2048x512_S512x512_1_0_0_1_n_n.contr.Idx) :
    (dot_S512x2048_S2048x512_S512x512_1_0_0_1_n_n.rhsIdx i c 1).val = (i 1).val := by
  unfold DotDims.rhsIdx
  rw [dif_neg (show ¬(1 : Fin S2048x512.rank) ∈ dot_S512x2048_S2048x512_S512x512_1_0_0_1_n_n.rhsBatch by decide),
    dif_pos (show (1 : Fin S2048x512.rank) ∈ dot_S512x2048_S2048x512_S512x512_1_0_0_1_n_n.rhsNonContracting by decide)]
  rfl

/-- `(adj_b · S2[:, slab])[p, q] = ∑ k, adj_b[p, k] * S2[k, slab q]`. -/
theorem matmul_as2 (l : FVec Ideal S512x2048 .f32) (r : FVec Ideal S2048x512 .f32) (p : Fin 512) (q : Fin 512) :
    matmul (F := Ideal) dot_S512x2048_S2048x512_S512x512_1_0_0_1_n_n none l r
        (constant (F := Ideal) S512x512 .f32 0x00000000#32) (ix2 p q)
      = ∑ k : Fin 2048, l (ix2 p k) * r (ix2 k q) := by
  simp only [matmul]
  rw [Ideal.matmul_constant_zero_apply,
    ← Equiv.sum_comp (contrEquiv1 dot_S512x2048_S2048x512_S512x512_1_0_0_1_n_n 2048 rfl rfl).symm]
  refine Finset.sum_congr rfl fun k _ => ?_
  have hk := contrEquiv1_symm_val dot_S512x2048_S2048x512_S512x512_1_0_0_1_n_n 2048 rfl rfl k
  have el : dot_S512x2048_S2048x512_S512x512_1_0_0_1_n_n.lhsIdx (ix2 p q)
      ((contrEquiv1 dot_S512x2048_S2048x512_S512x512_1_0_0_1_n_n 2048 rfl rfl).symm k) = ix2 p k :=
    funext fun a => Fin.ext (by
      match a with
      | ⟨0, _⟩ => exact lhs0_as2 _ _
      | ⟨1, _⟩ => exact (lhs1_as2 _ _).trans hk)
  have er : dot_S512x2048_S2048x512_S512x512_1_0_0_1_n_n.rhsIdx (ix2 p q)
      ((contrEquiv1 dot_S512x2048_S2048x512_S512x512_1_0_0_1_n_n 2048 rfl rfl).symm k) = ix2 k q :=
    funext fun a => Fin.ext (by
      match a with
      | ⟨0, _⟩ => exact (rhs0_as2 _ _).trans hk
      | ⟨1, _⟩ => exact rhs1_as2 _ _)
  rw [el, er]

end Products

/-! ## The three payloads read at an entry -/

section Payloads

open Cert.KernelIdeal Cert.KernelIdeal.Gen

/-- The logistic function applied entrywise, read at an entry. -/
theorem logistic_apply {s : Shape} {φ : FTy} (a : FVec Ideal s φ) (i : s.Idx) :
    logistic a i = Ideal.logistic (a i) := rfl

/-- The first product: `(x · W1)[p, q]`; the same-shape cast changes nothing. -/
theorem pay1_apply (x : FVec Ideal S2048x256 .f32) (w1 : FVec Ideal S256x128 .f32) (p : Fin 2048) (q : Fin 128) :
    k0_pay1 (F := Ideal) x w1 (ix2 p q) = ∑ f : Fin 256, x (ix2 p f) * w1 (ix2 f q) := by
  unfold k0_pay1
  simp only [shapeCast_self]
  exact matmul_xw1 x w1 p q

/-- One block of 512 rows of the intermediate:
    `∑ h, max (∑ k, a[p, k] * s[k, h] + b1[0, h]) 0 * W2[h, q]`. The clamp's literal is the word of `0`. -/
theorem pay3_apply (a : FVec Ideal S512x2048 .f32) (s : FVec Ideal S2048x128 .f32) (b1r : FVec Ideal S1x128 .f32)
    (w2 : FVec Ideal S128x2048 .f32) (p : Fin 512) (q : Fin 2048) :
    k0_pay3 (F := Ideal) a s b1r w2 (ix2 p q)
      = ∑ h : Fin 128, max ((∑ k : Fin 2048, a (ix2 p k) * s (ix2 k h)) + b1r (ix2 (0 : Fin 1) h)) 0 * w2 (ix2 h q) := by
  unfold k0_pay3
  simp only [shapeCast_self]
  rw [matmul_hw2]
  refine Finset.sum_congr rfl fun h _ => ?_
  rw [maximumf_apply, addf_apply, matmul_as1, broadcastTo_1b_ab_apply, broadcast_apply]
  show max _ (Ideal.ofBits .f32 0x00000000#32) * _ = _
  rw [Ideal.ofBits_zero_f32]

/-- One 512 × 512 tile of the result: `logistic (∑ k, a[p, k] * s[k, q] + b2[0, q])`. -/
theorem pay5_apply (a : FVec Ideal S512x2048 .f32) (s : FVec Ideal S2048x512 .f32) (b2s : FVec Ideal S1x512 .f32)
    (p : Fin 512) (q : Fin 512) :
    k0_pay5 (F := Ideal) a s b2s (ix2 p q)
      = Ideal.logistic ((∑ k : Fin 2048, a (ix2 p k) * s (ix2 k q)) + b2s (ix2 (0 : Fin 1) q)) := by
  unfold k0_pay5
  simp only [shapeCast_self]
  rw [logistic_apply, addf_apply, matmul_as2, broadcastTo_1b_ab_apply]

end Payloads

/-! ## The common nested sums

The four stages both sides compute, as functions of row and column numbers. -/

section Sums

open Cert.KernelIdeal

/-- `S1[q, h] = ∑ f, x[q, f] * W1[f, h]`. -/
def s1 (x : FVec Ideal S2048x256 .f32) (w1 : FVec Ideal S256x128 .f32) (q : Fin 2048) (h : Fin 128) : EReal :=
  ∑ f : Fin 256, x (ix2 q f) * w1 (ix2 f h)

/-- `H[k, h] = max (∑ q, adj[k, q] * S1[q, h] + b1[h]) 0`. -/
def hid (x : FVec Ideal S2048x256 .f32) (A : FVec Ideal S2048x2048 .f32) (w1 : FVec Ideal S256x128 .f32)
    (b1 : FVec Ideal S128 .f32) (k : Fin 2048) (h : Fin 128) : EReal :=
  max ((∑ q : Fin 2048, A (ix2 k q) * s1 x w1 q h) + b1 (ix1 h)) 0

/-- `S2[k, j] = ∑ h, H[k, h] * W2[h, j]`. -/
def s2 (x : FVec Ideal S2048x256 .f32) (A : FVec Ideal S2048x2048 .f32) (w1 : FVec Ideal S256x128 .f32)
    (b1 : FVec Ideal S128 .f32) (w2 : FVec Ideal S128x2048 .f32) (k j : Fin 2048) : EReal :=
  ∑ h : Fin 128, hid x A w1 b1 k h * w2 (ix2 h j)

/-- The logistic function's argument: `∑ k, adj[r, k] * S2[k, j] + b2[j]`. -/
def pre (x : FVec Ideal S2048x256 .f32) (A : FVec Ideal S2048x2048 .f32) (w1 : FVec Ideal S256x128 .f32)
    (b1 : FVec Ideal S128 .f32) (w2 : FVec Ideal S128x2048 .f32) (b2 : FVec Ideal S2048 .f32) (r j : Fin 2048) : EReal :=
  (∑ k : Fin 2048, A (ix2 r k) * s2 x A w1 b1 w2 k j) + b2 (ix1 j)

end Sums

/-! ## The kernel's side: blocks and slabs read at the entry they hold

Row `512 * b + p` of the matrix is row `p` of block `b`; with `b = r / 512` and `p = r % 512` that is row `r`.
Columns and lanes likewise. -/

section KernelSide

open Cert.KernelIdeal Cert.KernelIdeal.Gen Cert.KernelIdeal.KSpec

theorem rowBlock_apply (A : FVec Ideal S2048x2048 .f32) (b : Fin 4) (p : Fin 512) (q k : Fin 2048)
    (hk : 512 * b.val + p.val = k.val) : rowBlock (F := Ideal) A b (ix2 p q) = A (ix2 k q) := by
  show A _ = A _
  refine congrArg A (funext fun a => ?_)
  match a with
  | ⟨0, _⟩ => exact Fin.ext hk
  | ⟨1, _⟩ => rfl

theorem colSlab_apply (S : FVec Ideal S2048x2048 .f32) (c : Fin 4) (k : Fin 2048) (q : Fin 512) (j : Fin 2048)
    (hj : 512 * c.val + q.val = j.val) : colSlab (F := Ideal) S c (ix2 k q) = S (ix2 k j) := by
  show S _ = S _
  refine congrArg S (funext fun a => ?_)
  match a with
  | ⟨0, _⟩ => rfl
  | ⟨1, _⟩ => exact Fin.ext hj

theorem laneSlab_apply (v : FVec Ideal S1x2048 .f32) (c : Fin 4) (q : Fin 512) (j : Fin 2048)
    (hj : 512 * c.val + q.val = j.val) : laneSlab (F := Ideal) v c (ix2 (0 : Fin 1) q) = v (ix2 (0 : Fin 1) j) := by
  show v _ = v _
  refine congrArg v (funext fun a => ?_)
  match a with
  | ⟨0, _⟩ => rfl
  | ⟨1, _⟩ => exact Fin.ext hj

/-- Entry `(k, j)` of the intermediate is the payload of block `k / 512` at row `k % 512`: by unfolding. -/
theorem support2_unfold (x : FVec Ideal S2048x256 .f32) (A : FVec Ideal S2048x2048 .f32) (w1 : FVec Ideal S256x128 .f32)
    (b1r : FVec Ideal S1x128 .f32) (w2 : FVec Ideal S128x2048 .f32) (k j : Fin 2048) :
    support2 (F := Ideal) x A w1 b1r w2 (ix2 k j)
      = k0_pay3 (F := Ideal) (rowBlock A ⟨k.val / 512, by have := k.isLt; omega⟩) (k0_pay1 (F := Ideal) x w1) b1r w2
          (ix2 ⟨k.val % 512, Nat.mod_lt _ (by decide)⟩ j) := rfl

/-- The kernel's intermediate is `S2`. -/
theorem support2_apply (x : FVec Ideal S2048x256 .f32) (A : FVec Ideal S2048x2048 .f32) (w1 : FVec Ideal S256x128 .f32)
    (b1r : FVec Ideal S1x128 .f32) (b1 : FVec Ideal S128 .f32) (w2 : FVec Ideal S128x2048 .f32)
    (hb1 : ∀ h : Fin 128, b1r (ix2 (0 : Fin 1) h) = b1 (ix1 h)) (k j : Fin 2048) :
    support2 (F := Ideal) x A w1 b1r w2 (ix2 k j) = s2 x A w1 b1 w2 k j := by
  rw [support2_unfold, pay3_apply]
  unfold s2 hid s1
  refine Finset.sum_congr rfl fun h _ => ?_
  rw [hb1 h]
  refine congrArg (fun t => max (t + b1 (ix1 h)) 0 * w2 (ix2 h j)) ?_
  refine Finset.sum_congr rfl fun q _ => ?_
  rw [rowBlock_apply A _ _ q k (by show 512 * (k.val / 512) + k.val % 512 = k.val; omega), pay1_apply]

/-- Entry `(r, j)` of the result is the payload of tile `(r / 512, j / 512)` at `(r % 512, j % 512)`: by unfolding. -/
theorem out_unfold (x : FVec Ideal S2048x256 .f32) (A : FVec Ideal S2048x2048 .f32) (w1 : FVec Ideal S256x128 .f32)
    (b1r : FVec Ideal S1x128 .f32) (w2 : FVec Ideal S128x2048 .f32) (b2r : FVec Ideal S1x2048 .f32) (r j : Fin 2048) :
    out (F := Ideal) x A w1 b1r w2 b2r (ix2 r j)
      = k0_pay5 (F := Ideal) (rowBlock A ⟨r.val / 512, by have := r.isLt; omega⟩)
          (colSlab (support2 x A w1 b1r w2) ⟨j.val / 512, by have := j.isLt; omega⟩)
          (laneSlab b2r ⟨j.val / 512, by have := j.isLt; omega⟩)
          (ix2 ⟨r.val % 512, Nat.mod_lt _ (by decide)⟩ ⟨j.val % 512, Nat.mod_lt _ (by decide)⟩) := rfl

/-- The kernel's result at `(r, j)` is the logistic function of `pre r j`. -/
theorem out_apply (x : FVec Ideal S2048x256 .f32) (A : FVec Ideal S2048x2048 .f32) (w1 : FVec Ideal S256x128 .f32)
    (b1r : FVec Ideal S1x128 .f32) (b1 : FVec Ideal S128 .f32) (w2 : FVec Ideal S128x2048 .f32)
    (b2r : FVec Ideal S1x2048 .f32) (b2 : FVec Ideal S2048 .f32)
    (hb1 : ∀ h : Fin 128, b1r (ix2 (0 : Fin 1) h) = b1 (ix1 h))
    (hb2 : ∀ j : Fin 2048, b2r (ix2 (0 : Fin 1) j) = b2 (ix1 j)) (r j : Fin 2048) :
    out (F := Ideal) x A w1 b1r w2 b2r (ix2 r j) = Ideal.logistic (pre x A w1 b1 w2 b2 r j) := by
  rw [out_unfold, pay5_apply]
  unfold pre
  rw [laneSlab_apply b2r _ _ j (by show 512 * (j.val / 512) + j.val % 512 = j.val; omega), hb2 j]
  refine congrArg (fun t => Ideal.logistic (t + b2 (ix1 j))) ?_
  refine Finset.sum_congr rfl fun k _ => ?_
  rw [rowBlock_apply A _ _ k r (by show 512 * (r.val / 512) + r.val % 512 = r.val; omega),
    colSlab_apply _ _ k _ j (by show 512 * (j.val / 512) + j.val % 512 = j.val; omega),
    support2_apply x A w1 b1r b1 w2 hb1]

end KernelSide

/-! ## The reference's side

Each operation's value at an entry, chained from the last operation back to the arguments. The operand indices the
generated lemmas name are the pairs `(r, k)`, `(k, j)`; the two broadcasts of a bias read lane `j`. -/

section ReferenceSide

open Cert.ReferenceIdeal.Read

theorem ref_s1 (x : FVec Ideal Cert.KernelIdeal.S2048x256 .f32) (w1 : FVec Ideal Cert.KernelIdeal.S256x128 .f32)
    (q : Fin 2048) (h : Fin 128) : val_main_v0 (F := Ideal) x w1 (ix2 q h) = s1 x w1 q h := by
  rw [val_main_v0_apply]
  unfold s1
  refine Finset.sum_congr rfl fun f _ => ?_
  have el : lidx_main_v0 (ix2 q h) f = ix2 q f := eq_ix2 _
  have er : ridx_main_v0 (ix2 q h) f = ix2 f h := eq_ix2 _
  rw [el, er]

theorem ref_hid (x : FVec Ideal Cert.KernelIdeal.S2048x256 .f32) (A : FVec Ideal Cert.KernelIdeal.S2048x2048 .f32)
    (w1 : FVec Ideal Cert.KernelIdeal.S256x128 .f32) (b1 : FVec Ideal Cert.KernelIdeal.S128 .f32)
    (k : Fin 2048) (h : Fin 128) : val_main_v6 (F := Ideal) x A w1 b1 (ix2 k h) = hid x A w1 b1 k h := by
  have eb : idx_main_v2 (idx_main_v3 (ix2 k h)) = ix1 h := eq_ix1 _
  have es : ∀ q : Fin 2048, A (lidx_main_v1 (ix2 k h) q) * val_main_v0 (F := Ideal) x w1 (ridx_main_v1 (ix2 k h) q)
      = A (ix2 k q) * s1 x w1 q h := fun q => by
    have el : lidx_main_v1 (ix2 k h) q = ix2 k q := eq_ix2 _
    have er : ridx_main_v1 (ix2 k h) q = ix2 q h := eq_ix2 _
    rw [el, er, ref_s1]
  rw [val_main_v6_apply, val_main_v4_apply, val_main_v1_apply, val_main_v3_apply, val_main_v2_apply,
    val_main_v5_apply, val_main_cst_apply, eb, Finset.sum_congr rfl fun q _ => es q]
  show max (_ + _) (Ideal.ofBits .f32 0x00000000#32) = _
  rw [Ideal.ofBits_zero_f32]
  rfl

theorem ref_s2 (x : FVec Ideal Cert.KernelIdeal.S2048x256 .f32) (A : FVec Ideal Cert.KernelIdeal.S2048x2048 .f32)
    (w1 : FVec Ideal Cert.KernelIdeal.S256x128 .f32) (b1 : FVec Ideal Cert.KernelIdeal.S128 .f32)
    (w2 : FVec Ideal Cert.KernelIdeal.S128x2048 .f32) (k j : Fin 2048) :
    val_main_v7 (F := Ideal) x A w1 b1 w2 (ix2 k j) = s2 x A w1 b1 w2 k j := by
  rw [val_main_v7_apply]
  unfold s2
  refine Finset.sum_congr rfl fun h _ => ?_
  have el : lidx_main_v7 (ix2 k j) h = ix2 k h := eq_ix2 _
  have er : ridx_main_v7 (ix2 k j) h = ix2 h j := eq_ix2 _
  rw [el, er, ref_hid]

theorem ref_pre (x : FVec Ideal Cert.KernelIdeal.S2048x256 .f32) (A : FVec Ideal Cert.KernelIdeal.S2048x2048 .f32)
    (w1 : FVec Ideal Cert.KernelIdeal.S256x128 .f32) (b1 : FVec Ideal Cert.KernelIdeal.S128 .f32)
    (w2 : FVec Ideal Cert.KernelIdeal.S128x2048 .f32) (b2 : FVec Ideal Cert.KernelIdeal.S2048 .f32) (r j : Fin 2048) :
    val_main_v11 (F := Ideal) x A w1 b1 w2 b2 (ix2 r j) = pre x A w1 b1 w2 b2 r j := by
  have eb : idx_main_v9 (idx_main_v10 (ix2 r j)) = ix1 j := eq_ix1 _
  have es : ∀ k : Fin 2048, A (lidx_main_v8 (ix2 r j) k) * val_main_v7 (F := Ideal) x A w1 b1 w2 (ridx_main_v8 (ix2 r j) k)
      = A (ix2 r k) * s2 x A w1 b1 w2 k j := fun k => by
    have el : lidx_main_v8 (ix2 r j) k = ix2 r k := eq_ix2 _
    have er : ridx_main_v8 (ix2 r j) k = ix2 k j := eq_ix2 _
    rw [el, er, ref_s2]
  rw [val_main_v11_apply, val_main_v8_apply, val_main_v10_apply, val_main_v9_apply, eb,
    Finset.sum_congr rfl fun k _ => es k]
  rfl

/-- The reference's result at `(r, j)`: `1 / (1 + exp (-z))` is the logistic function of `z = pre r j` by definition. -/
theorem ref_out (x : FVec Ideal Cert.KernelIdeal.S2048x256 .f32) (A : FVec Ideal Cert.KernelIdeal.S2048x2048 .f32)
    (w1 : FVec Ideal Cert.KernelIdeal.S256x128 .f32) (b1 : FVec Ideal Cert.KernelIdeal.S128 .f32)
    (w2 : FVec Ideal Cert.KernelIdeal.S128x2048 .f32) (b2 : FVec Ideal Cert.KernelIdeal.S2048 .f32) (r j : Fin 2048) :
    val_main_v17 (F := Ideal) x A w1 b1 w2 b2 (ix2 r j) = Ideal.logistic (pre x A w1 b1 w2 b2 r j) := by
  rw [val_main_v17_apply, val_main_v16_apply, val_main_cst_1_apply, val_main_v15_apply, val_main_v14_apply,
    val_main_cst_0_apply, val_main_v13_apply, val_main_v12_apply, ref_pre]
  show Ideal.div (Ideal.ofBits .f32 0x3F800000#32)
      (Ideal.ofBits .f32 0x3F800000#32 + Ideal.exp (-(pre x A w1 b1 w2 b2 r j))) = _
  rw [Ideal.ofBits_one_f32]
  rfl

end ReferenceSide

/-! ## The two results are the same array -/

theorem out_eq_ref
    (x : Vec Ideal Cert.KernelIdeal.S2048x256 .f32) (A : Vec Ideal Cert.KernelIdeal.S2048x2048 .f32)
    (w1 : Vec Ideal Cert.KernelIdeal.S256x128 .f32) (b1 : Vec Ideal Cert.KernelIdeal.S128 .f32)
    (w2 : Vec Ideal Cert.KernelIdeal.S128x2048 .f32) (b2 : Vec Ideal Cert.KernelIdeal.S2048 .f32)
    (b1r : Vec Ideal Cert.KernelIdeal.S1x128 .f32) (b2r : Vec Ideal Cert.KernelIdeal.S1x2048 .f32)
    (hb1 : ∀ y : Cert.KernelIdeal.S1x128.Idx, b1r y = b1 (ValueIdx.ix1 ⟨(y 1).val, (y 1).isLt⟩))
    (hb2 : ∀ y : Cert.KernelIdeal.S1x2048.Idx, b2r y = b2 (ValueIdx.ix1 ⟨(y 1).val, (y 1).isLt⟩)) :
    Cert.KernelIdeal.KSpec.out (F := Ideal) x A w1 b1r w2 b2r
      = Cert.ReferenceIdeal.Read.val_main_v17 (F := Ideal) x A w1 b1 w2 b2 := by
  funext y
  obtain ⟨r, j, rfl⟩ : ∃ (r : Fin 2048) (j : Fin 2048), y = ix2 r j := ⟨y 0, y 1, eq_ix2 y⟩
  rw [out_apply x A w1 b1r b1 w2 b2r b2 (fun h => hb1 (ix2 (0 : Fin 1) h)) (fun c => hb2 (ix2 (0 : Fin 1) c)), ref_out]

end Cert.Bridge

end
-- ==== Proof.KIValue.lean ====
import proofs.«102864_g35416300322820_cont_8to1_b_1386_18_alg».proof.Proof.KIFrame
import proofs.«102864_g35416300322820_cont_8to1_b_1386_18_alg».proof.Proof.Bridge
import Idealize.ShloMosaic.Lib.StableHlo.Run

/-!
# The result array after the run

Each of the points 4–7 writes back its block of the closed form `KSpec.out`, and those four blocks of 512 rows cover the
2048 × 2048 result array: row `r` lies in the block of point `4 + r / 512`. So the array ends holding `KSpec.out` of the
six operands as the region finds them. Four of those are argument arrays untouched by the host; the two bias rows are
the host's reshapes of the bias vectors to one row, which read the vector at the lane. At the extended reals the closed
form is the reference's function of the six arguments (the bridge lemma), which is the statement the equivalence needs.
-/

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen Cert.KernelIdeal.KSpec
open Idealize.ShloMosaic.ValueIdx

variable {F : FTy → Type} [FloatOps F]

variable (m : (ℓ : Loc nD τ sig) → Buf (Elt F) ℓ) (ρ : Dev nD → PrngReg)

/-- The result window's block index at a point `t ≥ 4` is `(t - 4, 0)`. -/
theorem outIdx : ∀ t : Fin cfg0.N, 4 ≤ t.val → win0_6.index t (0 : Fin 2) = t.val - 4 ∧ win0_6.index t (1 : Fin 2) = 0 :=
  (by decide +kernel : ∀ t : Fin grid0.N, 4 ≤ t.val → win0_6.index t (0 : Fin 2) = t.val - 4 ∧ win0_6.index t (1 : Fin 2) = 0)

/-- What a point writes back is its block of the closed form. -/
theorem flushed_out (c : Dev nD) (t : Fin cfg0.N) :
    (dats m 0 c).flushed 6 t = ((cfg0.win 6).blk t).view.read (Elt F) (kOut m c) := by
  show (cfg0.win 6).cut (grid0.coords t) ((dats m 0 c).after 6 t) = _
  rw [after_6]

/-- An index of the result array is in point `t`'s block iff each coordinate is in the block's range. -/
theorem mem_outBlk (t : Fin cfg0.N) (i : S2048x2048.Idx) :
    i ∈ ((cfg0.win 6).blk t).view.set ↔ ∀ a : Fin 2, win0_6.index t a * S512x2048.size a ≤ (i a).val
      ∧ (i a).val < win0_6.index t a * S512x2048.size a + S512x2048.size a := by
  show i ∈ ((View.whole main_v2).slice (win0_6.rect t)).set ↔ _
  rw [View.set_slice_whole, Rect.mem_set_unit]
  exact Iff.rfl

/-- The result array after the run is the closed form. -/
theorem final_out (c : Dev nD) : (dats m 0 c).arrAt 6 cfg0.N = kOut m c :=
  (dats m 0 c).arrAt_eq_of_cover 6 (kOut m c) (fun t _ => flushed_out m c t) fun i => by
    have h0 : (i 0).val < 2048 := (i 0).isLt
    have h1 : (i 1).val < 2048 := (i 1).isLt
    have hN : cfg0.N = 8 := N_0
    have hlt : 4 + (i 0).val / 512 < cfg0.N := by omega
    have ht4 : 4 ≤ (⟨4 + (i 0).val / 512, hlt⟩ : Fin cfg0.N).val := Nat.le_add_right _ _
    have hidx := outIdx ⟨4 + (i 0).val / 512, hlt⟩ ht4
    refine ⟨⟨4 + (i 0).val / 512, hlt⟩, (flush_6 _).mpr ht4, ?_⟩
    rw [mem_outBlk]
    intro a
    match a with
    | ⟨0, _⟩ =>
      show win0_6.index ⟨4 + (i 0).val / 512, hlt⟩ (0 : Fin 2) * 512 ≤ (i 0).val
        ∧ (i 0).val < win0_6.index ⟨4 + (i 0).val / 512, hlt⟩ (0 : Fin 2) * 512 + 512
      rw [hidx.1]
      show (4 + (i 0).val / 512 - 4) * 512 ≤ (i 0).val ∧ (i 0).val < (4 + (i 0).val / 512 - 4) * 512 + 512
      omega
    | ⟨1, _⟩ =>
      show win0_6.index ⟨4 + (i 0).val / 512, hlt⟩ (1 : Fin 2) * 2048 ≤ (i 1).val
        ∧ (i 1).val < win0_6.index ⟨4 + (i 0).val / 512, hlt⟩ (1 : Fin 2) * 2048 + 2048
      rw [hidx.2]
      omega

/-- The run, read: the result array at the closed form, the six arguments unchanged. -/
theorem run : θ_run defs (onTc (τ := τ) (main (F := F))) ⟨m, fun _ => 0, ρ⟩ fun r => ∀ c : Dev nD,
      r.2.mem ((c.tc : Thread nD τ).loc main_v2) = kOut m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun r h c => ⟨((h c).1 6).trans (final_out m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).2 main_arg3 (Pipeline.mem_restRefs_of main_arg3 (by decide) (by decide))).trans (V_main_arg3 m c),
      ((h c).1 4).trans (((dats m 0 c).arrAt_in 4 rfl _).trans ((A_eq m c 4).trans (V_main_arg4 m c))),
      ((h c).2 main_arg5 (Pipeline.mem_restRefs_of main_arg5 (by decide) (by decide))).trans (V_main_arg5 m c)⟩)
    (run_main m ρ)

/-! ## The operands as the region finds them -/

/-- The first bias row is the host's reshape of the bias vector `b1` to one row. -/
theorem opB1_eq (c : Dev nD) :
    opB1 m c = shapeCast S1x128 (m ((c.tc : Thread nD τ).loc main_arg3)) Facts₀.shapeCasts_S128_S1x128 := by
  unfold opB1
  dsimp only [V, hostOps0]
  after_results
  rfl

/-- The second bias row is the host's reshape of the bias vector `b2` to one row. -/
theorem opB2_eq (c : Dev nD) :
    opB2 m c = shapeCast S1x2048 (m ((c.tc : Thread nD τ).loc main_arg5)) Facts₀.shapeCasts_S2048_S1x2048 := by
  unfold opB2
  dsimp only [V, hostOps0]
  after_results
  rfl

/-- Lane `l` of the first bias row is entry `l` of `b1`. -/
theorem opB1_apply (c : Dev nD) (y : S1x128.Idx) :
    opB1 m c y = m ((c.tc : Thread nD τ).loc main_arg3) (ix1 ⟨(y 1).val, (y 1).isLt⟩) := by
  rw [opB1_eq]
  exact (shapeCast_addUnit_apply ![128] _ _ y).trans (congrArg _ (funext fun a => by
    match a with
    | ⟨0, _⟩ => rfl))

/-- Lane `l` of the second bias row is entry `l` of `b2`. -/
theorem opB2_apply (c : Dev nD) (y : S1x2048.Idx) :
    opB2 m c y = m ((c.tc : Thread nD τ).loc main_arg5) (ix1 ⟨(y 1).val, (y 1).isLt⟩) := by
  rw [opB2_eq]
  exact (shapeCast_addUnit_apply ![2048] _ _ y).trans (congrArg _ (funext fun a => by
    match a with
    | ⟨0, _⟩ => rfl))

/-! ## At the extended reals: the reference's function -/

/-- The kernel's result, at the extended reals, is the reference's function of the six argument arrays. -/
theorem kOut_eq_ref (m : (ℓ : Loc nD τ sig) → Buf (Elt Ideal) ℓ) (c : Dev nD) :
    kOut m c = Cert.ReferenceIdeal.Read.val_main_v17 (F := Ideal)
      (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5)) := by
  unfold kOut
  have e0 : opX m c = m ((c.tc : Thread nD τ).loc main_arg0) := V_main_arg0 m c
  have e1 : opAdj m c = m ((c.tc : Thread nD τ).loc main_arg1) := V_main_arg1 m c
  have e2 : opW1 m c = m ((c.tc : Thread nD τ).loc main_arg2) := V_main_arg2 m c
  have e4 : opW2 m c = m ((c.tc : Thread nD τ).loc main_arg4) := V_main_arg4 m c
  rw [e0, e1, e2, e4]
  exact Cert.Bridge.out_eq_ref _ _ _ _ _ _ (opB1 m c) (opB2 m c) (opB1_apply m c) (opB2_apply m c)

/-- The run at the extended reals, with the result array at the reference's function of the arguments. -/
theorem run_ref (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v2) = Cert.ReferenceIdeal.Read.val_main_v17 (F := Ideal)
        (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun r h c => ⟨(h c).1.trans (kOut_eq_ref m c), (h c).2⟩) (run m ρ)

end Cert.KernelIdeal.Body

end
-- ==== Proof.lean ====
/-
  A two-layer dense graph convolution, fused into one kernel, against its plain array reference.

  Both programs compute, from `x` (2048 × 256), `adj` (2048 × 2048), `W1` (256 × 128), `b1` (128), `W2` (128 × 2048) and
  `b2` (2048), the 2048 × 2048 array

      out = logistic (adj · S2 + b2),   S2 = max (adj · (x · W1) + b1, 0) · W2.

  The reference does it with four whole matrix products and spells the logistic function `1 / (1 + exp (-z))`. The kernel
  walks eight grid points over row blocks of 512: at the first it forms `x · W1` once into a scratch buffer; at each of
  the first four it banks its row block of `adj` in a second scratch buffer and stores the matching 512 rows of `S2` into a
  third; at each of the last four it reads a banked row block and the finished `S2` and stores four 512 × 512 tiles of the
  result, which are written back to the result array.

  The frames: both readings of the kernel (machine words, and extended reals) run from any memory, every weakly fair
  execution terminating without a fault with the six arguments unchanged. This is proved once for any float instance:
  the body is run symbolically at each of the three kinds of point, under the invariant that after `n` points the first
  scratch holds `x · W1` and the other two agree with `S2` and `adj` on the first `512 · min n 4` rows. The reference's
  frame is its generated run with the result dropped.

  The idealization rewrote nothing, so that conjunct is `True`.

  The equivalence at the extended reals: the same run names what the result array ends holding — the kernel's arithmetic
  as one function of whole arrays — and, entry by entry, that function and the reference's are the same nested sums over
  the same index sets in the same operand order, the logistic function being by definition `1 / (1 + exp (-z))` there. No
  law that fails at the infinities is used, so the finiteness of the inputs is never opened.
-/
import proofs.«102864_g35416300322820_cont_8to1_b_1386_18_alg».proof.Defs
import proofs.«102864_g35416300322820_cont_8to1_b_1386_18_alg».proof.Proof.Gen.Kernel
import proofs.«102864_g35416300322820_cont_8to1_b_1386_18_alg».proof.Proof.Gen.KernelIdeal
import proofs.«102864_g35416300322820_cont_8to1_b_1386_18_alg».proof.Proof.Gen.ReferenceIdeal
import proofs.«102864_g35416300322820_cont_8to1_b_1386_18_alg».proof.Proof.Gen.ReferenceIdeal.Run
import proofs.«102864_g35416300322820_cont_8to1_b_1386_18_alg».proof.Proof.Gen.Pre_finite_inputs
import proofs.«102864_g35416300322820_cont_8to1_b_1386_18_alg».proof.Proof.KBFrame
import proofs.«102864_g35416300322820_cont_8to1_b_1386_18_alg».proof.Proof.KIValue
import Idealize.ShloMosaic.Adequacy
import Idealize.ShloMosaic.Init

noncomputable section

namespace Cert.Proof

open Idealize.ShloMosaic Idealize.SL.Sem

/-- The kernel read at machine words runs and leaves its arguments unchanged. -/
theorem frame_kernel : Cert.frame_Kernel := fun m ρ _ => Cert.Kernel.Body.frame m ρ

/-- The kernel read at the extended reals runs and leaves its arguments unchanged. -/
theorem frame_kernelIdeal : Cert.frame_KernelIdeal := fun m ρ _ => Cert.KernelIdeal.Body.frame m ρ

/-- The reference runs and leaves its arguments unchanged: its run, the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the six arguments, the kernel and the reference both run and end with the same result
    array: the reference's function of the arguments. -/
theorem algebraic : Cert.algebraic_KernelIdeal_ReferenceIdeal := by
  intro m ρ m' ρ' _ hagree
  refine ⟨_, Cert.KernelIdeal.Body.run_ref m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2.1, (hagree c).2.2.2.2.2]
  exact Cert.ReferenceIdeal.Read.val_main_v17_eq _ _ _ _ _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
